-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x300 : Shape := ⟨2, ![20000, 300]⟩
abbrev S2x320000 : Shape := ⟨2, ![2, 320000]⟩
abbrev S300x256 : Shape := ⟨2, ![300, 256]⟩
abbrev S256 : Shape := ⟨1, ![256]⟩
abbrev S256x256 : Shape := ⟨2, ![256, 256]⟩
abbrev S_ : Shape := ⟨0, ![]⟩

class Facts : Prop where
  bcast_S_S20000x300 : S_.BroadcastsInDim S20000x300 (![] : Fin 0 → Fin S20000x300.rank)
  reducesTo_S20000x300_S_d0_1 : S20000x300.ReducesTo [0, 1] S_
  h_S_ : 0 < S_.numel
  bcast_S_S300x256 : S_.BroadcastsInDim S300x256 (![] : Fin 0 → Fin S300x256.rank)
  reducesTo_S300x256_S_d0_1 : S300x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part3 {F : FTy → Type} [FloatOps F] (main_arg12 : FVec F S256x256 .f32) (main_arg13 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg12
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  main_v63

def fn_part2 {F : FTy → Type} [FloatOps F] (main_arg8 : FVec F S256x256 .f32) (main_arg9 : FVec F S256 .f32) (main_arg10 : FVec F S256x256 .f32) (main_arg11 : FVec F S256 .f32) (main_arg12 : FVec F S256x256 .f32) (main_arg13 : FVec F S256 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg10
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_v48 main_v49 main_v50

def fn_part1 {F : FTy → Type} [FloatOps F] (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S20000x300 .f32) (main_arg1 : IVec S2x320000 32) (main_arg2 : FVec F S300x256 .f32) (main_arg3 : FVec F S256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) : IVec S_ 1 :=
  let main_v0 : FVec F S20000x300 .f32 := Host.absf main_arg0
  let main_cst : FVec F S_ .f32 := constant S_ .f32 0x7F800000#32
  let main_v1 : FVec F S20000x300 .f32 := broadcastInDim S20000x300 ![] bcast_S_S20000x300 main_cst
  let main_v2 : IVec S20000x300 1 := cmpf .olt main_v0 main_v1
  let main_c : IVec S_ 1 := constantI S_ 1 1#1
  let main_v3 : IVec S_ 1 := (fun x v => Host.reduce IntOp.andi x v reducesTo_S20000x300_S_d0_1 h_S_) main_v2 main_c
  let main_v4 : FVec F S300x256 .f32 := Host.absf main_arg2
  let main_cst_0 : FVec F S_ .f32 := constant S_ .f32 0x7F800000#32
  let main_v5 : FVec F S300x256 .f32 := broadcastInDim S300x256 ![] bcast_S_S300x256 main_cst_0
  let main_v6 : IVec S300x256 1 := cmpf .olt main_v4 main_v5
  let main_c_1 : IVec S_ 1 := constantI S_ 1 1#1
  let main_v7 : IVec S_ 1 := (fun x v => Host.reduce IntOp.andi x v reducesTo_S300x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_arg10 main_arg11 main_arg12 main_arg13 main_v13 main_v16
-- ==== Kernel.lean ====
abbrev S20000x300 : Shape := ⟨2, ![20000, 300]⟩
abbrev S2x320000 : Shape := ⟨2, ![2, 320000]⟩
abbrev S300x256 : Shape := ⟨2, ![300, 256]⟩
abbrev S256 : Shape := ⟨1, ![256]⟩
abbrev S256x256 : Shape := ⟨2, ![256, 256]⟩
abbrev S1x320000 : Shape := ⟨2, ![1, 320000]⟩
abbrev S320000 : Shape := ⟨1, ![320000]⟩
abbrev S20000 : Shape := ⟨1, ![20000]⟩
abbrev S340000 : Shape := ⟨1, ![340000]⟩
abbrev S_ : Shape := ⟨0, ![]⟩
abbrev S340000x1 : Shape := ⟨2, ![340000, 1]⟩
abbrev S20000x1 : Shape := ⟨2, ![20000, 1]⟩
abbrev S1x256 : Shape := ⟨2, ![1, 256]⟩
abbrev S20000x256 : Shape := ⟨2, ![20000, 256]⟩
abbrev S1000x300 : Shape := ⟨2, ![1000, 300]⟩
abbrev S1000x1 : Shape := ⟨2, ![1000, 1]⟩
abbrev S1000x256 : Shape := ⟨2, ![1000, 256]⟩
abbrev S340000x256 : Shape := ⟨2, ![340000, 256]⟩

abbrev nBuf : Space → Nat
  | .hbm => 91
  | .vmem => 36
  | .smem => 0
  | _ => 0

abbrev bufTy : (tb : Table) → Fin (tcTables nBuf tb) → BufTy
  | .hbm, ⟨0, _⟩ => ⟨S20000x300, .f32⟩
  | .hbm, ⟨1, _⟩ => ⟨S2x320000, .i32⟩
  | .hbm, ⟨2, _⟩ => ⟨S300x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S1x320000, .i32⟩
  | .hbm, ⟨15, _⟩ => ⟨S320000, .i32⟩
  | .hbm, ⟨16, _⟩ => ⟨S1x320000, .i32⟩
  | .hbm, ⟨17, _⟩ => ⟨S320000, .i32⟩
  | .hbm, ⟨18, _⟩ => ⟨S20000, .i32⟩
  | .hbm, ⟨19, _⟩ => ⟨S340000, .i32⟩
  | .hbm, ⟨20, _⟩ => ⟨S340000, .i32⟩
  | .hbm, ⟨21, _⟩ => ⟨S_, .f32⟩
  | .hbm, ⟨22, _⟩ => ⟨S340000, .f32⟩
  | .hbm, ⟨23, _⟩ => ⟨S_, .f32⟩
  | .hbm, ⟨24, _⟩ => ⟨S20000, .f32⟩
  | .hbm, ⟨25, _⟩ => ⟨S340000x1, .i32⟩
  | .hbm, ⟨26, _⟩ => ⟨S20000, .f32⟩
  | .hbm, ⟨27, _⟩ => ⟨S_, .f32⟩
  | .hbm, ⟨28, _⟩ => ⟨S20000, .f32⟩
  | .hbm, ⟨29, _⟩ => ⟨S20000, .i1⟩
  | .hbm, ⟨30, _⟩ => ⟨S20000, .f32⟩
  | .hbm, ⟨31, _⟩ => ⟨S_, .f32⟩
  | .hbm, ⟨32, _⟩ => ⟨S_, .f32⟩
  | .hbm, ⟨33, _⟩ => ⟨S20000, .f32⟩
  | .hbm, ⟨34, _⟩ => ⟨S20000, .f32⟩
  | .hbm, ⟨35, _⟩ => ⟨S20000x1, .f32⟩
  | .hbm, ⟨36, _⟩ => ⟨S300x256, .bf16⟩
  | .hbm, ⟨37, _⟩ => ⟨S256x256, .bf16⟩
  | .hbm, ⟨38, _⟩ => ⟨S256x256, .bf16⟩
  | .hbm, ⟨39, _⟩ => ⟨S256x256, .bf16⟩
  | .hbm, ⟨40, _⟩ => ⟨S256x256, .bf16⟩
  | .hbm, ⟨41, _⟩ => ⟨S256x256, .bf16⟩
  | .hbm, ⟨42, _⟩ => ⟨S1x256, .f32⟩
  | .hbm, ⟨43, _⟩ => ⟨S1x256, .f32⟩
  | .hbm, ⟨44, _⟩ => ⟨S1x256, .f32⟩
  | .hbm, ⟨45, _⟩ => ⟨S1x256, .f32⟩
  | .hbm, ⟨46, _⟩ => ⟨S1x256, .f32⟩
  | .hbm, ⟨47, _⟩ => ⟨S1x256, .f32⟩
  | .hbm, ⟨48, _⟩ => ⟨S20000x256, .f32⟩
  | .hbm, ⟨49, _⟩ => ⟨S_, .i32⟩
  | .hbm, ⟨50, _⟩ => ⟨S340000, .i32⟩
  | .hbm, ⟨51, _⟩ => ⟨S340000, .i1⟩
  | .hbm, ⟨52, _⟩ => ⟨S_, .i32⟩
  | .hbm, ⟨53, _⟩ => ⟨S340000, .i32⟩
  | .hbm, ⟨54, _⟩ => ⟨S340000, .i32⟩
  | .hbm, ⟨55, _⟩ => ⟨S340000, .i32⟩
  | .hbm, ⟨56, _⟩ => ⟨S340000x1, .i32⟩
  | .hbm, ⟨57, _⟩ => ⟨S340000x256, .f32⟩
  | .hbm, ⟨58, _⟩ => ⟨S_, .f32⟩
  | .hbm, ⟨59, _⟩ => ⟨S20000x256, .f32⟩
  | .hbm, ⟨60, _⟩ => ⟨S340000x1, .i32⟩
  | .hbm, ⟨61, _⟩ => ⟨S20000x256, .f32⟩
  | .hbm, ⟨62, _⟩ => ⟨S20000x256, .f32⟩
  | .hbm, ⟨63, _⟩ => ⟨S_, .i32⟩
  | .hbm, ⟨64, _⟩ => ⟨S340000, .i32⟩
  | .hbm, ⟨65, _⟩ => ⟨S340000, .i1⟩
  | .hbm, ⟨66, _⟩ => ⟨S_, .i32⟩
  | .hbm, ⟨67, _⟩ => ⟨S340000, .i32⟩
  | .hbm, ⟨68, _⟩ => ⟨S340000, .i32⟩
  | .hbm, ⟨69, _⟩ => ⟨S340000, .i32⟩
  | .hbm, ⟨70, _⟩ => ⟨S340000x1, .i32⟩
  | .hbm, ⟨71, _⟩ => ⟨S340000x256, .f32⟩
  | .hbm, ⟨72, _⟩ => ⟨S_, .f32⟩
  | .hbm, ⟨73, _⟩ => ⟨S20000x256, .f32⟩
  | .hbm, ⟨74, _⟩ => ⟨S340000x1, .i32⟩
  | .hbm, ⟨75, _⟩ => ⟨S20000x256, .f32⟩
  | .hbm, ⟨76, _⟩ => ⟨S20000x256, .f32⟩
  | .hbm, ⟨77, _⟩ => ⟨S_, .i32⟩
  | .hbm, ⟨78, _⟩ => ⟨S340000, .i32⟩
  | .hbm, ⟨79, _⟩ => ⟨S340000, .i1⟩
  | .hbm, ⟨80, _⟩ => ⟨S_, .i32⟩
  | .hbm, ⟨81, _⟩ => ⟨S340000, .i32⟩
  | .hbm, ⟨82, _⟩ => ⟨S340000, .i32⟩
  | .hbm, ⟨83, _⟩ => ⟨S340000, .i32⟩
  | .hbm, ⟨84, _⟩ => ⟨S340000x1, .i32⟩
  | .hbm, ⟨85, _⟩ => ⟨S340000x256, .f32⟩
  | .hbm, ⟨86, _⟩ => ⟨S_, .f32⟩
  | .hbm, ⟨87, _⟩ => ⟨S20000x256, .f32⟩
  | .hbm, ⟨88, _⟩ => ⟨S340000x1, .i32⟩
  | .hbm, ⟨89, _⟩ => ⟨S20000x256, .f32⟩
  | .hbm, ⟨90, _⟩ => ⟨S20000x256, .f32⟩
  | .local _ .vmem, ⟨0, _⟩ => ⟨S1000x300, .f32⟩
  | .local _ .vmem, ⟨1, _⟩ => ⟨S1000x300, .f32⟩
  | .local _ .vmem, ⟨2, _⟩ => ⟨S300x256, .bf16⟩
  | .local _ .vmem, ⟨3, _⟩ => ⟨S1000x1, .f32⟩
  | .local _ .vmem, ⟨4, _⟩ => ⟨S1000x1, .f32⟩
  | .local _ .vmem, ⟨5, _⟩ => ⟨S1000x256, .f32⟩
  | .local _ .vmem, ⟨6, _⟩ => ⟨S1000x256, .f32⟩
  | .local _ .vmem, ⟨7, _⟩ => ⟨S1000x256, .f32⟩
  | .local _ .vmem, ⟨8, _⟩ => ⟨S1000x256, .f32⟩
  | .local _ .vmem, ⟨9, _⟩ => ⟨S1000x1, .f32⟩
  | .local _ .vmem, ⟨10, _⟩ => ⟨S1000x1, .f32⟩
  | .local _ .vmem, ⟨11, _⟩ => ⟨S1x256, .f32⟩
  | .local _ .vmem, ⟨12, _⟩ => ⟨S256x256, .bf16⟩
  | .local _ .vmem, ⟨13, _⟩ => ⟨S1000x256, .f32⟩
  | .local _ .vmem, ⟨14, _⟩ => ⟨S1000x256, .f32⟩
  | .local _ .vmem, ⟨15, _⟩ => ⟨S1000x256, .f32⟩
  | .local _ .vmem, ⟨16, _⟩ => ⟨S1000x256, .f32⟩
  | .local _ .vmem, ⟨17, _⟩ => ⟨S1000x1, .f32⟩
  | .local _ .vmem, ⟨18, _⟩ => ⟨S1000x1, .f32⟩
  | .local _ .vmem, ⟨19, _⟩ => ⟨S1x256, .f32⟩
  | .local _ .vmem, ⟨20, _⟩ => ⟨S256x256, .bf16⟩
  | .local _ .vmem, ⟨21, _⟩ => ⟨S1000x256, .f32⟩
  | .local _ .vmem, ⟨22, _⟩ => ⟨S1000x256, .f32⟩
  | .local _ .vmem, ⟨23, _⟩ => ⟨S1000x256, .f32⟩
  | .local _ .vmem, ⟨24, _⟩ => ⟨S1000x256, .f32⟩
  | .local _ .vmem, ⟨25, _⟩ => ⟨S1000x1, .f32⟩
  | .local _ .vmem, ⟨26, _⟩ => ⟨S1000x1, .f32⟩
  | .local _ .vmem, ⟨27, _⟩ => ⟨S1x256, .f32⟩
  | .local _ .vmem, ⟨28, _⟩ => ⟨S256x256, .bf16⟩
  | .local _ .vmem, ⟨29, _⟩ => ⟨S1x256, .f32⟩
  | .local _ .vmem, ⟨30, _⟩ => ⟨S256x256, .bf16⟩
  | .local _ .vmem, ⟨31, _⟩ => ⟨S1x256, .f32⟩
  | .local _ .vmem, ⟨32, _⟩ => ⟨S256x256, .bf16⟩
  | .local _ .vmem, ⟨33, _⟩ => ⟨S1x256, .f32⟩
  | .local _ .vmem, ⟨34, _⟩ => ⟨S1000x256, .f32⟩
  | .local _ .vmem, ⟨35, _⟩ => ⟨S1000x256, .f32⟩
  | _, _ => ⟨S20000x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c : Ref sig .tc := ⟨.hbm, 49, rfl⟩
abbrev main_v29 : Ref sig .tc := ⟨.hbm, 50, rfl⟩
abbrev main_v30 : Ref sig .tc := ⟨.hbm, 51, rfl⟩
abbrev main_c_3 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_4 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_5 : Ref sig .tc := ⟨.hbm, 63, rfl⟩
abbrev main_v40 : Ref sig .tc := ⟨.hbm, 64, rfl⟩
abbrev main_v41 : Ref sig .tc := ⟨.hbm, 65, rfl⟩
abbrev main_c_6 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_7 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_c_8 : Ref sig .tc := ⟨.hbm, 77, rfl⟩
abbrev main_v51 : Ref sig .tc := ⟨.hbm, 78, rfl⟩
abbrev main_v52 : Ref sig .tc := ⟨.hbm, 79, rfl⟩
abbrev main_c_9 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_10 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg6_0 : Ref sig .tc := ⟨.vmem, 31, rfl⟩
abbrev cc3_stg7_0 : Ref sig .tc := ⟨.vmem, 32, rfl⟩
abbrev cc3_stg8_0 : Ref sig .tc := ⟨.vmem, 33, rfl⟩
abbrev cc3_stg9_0 : Ref sig .tc := ⟨.vmem, 34, rfl⟩
abbrev cc3_stg9_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem6_0 : DmaSem sig := 31
abbrev cc3_sem7_0 : DmaSem sig := 32
abbrev cc3_sem8_0 : DmaSem sig := 33
abbrev cc3_sem9_0 : DmaSem sig := 34
abbrev cc3_sem9_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S300x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x256 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x256 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S256x256 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x256 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S1000x256 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  concatenates_S320000_S20000_S340000_d0 : Shape.Concatenates [S320000, S20000] S340000 0
  bcast_S_S340000 : S_.BroadcastsInDim S340000 (![] : Fin 0 → Fin S340000.rank)
  bcast_S_S20000 : S_.BroadcastsInDim S20000 (![] : Fin 0 → Fin S20000.rank)
  bcast_S340000_S340000x1_0 : S340000.BroadcastsInDim S340000x1 (![0] : Fin 1 → Fin S340000x1.rank)
  shapeCasts_S20000_S20000x1 : S20000.ShapeCasts S20000x1
  bitsLt_bf16_f32 : FTy.bits .bf16 < FTy.bits .f32
  shapeCasts_S256_S1x256 : S256.ShapeCasts S1x256
  inb_S1000x300_S1000x300_0_0 : ∀ a, (![0, 0] : Fin 2 → Nat) a + S1000x300.size a ≤ S1000x300.size a
  h_S1000x300 : 0 < S1000x300.numel
  inb_S300x256_S300x256_0_0 : ∀ a, (![0, 0] : Fin 2 → Nat) a + S300x256.size a ≤ S300x256.size a
  h_S300x256 : 0 < S300x256.numel
  shapeCasts_S300x256_S300x256 : S300x256.ShapeCasts S300x256
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x256 : S1000x1.Broadcasts S1000x256
  inb_S1000x256_S1000x256_0_0 : ∀ a, (![0, 0] : Fin 2 → Nat) a + S1000x256.size a ≤ S1000x256.size a
  h_S1000x256 : 0 < S1000x256.numel
  bcast_S_S20000x256 : S_.BroadcastsInDim S20000x256 (![] : Fin 0 → Fin S20000x256.rank)
  shapeCasts_S1000x256_S1000x256 : S1000x256.ShapeCasts S1000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  scatter_S20000_S340000x1_S340000_n_0_0_1_wf : ScatterDims.WF S20000 S340000x1 S340000 [] [0] [0] 1
  dot_S1000x300_S300x256_S1000x256_1_0_0_1_n_n_wf : DotDims.WF S1000x300 S300x256 S1000x256 [1] [0] [0] [1] [] []
  gather_S20000x256_S340000x1_S340000x256_1_0_n_n_0_1_1256_wf : GatherDims.WF S20000x256 S340000x1 S340000x256 [1] [0] [] [0] [] 1 ![1, 256]
  scatter_S20000x256_S340000x1_S340000x256_1_0_0_1_wf : ScatterDims.WF S20000x256 S340000x1 S340000x256 [1] [0] [0] 1
  dot_S1000x256_S256x256_S1000x256_1_0_0_1_n_n_wf : DotDims.WF S1000x256 S256x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x300.size a ≤ S20000x300.size a
  hwx0_0 : ∀ i : grid0.Coords, EltTy.bits .f32 = 32 ∨ (Rect.block (s := S20000x300) S1000x300.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S300x256.size a ≤ S300x256.size a
  hwx0_1 : ∀ i : grid0.Coords, EltTy.bits .bf16 = 32 ∨ (Rect.block (s := S300x256) S300x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1.size a ≤ S20000x1.size a
  hwx0_2 : ∀ i : grid0.Coords, EltTy.bits .f32 = 32 ∨ (Rect.block (s := S20000x1) S1000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x256.size a ≤ S20000x256.size a
  hwx0_3 : ∀ i : grid0.Coords, EltTy.bits .f32 = 32 ∨ (Rect.block (s := S20000x256) S1000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S20000x256.size a
  hwx1_0 : ∀ i : grid1.Coords, EltTy.bits .f32 = 32 ∨ (Rect.block (s := S20000x256) S1000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x1.size a ≤ S20000x1.size a
  hwx1_1 : ∀ i : grid1.Coords, EltTy.bits .f32 = 32 ∨ (Rect.block (s := S20000x1) S1000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x256.size a ≤ S20000x256.size a
  hwx1_4 : ∀ i : grid1.Coords, EltTy.bits .f32 = 32 ∨ (Rect.block (s := S20000x256) S1000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x256.size a ≤ S20000x256.size a
  hwx2_0 : ∀ i : grid2.Coords, EltTy.bits .f32 = 32 ∨ (Rect.block (s := S20000x256) S1000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x1.size a ≤ S20000x1.size a
  hwx2_1 : ∀ i : grid2.Coords, EltTy.bits .f32 = 32 ∨ (Rect.block (s := S20000x1) S1000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .bf16 = 32 ∨ (Rect.block (s := S256x256) S256x256.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1000x256.size a ≤ S20000x256.size a
  hwx2_4 : ∀ i : grid2.Coords, EltTy.bits .f32 = 32 ∨ (Rect.block (s := S20000x256) S1000x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x256.size a ≤ S20000x256.size a
  hwx3_0 : ∀ i : grid3.Coords, EltTy.bits .f32 = 32 ∨ (Rect.block (s := S20000x256) S1000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x1.size a ≤ S20000x1.size a
  hwx3_1 : ∀ i : grid3.Coords, EltTy.bits .f32 = 32 ∨ (Rect.block (s := S20000x1) S1000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .bf16 = 32 ∨ (Rect.block (s := S256x256) S256x256.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x256.size a ≤ S256x256.size a
  hwx3_5 : ∀ i : grid3.Coords, EltTy.bits .bf16 = 32 ∨ (Rect.block (s := S256x256) S256x256.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S256x256.size a ≤ S256x256.size a
  hwx3_7 : ∀ i : grid3.Coords, EltTy.bits .bf16 = 32 ∨ (Rect.block (s := S256x256) S256x256.size (cc3_transform_7 i) (hinb3_7 i)).WholeWords (EltTy.packing .bf16)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x256.size a ≤ S1x256.size a
  hwx3_8 : ∀ i : grid3.Coords, EltTy.bits .f32 = 32 ∨ (Rect.block (s := S1x256) S1x256.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S1000x256.size a ≤ S20000x256.size a
  hwx3_9 : ∀ i : grid3.Coords, EltTy.bits .f32 = 32 ∨ (Rect.block (s := S20000x256) S1000x256.size (cc3_transform_9 i) (hinb3_9 i)).WholeWords (EltTy.packing .f32)

variable [Facts₀]

def scatter_S20000_S340000x1_S340000_n_0_0_1 : ScatterDims S20000 S340000x1 S340000 where
  updateWindowDims := []
  insertedWindowDims := [0]
  scatterDimsToOperandDims := [0]
  indexVectorDim := 1
  wf := scatter_S20000_S340000x1_S340000_n_0_0_1_wf
def dot_S1000x300_S300x256_S1000x256_1_0_0_1_n_n : DotDims S1000x300 S300x256 S1000x256 where
  lhsContracting := [1]
  rhsContracting := [0]
  lhsNonContracting := [0]
  rhsNonContracting := [1]
  lhsBatch := []
  rhsBatch := []
  wf := dot_S1000x300_S300x256_S1000x256_1_0_0_1_n_n_wf
def gather_S20000x256_S340000x1_S340000x256_1_0_n_n_0_1_1256 : GatherDims S20000x256 S340000x1 S340000x256 where
  offsetDims := [1]
  collapsedSliceDims := [0]
  operandBatchingDims := []
  startIndicesBatchingDims := []
  startIndexMap := [0]
  indexVectorDim := 1
  sliceSizes := ![1, 256]
  wf := gather_S20000x256_S340000x1_S340000x256_1_0_n_n_0_1_1256_wf
def scatter_S20000x256_S340000x1_S340000x256_1_0_0_1 : ScatterDims S20000x256 S340000x1 S340000x256 where
  updateWindowDims := [1]
  insertedWindowDims := [0]
  scatterDimsToOperandDims := [0]
  indexVectorDim := 1
  wf := scatter_S20000x256_S340000x1_S340000x256_1_0_0_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf

abbrev win0_0 : Pipeline.Window sig grid0 :=
  Pipeline.Window.ofSpec (Memref.whole main_arg0) S1000x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S300x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v38) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v49) S1000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S1000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v23) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v18) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v50) S1000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v60) S1000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S1000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v24) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v19) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v25) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v20) S256x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v26) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v21) S256x256.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v27) S1x256.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v61) S1000x256.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S20000x300 : Shape := ⟨2, ![20000, 300]⟩
abbrev S2x320000 : Shape := ⟨2, ![2, 320000]⟩
abbrev S300x256 : Shape := ⟨2, ![300, 256]⟩
abbrev S256 : Shape := ⟨1, ![256]⟩
abbrev S256x256 : Shape := ⟨2, ![256, 256]⟩
abbrev S20000 : Shape := ⟨1, ![20000]⟩
abbrev S1x320000 : Shape := ⟨2, ![1, 320000]⟩
abbrev S320000 : Shape := ⟨1, ![320000]⟩
abbrev S340000 : Shape := ⟨1, ![340000]⟩
abbrev S20000x256 : Shape := ⟨2, ![20000, 256]⟩
abbrev S_ : Shape := ⟨0, ![]⟩
abbrev S340000x1 : Shape := ⟨2, ![340000, 1]⟩
abbrev S340000x256 : Shape := ⟨2, ![340000, 256]⟩
abbrev S1x256 : Shape := ⟨2, ![1, 256]⟩

abbrev nBuf : Space → Nat
  | .hbm => 204
  | .vmem => 0
  | .smem => 0
  | _ => 0

abbrev hbmTy0_0 (i : Nat) : BufTy := match i % 128 with
  | 0 => ⟨S20000x300, .f32⟩
  | 1 => ⟨S2x320000, .i32⟩
  | 2 => ⟨S300x256, .f32⟩
  | 3 => ⟨S256, .f32⟩
  | 4 => ⟨S256x256, .f32⟩
  | 5 => ⟨S256, .f32⟩
  | 6 => ⟨S256x256, .f32⟩
  | 7 => ⟨S256, .f32⟩
  | 8 => ⟨S256x256, .f32⟩
  | 9 => ⟨S256, .f32⟩
  | 10 => ⟨S256x256, .f32⟩
  | 11 => ⟨S256, .f32⟩
  | 12 => ⟨S256x256, .f32⟩
  | 13 => ⟨S256, .f32⟩
  | 14 => ⟨S20000, .i32⟩
  | 15 => ⟨S1x320000, .i32⟩
  | 16 => ⟨S320000, .i32⟩
  | 17 => ⟨S340000, .i32⟩
  | 18 => ⟨S1x320000, .i32⟩
  | 19 => ⟨S320000, .i32⟩
  | 20 => ⟨S340000, .i32⟩
  | 21 => ⟨S20000x256, .f32⟩
  | 22 => ⟨S_, .f32⟩
  | 23 => ⟨S340000, .f32⟩
  | 24 => ⟨S_, .f32⟩
  | 25 => ⟨S20000, .f32⟩
  | 26 => ⟨S340000x1, .i32⟩
  | 27 => ⟨S20000, .f32⟩
  | 28 => ⟨S_, .f32⟩
  | 29 => ⟨S20000, .f32⟩
  | 30 => ⟨S20000, .i1⟩
  | 31 => ⟨S20000, .f32⟩
  | 32 => ⟨S_, .f32⟩
  | 33 => ⟨S_, .f32⟩
  | 34 => ⟨S20000, .f32⟩
  | 35 => ⟨S20000, .f32⟩
  | 36 => ⟨S_, .i32⟩
  | 37 => ⟨S340000, .i32⟩
  | 38 => ⟨S340000, .i1⟩
  | 39 => ⟨S_, .i32⟩
  | 40 => ⟨S340000, .i32⟩
  | 41 => ⟨S340000, .i32⟩
  | 42 => ⟨S340000, .i32⟩
  | 43 => ⟨S340000x1, .i32⟩
  | 44 => ⟨S340000, .f32⟩
  | 45 => ⟨S_, .i32⟩
  | 46 => ⟨S340000, .i32⟩
  | 47 => ⟨S340000, .i1⟩
  | 48 => ⟨S_, .i32⟩
  | 49 => ⟨S340000, .i32⟩
  | 50 => ⟨S340000, .i32⟩
  | 51 => ⟨S340000, .i32⟩
  | 52 => ⟨S340000x1, .i32⟩
  | 53 => ⟨S340000, .f32⟩
  | 54 => ⟨S340000, .f32⟩
  | 55 => ⟨S_, .i32⟩
  | 56 => ⟨S340000, .i32⟩
  | 57 => ⟨S340000, .i1⟩
  | 58 => ⟨S_, .i32⟩
  | 59 => ⟨S340000, .i32⟩
  | 60 => ⟨S340000, .i32⟩
  | 61 => ⟨S340000, .i32⟩
  | 62 => ⟨S340000x1, .i32⟩
  | 63 => ⟨S340000x256, .f32⟩
  | 64 => ⟨S340000x1, .f32⟩
  | 65 => ⟨S340000x256, .f32⟩
  | 66 => ⟨S340000x256, .f32⟩
  | 67 => ⟨S_, .f32⟩
  | 68 => ⟨S20000x256, .f32⟩
  | 69 => ⟨S340000x1, .i32⟩
  | 70 => ⟨S20000x256, .f32⟩
  | 71 => ⟨S1x256, .f32⟩
  | 72 => ⟨S20000x256, .f32⟩
  | 73 => ⟨S20000x256, .f32⟩
  | 74 => ⟨S_, .f32⟩
  | 75 => ⟨S20000x256, .f32⟩
  | 76 => ⟨S20000x256, .f32⟩
  | 77 => ⟨S20000x256, .f32⟩
  | 78 => ⟨S_, .f32⟩
  | 79 => ⟨S340000, .f32⟩
  | 80 => ⟨S_, .f32⟩
  | 81 => ⟨S20000, .f32⟩
  | 82 => ⟨S340000x1, .i32⟩
  | 83 => ⟨S20000, .f32⟩
  | 84 => ⟨S_, .f32⟩
  | 85 => ⟨S20000, .f32⟩
  | 86 => ⟨S20000, .i1⟩
  | 87 => ⟨S20000, .f32⟩
  | 88 => ⟨S_, .f32⟩
  | 89 => ⟨S_, .f32⟩
  | 90 => ⟨S20000, .f32⟩
  | 91 => ⟨S20000, .f32⟩
  | 92 => ⟨S_, .i32⟩
  | 93 => ⟨S340000, .i32⟩
  | 94 => ⟨S340000, .i1⟩
  | 95 => ⟨S_, .i32⟩
  | 96 => ⟨S340000, .i32⟩
  | 97 => ⟨S340000, .i32⟩
  | 98 => ⟨S340000, .i32⟩
  | 99 => ⟨S340000x1, .i32⟩
  | 100 => ⟨S340000, .f32⟩
  | 101 => ⟨S_, .i32⟩
  | 102 => ⟨S340000, .i32⟩
  | 103 => ⟨S340000, .i1⟩
  | 104 => ⟨S_, .i32⟩
  | 105 => ⟨S340000, .i32⟩
  | 106 => ⟨S340000, .i32⟩
  | 107 => ⟨S340000, .i32⟩
  | 108 => ⟨S340000x1, .i32⟩
  | 109 => ⟨S340000, .f32⟩
  | 110 => ⟨S340000, .f32⟩
  | 111 => ⟨S_, .i32⟩
  | 112 => ⟨S340000, .i32⟩
  | 113 => ⟨S340000, .i1⟩
  | 114 => ⟨S_, .i32⟩
  | 115 => ⟨S340000, .i32⟩
  | 116 => ⟨S340000, .i32⟩
  | 117 => ⟨S340000, .i32⟩
  | 118 => ⟨S340000x1, .i32⟩
  | 119 => ⟨S340000x256, .f32⟩
  | 120 => ⟨S340000x1, .f32⟩
  | 121 => ⟨S340000x256, .f32⟩
  | 122 => ⟨S340000x256, .f32⟩
  | 123 => ⟨S_, .f32⟩
  | 124 => ⟨S20000x256, .f32⟩
  | 125 => ⟨S340000x1, .i32⟩
  | 126 => ⟨S20000x256, .f32⟩
  | 127 => ⟨S1x256, .f32⟩
  | _ => ⟨S20000x300, .f32⟩

abbrev hbmTy0_1 (i : Nat) : BufTy := match i % 128 with
  | 0 => ⟨S20000x256, .f32⟩
  | 1 => ⟨S20000x256, .f32⟩
  | 2 => ⟨S_, .f32⟩
  | 3 => ⟨S20000x256, .f32⟩
  | 4 => ⟨S20000x256, .f32⟩
  | 5 => ⟨S20000x256, .f32⟩
  | 6 => ⟨S_, .f32⟩
  | 7 => ⟨S340000, .f32⟩
  | 8 => ⟨S_, .f32⟩
  | 9 => ⟨S20000, .f32⟩
  | 10 => ⟨S340000x1, .i32⟩
  | 11 => ⟨S20000, .f32⟩
  | 12 => ⟨S_, .f32⟩
  | 13 => ⟨S20000, .f32⟩
  | 14 => ⟨S20000, .i1⟩
  | 15 => ⟨S20000, .f32⟩
  | 16 => ⟨S_, .f32⟩
  | 17 => ⟨S_, .f32⟩
  | 18 => ⟨S20000, .f32⟩
  | 19 => ⟨S20000, .f32⟩
  | 20 => ⟨S_, .i32⟩
  | 21 => ⟨S340000, .i32⟩
  | 22 => ⟨S340000, .i1⟩
  | 23 => ⟨S_, .i32⟩
  | 24 => ⟨S340000, .i32⟩
  | 25 => ⟨S340000, .i32⟩
  | 26 => ⟨S340000, .i32⟩
  | 27 => ⟨S340000x1, .i32⟩
  | 28 => ⟨S340000, .f32⟩
  | 29 => ⟨S_, .i32⟩
  | 30 => ⟨S340000, .i32⟩
  | 31 => ⟨S340000, .i1⟩
  | 32 => ⟨S_, .i32⟩
  | 33 => ⟨S340000, .i32⟩
  | 34 => ⟨S340000, .i32⟩
  | 35 => ⟨S340000, .i32⟩
  | 36 => ⟨S340000x1, .i32⟩
  | 37 => ⟨S340000, .f32⟩
  | 38 => ⟨S340000, .f32⟩
  | 39 => ⟨S_, .i32⟩
  | 40 => ⟨S340000, .i32⟩
  | 41 => ⟨S340000, .i1⟩
  | 42 => ⟨S_, .i32⟩
  | 43 => ⟨S340000, .i32⟩
  | 44 => ⟨S340000, .i32⟩
  | 45 => ⟨S340000, .i32⟩
  | 46 => ⟨S340000x1, .i32⟩
  | 47 => ⟨S340000x256, .f32⟩
  | 48 => ⟨S340000x1, .f32⟩
  | 49 => ⟨S340000x256, .f32⟩
  | 50 => ⟨S340000x256, .f32⟩
  | 51 => ⟨S_, .f32⟩
  | 52 => ⟨S20000x256, .f32⟩
  | 53 => ⟨S340000x1, .i32⟩
  | 54 => ⟨S20000x256, .f32⟩
  | 55 => ⟨S1x256, .f32⟩
  | 56 => ⟨S20000x256, .f32⟩
  | 57 => ⟨S20000x256, .f32⟩
  | 58 => ⟨S20000x256, .f32⟩
  | 59 => ⟨S1x256, .f32⟩
  | 60 => ⟨S20000x256, .f32⟩
  | 61 => ⟨S20000x256, .f32⟩
  | 62 => ⟨S_, .f32⟩
  | 63 => ⟨S20000x256, .f32⟩
  | 64 => ⟨S20000x256, .f32⟩
  | 65 => ⟨S20000x256, .f32⟩
  | 66 => ⟨S1x256, .f32⟩
  | 67 => ⟨S20000x256, .f32⟩
  | 68 => ⟨S20000x256, .f32⟩
  | 69 => ⟨S_, .f32⟩
  | 70 => ⟨S20000x256, .f32⟩
  | 71 => ⟨S20000x256, .f32⟩
  | 72 => ⟨S20000x256, .f32⟩
  | 73 => ⟨S1x256, .f32⟩
  | 74 => ⟨S20000x256, .f32⟩
  | 75 => ⟨S20000x256, .f32⟩
  | _ => ⟨S20000x300, .f32⟩

abbrev hbmTy (i : Nat) : BufTy := match i / 128 with
  | 0 => hbmTy0_0 i
  | 1 => hbmTy0_1 i
  | _ => ⟨S20000x300, .f32⟩

abbrev bufTy : (tb : Table) → Fin (tcTables nBuf tb) → BufTy
  | .hbm, ⟨i, _⟩ => hbmTy i
  | _, _ => ⟨S20000x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_4 : Ref sig .tc := ⟨.hbm, 45, rfl⟩
abbrev main_v23 : Ref sig .tc := ⟨.hbm, 46, rfl⟩
abbrev main_v24 : Ref sig .tc := ⟨.hbm, 47, rfl⟩
abbrev main_c_5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_c_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_call1_cst : Ref sig .tc := ⟨.hbm, 74, rfl⟩
abbrev main_call1_v0 : Ref sig .tc := ⟨.hbm, 75, rfl⟩
abbrev main_v47 : Ref sig .tc := ⟨.hbm, 76, rfl⟩
abbrev main_v48 : Ref sig .tc := ⟨.hbm, 77, rfl⟩
abbrev main_cst_9 : Ref sig .tc := ⟨.hbm, 78, rfl⟩
abbrev main_v49 : Ref sig .tc := ⟨.hbm, 79, rfl⟩
abbrev main_cst_10 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_11 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_12 : Ref sig .tc := ⟨.hbm, 88, rfl⟩
abbrev main_call2_v0 : Ref sig .tc := ⟨.hbm, 89, rfl⟩
abbrev main_call2_v1 : Ref sig .tc := ⟨.hbm, 90, rfl⟩
abbrev main_v56 : Ref sig .tc := ⟨.hbm, 91, rfl⟩
abbrev main_c_13 : Ref sig .tc := ⟨.hbm, 92, rfl⟩
abbrev main_v57 : Ref sig .tc := ⟨.hbm, 93, rfl⟩
abbrev main_v58 : Ref sig .tc := ⟨.hbm, 94, rfl⟩
abbrev main_c_14 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_c_15 : Ref sig .tc := ⟨.hbm, 101, rfl⟩
abbrev main_v64 : Ref sig .tc := ⟨.hbm, 102, rfl⟩
abbrev main_v65 : Ref sig .tc := ⟨.hbm, 103, rfl⟩
abbrev main_c_16 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_c_17 : Ref sig .tc := ⟨.hbm, 111, rfl⟩
abbrev main_v72 : Ref sig .tc := ⟨.hbm, 112, rfl⟩
abbrev main_v73 : Ref sig .tc := ⟨.hbm, 113, rfl⟩
abbrev main_c_18 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_cst_19 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_call3_cst : Ref sig .tc := ⟨.hbm, 130, rfl⟩
abbrev main_call3_v0 : Ref sig .tc := ⟨.hbm, 131, rfl⟩
abbrev main_v88 : Ref sig .tc := ⟨.hbm, 132, rfl⟩
abbrev main_v89 : Ref sig .tc := ⟨.hbm, 133, rfl⟩
abbrev main_cst_20 : Ref sig .tc := ⟨.hbm, 134, rfl⟩
abbrev main_v90 : Ref sig .tc := ⟨.hbm, 135, rfl⟩
abbrev main_cst_21 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_cst_22 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_cst_23 : Ref sig .tc := ⟨.hbm, 144, rfl⟩
abbrev main_call4_v0 : Ref sig .tc := ⟨.hbm, 145, rfl⟩
abbrev main_call4_v1 : Ref sig .tc := ⟨.hbm, 146, rfl⟩
abbrev main_v97 : Ref sig .tc := ⟨.hbm, 147, rfl⟩
abbrev main_c_24 : Ref sig .tc := ⟨.hbm, 148, rfl⟩
abbrev main_v98 : Ref sig .tc := ⟨.hbm, 149, rfl⟩
abbrev main_v99 : Ref sig .tc := ⟨.hbm, 150, rfl⟩
abbrev main_c_25 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_c_26 : Ref sig .tc := ⟨.hbm, 157, rfl⟩
abbrev main_v105 : Ref sig .tc := ⟨.hbm, 158, rfl⟩
abbrev main_v106 : Ref sig .tc := ⟨.hbm, 159, rfl⟩
abbrev main_c_27 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_c_28 : Ref sig .tc := ⟨.hbm, 167, rfl⟩
abbrev main_v113 : Ref sig .tc := ⟨.hbm, 168, rfl⟩
abbrev main_v114 : Ref sig .tc := ⟨.hbm, 169, rfl⟩
abbrev main_c_29 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_cst_30 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_call5_cst : Ref sig .tc := ⟨.hbm, 190, rfl⟩
abbrev main_call5_v0 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_call6_cst : Ref sig .tc := ⟨.hbm, 197, rfl⟩
abbrev main_call6_v0 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  concatenates_S320000_S20000_S340000_d0 : Shape.Concatenates [S320000, S20000] S340000 0
  slices_S2x320000_S1x320000_1_0 : S2x320000.Slices ![1, 0] S1x320000
  bcast_S_S340000 : S_.BroadcastsInDim S340000 (![] : Fin 0 → Fin S340000.rank)
  bcast_S_S20000 : S_.BroadcastsInDim S20000 (![] : Fin 0 → Fin S20000.rank)
  bcast_S340000_S340000x1_0 : S340000.BroadcastsInDim S340000x1 (![0] : Fin 1 → Fin S340000x1.rank)
  bcast_S340000x1_S340000x256_0_1 : S340000x1.BroadcastsInDim S340000x256 (![0, 1] : Fin 2 → Fin S340000x256.rank)
  bcast_S_S20000x256 : S_.BroadcastsInDim S20000x256 (![] : Fin 0 → Fin S20000x256.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  dot_S20000x300_S300x256_S20000x256_1_0_0_1_n_n_wf : DotDims.WF S20000x300 S300x256 S20000x256 [1] [0] [0] [1] [] []
  scatter_S20000_S340000x1_S340000_n_0_0_1_wf : ScatterDims.WF S20000 S340000x1 S340000 [] [0] [0] 1
  gather_S20000_S340000x1_S340000_n_0_n_n_0_1_1_wf : GatherDims.WF S20000 S340000x1 S340000 [] [0] [] [0] [] 1 ![1]
  gather_S20000x256_S340000x1_S340000x256_1_0_n_n_0_1_1256_wf : GatherDims.WF S20000x256 S340000x1 S340000x256 [1] [0] [] [0] [] 1 ![1, 256]
  scatter_S20000x256_S340000x1_S340000x256_1_0_0_1_wf : ScatterDims.WF S20000x256 S340000x1 S340000x256 [1] [0] [0] 1
  dot_S20000x256_S256x256_S20000x256_1_0_0_1_n_n_wf : DotDims.WF S20000x256 S256x256 S20000x256 [1] [0] [0] [1] [] []

variable [Facts₀]

def dot_S20000x300_S300x256_S20000x256_1_0_0_1_n_n : DotDims S20000x300 S300x256 S20000x256 where
  lhsContracting := [1]
  rhsContracting := [0]
  lhsNonContracting := [0]
  rhsNonContracting := [1]
  lhsBatch := []
  rhsBatch := []
  wf := dot_S20000x300_S300x256_S20000x256_1_0_0_1_n_n_wf
def scatter_S20000_S340000x1_S340000_n_0_0_1 : ScatterDims S20000 S340000x1 S340000 where
  updateWindowDims := []
  insertedWindowDims := [0]
  scatterDimsToOperandDims := [0]
  indexVectorDim := 1
  wf := scatter_S20000_S340000x1_S340000_n_0_0_1_wf
def gather_S20000_S340000x1_S340000_n_0_n_n_0_1_1 : GatherDims S20000 S340000x1 S340000 where
  offsetDims := []
  collapsedSliceDims := [0]
  operandBatchingDims := []
  startIndicesBatchingDims := []
  startIndexMap := [0]
  indexVectorDim := 1
  sliceSizes := ![1]
  wf := gather_S20000_S340000x1_S340000_n_0_n_n_0_1_1_wf
def gather_S20000x256_S340000x1_S340000x256_1_0_n_n_0_1_1256 : GatherDims S20000x256 S340000x1 S340000x256 where
  offsetDims := [1]
  collapsedSliceDims := [0]
  operandBatchingDims := []
  startIndicesBatchingDims := []
  startIndexMap := [0]
  indexVectorDim := 1
  sliceSizes := ![1, 256]
  wf := gather_S20000x256_S340000x1_S340000x256_1_0_n_n_0_1_1256_wf
def scatter_S20000x256_S340000x1_S340000x256_1_0_0_1 : ScatterDims S20000x256 S340000x1 S340000x256 where
  updateWindowDims := [1]
  insertedWindowDims := [0]
  scatterDimsToOperandDims := [0]
  indexVectorDim := 1
  wf := scatter_S20000x256_S340000x1_S340000x256_1_0_0_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf

class Facts : Prop extends Facts₀ where

variable [Facts]
-- ==== Proof.KernelRun.lean ====
/-
  The idealized kernel program's run, with its result named.

  @main is ten segments: three stretches of host operations, then four times a row-tiled region followed (but for
  the last) by a stretch that gathers and re-aggregates the region's output. Every weakly fair execution
  terminates, and the final memory holds, at every buffer that outlives a region, the contents obtained by folding the
  segments over the launch memory: a host operation rewrites its result buffer by its function, a region rewrites its
  output array by what its write-backs leave. The frame statement reads only the argument buffers back out of that
  final memory; here the result buffer is read out too, at the last boundary's contents.
-/
import proofs.«176313_j54795192762716_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's
    contents and every argument buffer as launched. -/
theorem run : θ_run defs (onTc (τ := τ) (main (F := F))) ⟨m, fun _ => 0, ρ⟩ (fun r => ∀ c : Dev nD,
      r.2.mem ((c.tc : Thread nD τ).loc main_v61) = W10 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v61 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c)⟩)

end Cert.KernelIdeal.Result

end
-- ==== Proof.KernelBoundary.lean ====
/-
  Buffers that outlive the regions.

  The weight column, the recast biases, the narrowed weight matrices and the two index vectors are written by host
  operations before the first region and by nothing afterwards: a later stretch of host operations writes only its own
  results, and a region writes only its output array (an input window's array comes out as it went in). So at every
  later boundary each of them still holds what it held when the first region was entered.
-/
import proofs.«176313_j54795192762716_2_alg».proof.Proof.Gen.KernelIdeal.Frame
import Idealize.ShloMosaic.PureOps.Ideal

set_option maxRecDepth 16384

noncomputable section

namespace Cert.KernelIdeal.Boundary

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

theorem v15_at5 : W5 m ρ c (Proc.devRef .tc main_v15) = W3 m ρ c (Proc.devRef .tc main_v15) :=
  (((by show StableHlo.after hostOps1 (W4 m ρ c) _ = _; after_results) : W5 m ρ c (Proc.devRef .tc main_v15) = W4 m ρ c (Proc.devRef .tc main_v15)).trans
    (((W4_arr m ρ c 2).trans (((dat0 (V3 m ρ) c).arrAt_in 2 rfl _).trans (A_eq0 (V3 m ρ) c 2))) : W4 m ρ c (Proc.devRef .tc main_v15) = W3 m ρ c (Proc.devRef .tc main_v15)))

theorem v15_at7 : W7 m ρ c (Proc.devRef .tc main_v15) = W3 m ρ c (Proc.devRef .tc main_v15) :=
  (((((by show StableHlo.after hostOps2 (W6 m ρ c) _ = _; after_results) : W7 m ρ c (Proc.devRef .tc main_v15) = W6 m ρ c (Proc.devRef .tc main_v15)).trans
    (((W6_arr m ρ c 1).trans (((dat1 (V5 m ρ) c).arrAt_in 1 rfl _).trans (A_eq1 (V5 m ρ) c 1))) : W6 m ρ c (Proc.devRef .tc main_v15) = W5 m ρ c (Proc.devRef .tc main_v15))).trans
    ((by show StableHlo.after hostOps1 (W4 m ρ c) _ = _; after_results) : W5 m ρ c (Proc.devRef .tc main_v15) = W4 m ρ c (Proc.devRef .tc main_v15))).trans
    (((W4_arr m ρ c 2).trans (((dat0 (V3 m ρ) c).arrAt_in 2 rfl _).trans (A_eq0 (V3 m ρ) c 2))) : W4 m ρ c (Proc.devRef .tc main_v15) = W3 m ρ c (Proc.devRef .tc main_v15)))

theorem v15_at9 : W9 m ρ c (Proc.devRef .tc main_v15) = W3 m ρ c (Proc.devRef .tc main_v15) :=
  (((((((by show StableHlo.after hostOps3 (W8 m ρ c) _ = _; after_results) : W9 m ρ c (Proc.devRef .tc main_v15) = W8 m ρ c (Proc.devRef .tc main_v15)).trans
    (((W8_arr m ρ c 1).trans (((dat2 (V7 m ρ) c).arrAt_in 1 rfl _).trans (A_eq2 (V7 m ρ) c 1))) : W8 m ρ c (Proc.devRef .tc main_v15) = W7 m ρ c (Proc.devRef .tc main_v15))).trans
    ((by show StableHlo.after hostOps2 (W6 m ρ c) _ = _; after_results) : W7 m ρ c (Proc.devRef .tc main_v15) = W6 m ρ c (Proc.devRef .tc main_v15))).trans
    (((W6_arr m ρ c 1).trans (((dat1 (V5 m ρ) c).arrAt_in 1 rfl _).trans (A_eq1 (V5 m ρ) c 1))) : W6 m ρ c (Proc.devRef .tc main_v15) = W5 m ρ c (Proc.devRef .tc main_v15))).trans
    ((by show StableHlo.after hostOps1 (W4 m ρ c) _ = _; after_results) : W5 m ρ c (Proc.devRef .tc main_v15) = W4 m ρ c (Proc.devRef .tc main_v15))).trans
    (((W4_arr m ρ c 2).trans (((dat0 (V3 m ρ) c).arrAt_in 2 rfl _).trans (A_eq0 (V3 m ρ) c 2))) : W4 m ρ c (Proc.devRef .tc main_v15) = W3 m ρ c (Proc.devRef .tc main_v15)))

theorem v5_at4 : W4 m ρ c (Proc.devRef .tc main_v5) = W3 m ρ c (Proc.devRef .tc main_v5) :=
  ((W4_of_ne m ρ c main_v5 (by decide)) : W4 m ρ c (Proc.devRef .tc main_v5) = W3 m ρ c (Proc.devRef .tc main_v5))

theorem v5_at6 : W6 m ρ c (Proc.devRef .tc main_v5) = W3 m ρ c (Proc.devRef .tc main_v5) :=
  ((((W6_of_ne m ρ c main_v5 (by decide)) : W6 m ρ c (Proc.devRef .tc main_v5) = W5 m ρ c (Proc.devRef .tc main_v5)).trans
    ((by show StableHlo.after hostOps1 (W4 m ρ c) _ = _; after_results) : W5 m ρ c (Proc.devRef .tc main_v5) = W4 m ρ c (Proc.devRef .tc main_v5))).trans
    ((W4_of_ne m ρ c main_v5 (by decide)) : W4 m ρ c (Proc.devRef .tc main_v5) = W3 m ρ c (Proc.devRef .tc main_v5)))

theorem v5_at8 : W8 m ρ c (Proc.devRef .tc main_v5) = W3 m ρ c (Proc.devRef .tc main_v5) :=
  ((((((W8_of_ne m ρ c main_v5 (by decide)) : W8 m ρ c (Proc.devRef .tc main_v5) = W7 m ρ c (Proc.devRef .tc main_v5)).trans
    ((by show StableHlo.after hostOps2 (W6 m ρ c) _ = _; after_results) : W7 m ρ c (Proc.devRef .tc main_v5) = W6 m ρ c (Proc.devRef .tc main_v5))).trans
    ((W6_of_ne m ρ c main_v5 (by decide)) : W6 m ρ c (Proc.devRef .tc main_v5) = W5 m ρ c (Proc.devRef .tc main_v5))).trans
    ((by show StableHlo.after hostOps1 (W4 m ρ c) _ = _; after_results) : W5 m ρ c (Proc.devRef .tc main_v5) = W4 m ρ c (Proc.devRef .tc main_v5))).trans
    ((W4_of_ne m ρ c main_v5 (by decide)) : W4 m ρ c (Proc.devRef .tc main_v5) = W3 m ρ c (Proc.devRef .tc main_v5)))

theorem v6_at4 : W4 m ρ c (Proc.devRef .tc main_v6) = W3 m ρ c (Proc.devRef .tc main_v6) :=
  ((W4_of_ne m ρ c main_v6 (by decide)) : W4 m ρ c (Proc.devRef .tc main_v6) = W3 m ρ c (Proc.devRef .tc main_v6))

theorem v6_at6 : W6 m ρ c (Proc.devRef .tc main_v6) = W3 m ρ c (Proc.devRef .tc main_v6) :=
  ((((W6_of_ne m ρ c main_v6 (by decide)) : W6 m ρ c (Proc.devRef .tc main_v6) = W5 m ρ c (Proc.devRef .tc main_v6)).trans
    ((by show StableHlo.after hostOps1 (W4 m ρ c) _ = _; after_results) : W5 m ρ c (Proc.devRef .tc main_v6) = W4 m ρ c (Proc.devRef .tc main_v6))).trans
    ((W4_of_ne m ρ c main_v6 (by decide)) : W4 m ρ c (Proc.devRef .tc main_v6) = W3 m ρ c (Proc.devRef .tc main_v6)))

theorem v6_at8 : W8 m ρ c (Proc.devRef .tc main_v6) = W3 m ρ c (Proc.devRef .tc main_v6) :=
  ((((((W8_of_ne m ρ c main_v6 (by decide)) : W8 m ρ c (Proc.devRef .tc main_v6) = W7 m ρ c (Proc.devRef .tc main_v6)).trans
    ((by show StableHlo.after hostOps2 (W6 m ρ c) _ = _; after_results) : W7 m ρ c (Proc.devRef .tc main_v6) = W6 m ρ c (Proc.devRef .tc main_v6))).trans
    ((W6_of_ne m ρ c main_v6 (by decide)) : W6 m ρ c (Proc.devRef .tc main_v6) = W5 m ρ c (Proc.devRef .tc main_v6))).trans
    ((by show StableHlo.after hostOps1 (W4 m ρ c) _ = _; after_results) : W5 m ρ c (Proc.devRef .tc main_v6) = W4 m ρ c (Proc.devRef .tc main_v6))).trans
    ((W4_of_ne m ρ c main_v6 (by decide)) : W4 m ρ c (Proc.devRef .tc main_v6) = W3 m ρ c (Proc.devRef .tc main_v6)))

theorem v22_at5 : W5 m ρ c (Proc.devRef .tc main_v22) = W3 m ρ c (Proc.devRef .tc main_v22) :=
  (((by show StableHlo.after hostOps1 (W4 m ρ c) _ = _; after_results) : W5 m ρ c (Proc.devRef .tc main_v22) = W4 m ρ c (Proc.devRef .tc main_v22)).trans
    ((W4_of_ne m ρ c main_v22 (by decide)) : W4 m ρ c (Proc.devRef .tc main_v22) = W3 m ρ c (Proc.devRef .tc main_v22)))

theorem v17_at5 : W5 m ρ c (Proc.devRef .tc main_v17) = W3 m ρ c (Proc.devRef .tc main_v17) :=
  (((by show StableHlo.after hostOps1 (W4 m ρ c) _ = _; after_results) : W5 m ρ c (Proc.devRef .tc main_v17) = W4 m ρ c (Proc.devRef .tc main_v17)).trans
    ((W4_of_ne m ρ c main_v17 (by decide)) : W4 m ρ c (Proc.devRef .tc main_v17) = W3 m ρ c (Proc.devRef .tc main_v17)))

theorem v23_at7 : W7 m ρ c (Proc.devRef .tc main_v23) = W3 m ρ c (Proc.devRef .tc main_v23) :=
  (((((by show StableHlo.after hostOps2 (W6 m ρ c) _ = _; after_results) : W7 m ρ c (Proc.devRef .tc main_v23) = W6 m ρ c (Proc.devRef .tc main_v23)).trans
    ((W6_of_ne m ρ c main_v23 (by decide)) : W6 m ρ c (Proc.devRef .tc main_v23) = W5 m ρ c (Proc.devRef .tc main_v23))).trans
    ((by show StableHlo.after hostOps1 (W4 m ρ c) _ = _; after_results) : W5 m ρ c (Proc.devRef .tc main_v23) = W4 m ρ c (Proc.devRef .tc main_v23))).trans
    ((W4_of_ne m ρ c main_v23 (by decide)) : W4 m ρ c (Proc.devRef .tc main_v23) = W3 m ρ c (Proc.devRef .tc main_v23)))

theorem v18_at7 : W7 m ρ c (Proc.devRef .tc main_v18) = W3 m ρ c (Proc.devRef .tc main_v18) :=
  (((((by show StableHlo.after hostOps2 (W6 m ρ c) _ = _; after_results) : W7 m ρ c (Proc.devRef .tc main_v18) = W6 m ρ c (Proc.devRef .tc main_v18)).trans
    ((W6_of_ne m ρ c main_v18 (by decide)) : W6 m ρ c (Proc.devRef .tc main_v18) = W5 m ρ c (Proc.devRef .tc main_v18))).trans
    ((by show StableHlo.after hostOps1 (W4 m ρ c) _ = _; after_results) : W5 m ρ c (Proc.devRef .tc main_v18) = W4 m ρ c (Proc.devRef .tc main_v18))).trans
    ((W4_of_ne m ρ c main_v18 (by decide)) : W4 m ρ c (Proc.devRef .tc main_v18) = W3 m ρ c (Proc.devRef .tc main_v18)))

theorem v24_at9 : W9 m ρ c (Proc.devRef .tc main_v24) = W3 m ρ c (Proc.devRef .tc main_v24) :=
  (((((((by show StableHlo.after hostOps3 (W8 m ρ c) _ = _; after_results) : W9 m ρ c (Proc.devRef .tc main_v24) = W8 m ρ c (Proc.devRef .tc main_v24)).trans
    ((W8_of_ne m ρ c main_v24 (by decide)) : W8 m ρ c (Proc.devRef .tc main_v24) = W7 m ρ c (Proc.devRef .tc main_v24))).trans
    ((by show StableHlo.after hostOps2 (W6 m ρ c) _ = _; after_results) : W7 m ρ c (Proc.devRef .tc main_v24) = W6 m ρ c (Proc.devRef .tc main_v24))).trans
    ((W6_of_ne m ρ c main_v24 (by decide)) : W6 m ρ c (Proc.devRef .tc main_v24) = W5 m ρ c (Proc.devRef .tc main_v24))).trans
    ((by show StableHlo.after hostOps1 (W4 m ρ c) _ = _; after_results) : W5 m ρ c (Proc.devRef .tc main_v24) = W4 m ρ c (Proc.devRef .tc main_v24))).trans
    ((W4_of_ne m ρ c main_v24 (by decide)) : W4 m ρ c (Proc.devRef .tc main_v24) = W3 m ρ c (Proc.devRef .tc main_v24)))

theorem v19_at9 : W9 m ρ c (Proc.devRef .tc main_v19) = W3 m ρ c (Proc.devRef .tc main_v19) :=
  (((((((by show StableHlo.after hostOps3 (W8 m ρ c) _ = _; after_results) : W9 m ρ c (Proc.devRef .tc main_v19) = W8 m ρ c (Proc.devRef .tc main_v19)).trans
    ((W8_of_ne m ρ c main_v19 (by decide)) : W8 m ρ c (Proc.devRef .tc main_v19) = W7 m ρ c (Proc.devRef .tc main_v19))).trans
    ((by show StableHlo.after hostOps2 (W6 m ρ c) _ = _; after_results) : W7 m ρ c (Proc.devRef .tc main_v19) = W6 m ρ c (Proc.devRef .tc main_v19))).trans
    ((W6_of_ne m ρ c main_v19 (by decide)) : W6 m ρ c (Proc.devRef .tc main_v19) = W5 m ρ c (Proc.devRef .tc main_v19))).trans
    ((by show StableHlo.after hostOps1 (W4 m ρ c) _ = _; after_results) : W5 m ρ c (Proc.devRef .tc main_v19) = W4 m ρ c (Proc.devRef .tc main_v19))).trans
    ((W4_of_ne m ρ c main_v19 (by decide)) : W4 m ρ c (Proc.devRef .tc main_v19) = W3 m ρ c (Proc.devRef .tc main_v19)))

theorem v25_at9 : W9 m ρ c (Proc.devRef .tc main_v25) = W3 m ρ c (Proc.devRef .tc main_v25) :=
  (((((((by show StableHlo.after hostOps3 (W8 m ρ c) _ = _; after_results) : W9 m ρ c (Proc.devRef .tc main_v25) = W8 m ρ c (Proc.devRef .tc main_v25)).trans
    ((W8_of_ne m ρ c main_v25 (by decide)) : W8 m ρ c (Proc.devRef .tc main_v25) = W7 m ρ c (Proc.devRef .tc main_v25))).trans
    ((by show StableHlo.after hostOps2 (W6 m ρ c) _ = _; after_results) : W7 m ρ c (Proc.devRef .tc main_v25) = W6 m ρ c (Proc.devRef .tc main_v25))).trans
    ((W6_of_ne m ρ c main_v25 (by decide)) : W6 m ρ c (Proc.devRef .tc main_v25) = W5 m ρ c (Proc.devRef .tc main_v25))).trans
    ((by show StableHlo.after hostOps1 (W4 m ρ c) _ = _; after_results) : W5 m ρ c (Proc.devRef .tc main_v25) = W4 m ρ c (Proc.devRef .tc main_v25))).trans
    ((W4_of_ne m ρ c main_v25 (by decide)) : W4 m ρ c (Proc.devRef .tc main_v25) = W3 m ρ c (Proc.devRef .tc main_v25)))

theorem v20_at9 : W9 m ρ c (Proc.devRef .tc main_v20) = W3 m ρ c (Proc.devRef .tc main_v20) :=
  (((((((by show StableHlo.after hostOps3 (W8 m ρ c) _ = _; after_results) : W9 m ρ c (Proc.devRef .tc main_v20) = W8 m ρ c (Proc.devRef .tc main_v20)).trans
    ((W8_of_ne m ρ c main_v20 (by decide)) : W8 m ρ c (Proc.devRef .tc main_v20) = W7 m ρ c (Proc.devRef .tc main_v20))).trans
    ((by show StableHlo.after hostOps2 (W6 m ρ c) _ = _; after_results) : W7 m ρ c (Proc.devRef .tc main_v20) = W6 m ρ c (Proc.devRef .tc main_v20))).trans
    ((W6_of_ne m ρ c main_v20 (by decide)) : W6 m ρ c (Proc.devRef .tc main_v20) = W5 m ρ c (Proc.devRef .tc main_v20))).trans
    ((by show StableHlo.after hostOps1 (W4 m ρ c) _ = _; after_results) : W5 m ρ c (Proc.devRef .tc main_v20) = W4 m ρ c (Proc.devRef .tc main_v20))).trans
    ((W4_of_ne m ρ c main_v20 (by decide)) : W4 m ρ c (Proc.devRef .tc main_v20) = W3 m ρ c (Proc.devRef .tc main_v20)))

theorem v26_at9 : W9 m ρ c (Proc.devRef .tc main_v26) = W3 m ρ c (Proc.devRef .tc main_v26) :=
  (((((((by show StableHlo.after hostOps3 (W8 m ρ c) _ = _; after_results) : W9 m ρ c (Proc.devRef .tc main_v26) = W8 m ρ c (Proc.devRef .tc main_v26)).trans
    ((W8_of_ne m ρ c main_v26 (by decide)) : W8 m ρ c (Proc.devRef .tc main_v26) = W7 m ρ c (Proc.devRef .tc main_v26))).trans
    ((by show StableHlo.after hostOps2 (W6 m ρ c) _ = _; after_results) : W7 m ρ c (Proc.devRef .tc main_v26) = W6 m ρ c (Proc.devRef .tc main_v26))).trans
    ((W6_of_ne m ρ c main_v26 (by decide)) : W6 m ρ c (Proc.devRef .tc main_v26) = W5 m ρ c (Proc.devRef .tc main_v26))).trans
    ((by show StableHlo.after hostOps1 (W4 m ρ c) _ = _; after_results) : W5 m ρ c (Proc.devRef .tc main_v26) = W4 m ρ c (Proc.devRef .tc main_v26))).trans
    ((W4_of_ne m ρ c main_v26 (by decide)) : W4 m ρ c (Proc.devRef .tc main_v26) = W3 m ρ c (Proc.devRef .tc main_v26)))

theorem v21_at9 : W9 m ρ c (Proc.devRef .tc main_v21) = W3 m ρ c (Proc.devRef .tc main_v21) :=
  (((((((by show StableHlo.after hostOps3 (W8 m ρ c) _ = _; after_results) : W9 m ρ c (Proc.devRef .tc main_v21) = W8 m ρ c (Proc.devRef .tc main_v21)).trans
    ((W8_of_ne m ρ c main_v21 (by decide)) : W8 m ρ c (Proc.devRef .tc main_v21) = W7 m ρ c (Proc.devRef .tc main_v21))).trans
    ((by show StableHlo.after hostOps2 (W6 m ρ c) _ = _; after_results) : W7 m ρ c (Proc.devRef .tc main_v21) = W6 m ρ c (Proc.devRef .tc main_v21))).trans
    ((W6_of_ne m ρ c main_v21 (by decide)) : W6 m ρ c (Proc.devRef .tc main_v21) = W5 m ρ c (Proc.devRef .tc main_v21))).trans
    ((by show StableHlo.after hostOps1 (W4 m ρ c) _ = _; after_results) : W5 m ρ c (Proc.devRef .tc main_v21) = W4 m ρ c (Proc.devRef .tc main_v21))).trans
    ((W4_of_ne m ρ c main_v21 (by decide)) : W4 m ρ c (Proc.devRef .tc main_v21) = W3 m ρ c (Proc.devRef .tc main_v21)))

theorem v27_at9 : W9 m ρ c (Proc.devRef .tc main_v27) = W3 m ρ c (Proc.devRef .tc main_v27) :=
  (((((((by show StableHlo.after hostOps3 (W8 m ρ c) _ = _; after_results) : W9 m ρ c (Proc.devRef .tc main_v27) = W8 m ρ c (Proc.devRef .tc main_v27)).trans
    ((W8_of_ne m ρ c main_v27 (by decide)) : W8 m ρ c (Proc.devRef .tc main_v27) = W7 m ρ c (Proc.devRef .tc main_v27))).trans
    ((by show StableHlo.after hostOps2 (W6 m ρ c) _ = _; after_results) : W7 m ρ c (Proc.devRef .tc main_v27) = W6 m ρ c (Proc.devRef .tc main_v27))).trans
    ((W6_of_ne m ρ c main_v27 (by decide)) : W6 m ρ c (Proc.devRef .tc main_v27) = W5 m ρ c (Proc.devRef .tc main_v27))).trans
    ((by show StableHlo.after hostOps1 (W4 m ρ c) _ = _; after_results) : W5 m ρ c (Proc.devRef .tc main_v27) = W4 m ρ c (Proc.devRef .tc main_v27))).trans
    ((W4_of_ne m ρ c main_v27 (by decide)) : W4 m ρ c (Proc.devRef .tc main_v27) = W3 m ρ c (Proc.devRef .tc main_v27)))

end Cert.KernelIdeal.Boundary

end
-- ==== Proof.LibColumn.lean ====
/-
  A vector as a column, read at an index.

  A vector [a] recast, or placed by a broadcast, as the one column of [a, 1] reads its entry of the row; a column [a, 1]
  repeated across b columns reads, at (p, q), its entry of row p. (A broadcast reads the operand's unit axes at
  coordinate zero and its other axes at the result's coordinate on the axis they are sent to; a recast keeps the
  row-major position.)
-/
import Idealize.ShloMosaic.Lib.ValueIdx
import Idealize.ShloMosaic.Lib.Pipeline.Value

noncomputable section

namespace Cert.Column

open Idealize.ShloMosaic Idealize.ShloMosaic.ValueIdx

variable {α : Type}

/-- A vector [a] recast to the column [a, 1] reads, at (i, u), its entry i. -/
theorem cast_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector [a] placed by a broadcast as the column [a, 1] reads, at (i, u), its entry i. -/
theorem place_apply {a : ℕ} (x : (⟨1, ![a]⟩ : Shape).Idx → α) (h : (⟨1, ![a]⟩ : Shape).BroadcastsInDim ⟨2, ![a, 1]⟩ ![0])
    (i : Fin a) (u : Fin 1) : broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A column [a, 1] repeated across b columns (a tile's broadcast) reads, at (p, q), the column's entry p. -/
theorem across_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else q.val
    rw [if_pos rfl]

/-- A column [a, 1] repeated across b columns by the host's broadcast reads, at (p, q), the column's entry p. -/
theorem host_across_apply {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else q.val
    rw [if_pos rfl]

end Cert.Column

end
-- ==== Proof.KernelEntry.lean ====
/-
  What the first region finds in the buffers the host wrote.

  Before the first region the host splits the edge list into a source and a destination vector (each with the
  self-loops appended), computes every node's degree and weight, narrows the six weight matrices and recasts the six
  bias vectors as rows and the node weights as a column. The reference program spells the same operations on the same
  argument, so each of these buffers holds, term for term, a stage of the reference: the source and destination vectors,
  the node weights (here recast as a column), an argument narrowed (which changes nothing at the exact values) or recast.
-/
import proofs.«176313_j54795192762716_2_alg».proof.Proof.KernelBoundary
import proofs.«176313_j54795192762716_2_alg».proof.Proof.RefRead
import proofs.«176313_j54795192762716_2_alg».proof.Proof.LibColumn
import Idealize.ShloMosaic.Lib.ValueLayout

set_option maxRecDepth 16384

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx Cert.ReferenceIdeal.ReadP

variable (m : (ℓ : Loc nD τ sig) → Buf (Elt Ideal) ℓ) (ρ : Dev nD → PrngReg) (c : Dev nD)

/-- The feature matrix is the argument. -/
theorem x_at3 : W3 m ρ c (Proc.devRef .tc main_arg0) = m ((c : Thread nD τ).loc main_arg0) := by
  show StableHlo.after hostOps0_2 (StableHlo.after hostOps0_1 (StableHlo.after hostOps0 (W0 m ρ c))) _ = _
  after_results_simp

set_option maxHeartbeats 8000000 in
/-- The source vector (self-loops appended) is the reference's. -/
theorem src_at3 : (W3 m ρ c (Proc.devRef .tc main_v5) : (⟨S340000, .i32⟩ : BufTy).Contents (Elt Ideal))
    = val_main_v3 (F := Ideal) (m ((c : Thread nD τ).loc main_arg1)) := by
  show StableHlo.after hostOps0_2 (StableHlo.after hostOps0_1 (StableHlo.after hostOps0 (W0 m ρ c))) _ = _
  after_results_simp
  rfl

set_option maxHeartbeats 8000000 in
/-- The destination vector (self-loops appended) is the reference's. -/
theorem dst_at3 : (W3 m ρ c (Proc.devRef .tc main_v6) : (⟨S340000, .i32⟩ : BufTy).Contents (Elt Ideal))
    = val_main_v6 (F := Ideal) (m ((c : Thread nD τ).loc main_arg1)) := by
  show StableHlo.after hostOps0_2 (StableHlo.after hostOps0_1 (StableHlo.after hostOps0 (W0 m ρ c))) _ = _
  after_results_simp
  rfl

set_option maxHeartbeats 8000000 in
/-- After the first stretch: the bit "the degree is positive" is the reference's. -/
theorem positive_at1 : (W1 m ρ c (Proc.devRef .tc main_v12) : (⟨S20000, .i1⟩ : BufTy).Contents (Elt Ideal))
    = val_main_v13 (F := Ideal) (m ((c : Thread nD τ).loc main_arg1)) := by
  show StableHlo.after hostOps0 (W0 m ρ c) _ = _
  after_results_simp
  rfl

set_option maxHeartbeats 8000000 in
/-- After the first stretch: the reciprocal square root of the degree is the reference's. -/
theorem rsqrt_at1 : (W1 m ρ c (Proc.devRef .tc main_v13) : (⟨S20000, .f32⟩ : BufTy).Contents (Elt Ideal))
    = val_main_v14 (F := Ideal) (m ((c : Thread nD τ).loc main_arg1)) := by
  show StableHlo.after hostOps0 (W0 m ρ c) _ = _
  after_results_simp
  rfl

set_option maxHeartbeats 8000000 in
/-- After the first stretch: the fill value is the zero constant. -/
theorem fill_at1 : (W1 m ρ c (Proc.devRef .tc main_cst_2) : (⟨S_, .f32⟩ : BufTy).Contents (Elt Ideal))
    = val_main_cst_2 (F := Ideal) := by
  show StableHlo.after hostOps0 (W0 m ρ c) _ = _
  after_results_simp
  rfl

set_option maxHeartbeats 8000000 in
/-- The guarded choice (the second stretch), from the first stretch's buffers. -/
theorem choice_at2 : (W2 m ρ c (Proc.devRef .tc main_v14) : (⟨S20000, .f32⟩ : BufTy).Contents (Elt Ideal))
    = select (W1 m ρ c (Proc.devRef .tc main_v12) : (⟨S20000, .i1⟩ : BufTy).Contents (Elt Ideal))
        (W1 m ρ c (Proc.devRef .tc main_v13) : (⟨S20000, .f32⟩ : BufTy).Contents (Elt Ideal))
        (broadcastInDim S20000 ![] bcast_S_S20000
          (id (W1 m ρ c (Proc.devRef .tc main_cst_2) : (⟨S_, .f32⟩ : BufTy).Contents (Elt Ideal)))) := by
  show StableHlo.after hostOps0_1 (W1 m ρ c) _ = _
  generalize W1 m ρ c = U
  after_results_simp
  rfl

set_option maxHeartbeats 8000000 in
/-- The recast to a column (the third stretch), from the second stretch's buffer. -/
theorem column_at3 : (W3 m ρ c (Proc.devRef .tc main_v15) : (⟨S20000x1, .f32⟩ : BufTy).Contents (Elt Ideal))
    = shapeCast S20000x1 (W2 m ρ c (Proc.devRef .tc main_v14) : (⟨S20000, .f32⟩ : BufTy).Contents (Elt Ideal))
        shapeCasts_S20000_S20000x1 := by
  show StableHlo.after hostOps0_2 (W2 m ρ c) _ = _
  generalize W2 m ρ c = U
  after_results_simp
  rfl

/-- The weight column is the reference's node weights, recast. -/
theorem dinv_at3 : (W3 m ρ c (Proc.devRef .tc main_v15) : (⟨S20000x1, .f32⟩ : BufTy).Contents (Elt Ideal))
    = shapeCast S20000x1 (val_main_v15 (F := Ideal) (m ((c : Thread nD τ).loc main_arg1))) shapeCasts_S20000_S20000x1 := by
  rw [column_at3, choice_at2, positive_at1, rsqrt_at1, fill_at1]
  rfl

/-- The weight column at row R is node R's weight. -/
theorem dinv_apply (R : Fin 20000) :
    (W3 m ρ c (Proc.devRef .tc main_v15) : (⟨S20000x1, .f32⟩ : BufTy).Contents (Elt Ideal)) (ix2 R (0 : Fin 1))
      = val_main_v15 (F := Ideal) (m ((c : Thread nD τ).loc main_arg1)) (ix1 R) := by
  rw [dinv_at3]
  exact Cert.Column.cast_apply _ _ R 0

/-- A narrowed weight matrix reads as the argument. -/
theorem w16_apply (j : S300x256.Idx) :
    (W3 m ρ c (Proc.devRef .tc main_v16) : (⟨S300x256, .bf16⟩ : BufTy).Contents (Elt Ideal)) j
      = (m ((c : Thread nD τ).loc main_arg2) : (⟨S300x256, .f32⟩ : BufTy).Contents (Elt Ideal)) j := by
  have h : W3 m ρ c (Proc.devRef .tc main_v16)
      = fun i => (m ((c : Thread nD τ).loc main_arg2) : (⟨S300x256, .f32⟩ : BufTy).Contents (Elt Ideal)) i := by
    show StableHlo.after hostOps0_2 (StableHlo.after hostOps0_1 (StableHlo.after hostOps0 (W0 m ρ c))) _ = _
    after_results_simp
    rfl
  rw [h]

/-- A narrowed weight matrix reads as the argument. -/
theorem w17_apply (j : S256x256.Idx) :
    (W3 m ρ c (Proc.devRef .tc main_v17) : (⟨S256x256, .bf16⟩ : BufTy).Contents (Elt Ideal)) j
      = (m ((c : Thread nD τ).loc main_arg4) : (⟨S256x256, .f32⟩ : BufTy).Contents (Elt Ideal)) j := by
  have h : W3 m ρ c (Proc.devRef .tc main_v17)
      = fun i => (m ((c : Thread nD τ).loc main_arg4) : (⟨S256x256, .f32⟩ : BufTy).Contents (Elt Ideal)) i := by
    show StableHlo.after hostOps0_2 (StableHlo.after hostOps0_1 (StableHlo.after hostOps0 (W0 m ρ c))) _ = _
    after_results_simp
    rfl
  rw [h]

/-- A narrowed weight matrix reads as the argument. -/
theorem w18_apply (j : S256x256.Idx) :
    (W3 m ρ c (Proc.devRef .tc main_v18) : (⟨S256x256, .bf16⟩ : BufTy).Contents (Elt Ideal)) j
      = (m ((c : Thread nD τ).loc main_arg6) : (⟨S256x256, .f32⟩ : BufTy).Contents (Elt Ideal)) j := by
  have h : W3 m ρ c (Proc.devRef .tc main_v18)
      = fun i => (m ((c : Thread nD τ).loc main_arg6) : (⟨S256x256, .f32⟩ : BufTy).Contents (Elt Ideal)) i := by
    show StableHlo.after hostOps0_2 (StableHlo.after hostOps0_1 (StableHlo.after hostOps0 (W0 m ρ c))) _ = _
    after_results_simp
    rfl
  rw [h]

/-- A narrowed weight matrix reads as the argument. -/
theorem w19_apply (j : S256x256.Idx) :
    (W3 m ρ c (Proc.devRef .tc main_v19) : (⟨S256x256, .bf16⟩ : BufTy).Contents (Elt Ideal)) j
      = (m ((c : Thread nD τ).loc main_arg8) : (⟨S256x256, .f32⟩ : BufTy).Contents (Elt Ideal)) j := by
  have h : W3 m ρ c (Proc.devRef .tc main_v19)
      = fun i => (m ((c : Thread nD τ).loc main_arg8) : (⟨S256x256, .f32⟩ : BufTy).Contents (Elt Ideal)) i := by
    show StableHlo.after hostOps0_2 (StableHlo.after hostOps0_1 (StableHlo.after hostOps0 (W0 m ρ c))) _ = _
    after_results_simp
    rfl
  rw [h]

/-- A narrowed weight matrix reads as the argument. -/
theorem w20_apply (j : S256x256.Idx) :
    (W3 m ρ c (Proc.devRef .tc main_v20) : (⟨S256x256, .bf16⟩ : BufTy).Contents (Elt Ideal)) j
      = (m ((c : Thread nD τ).loc main_arg10) : (⟨S256x256, .f32⟩ : BufTy).Contents (Elt Ideal)) j := by
  have h : W3 m ρ c (Proc.devRef .tc main_v20)
      = fun i => (m ((c : Thread nD τ).loc main_arg10) : (⟨S256x256, .f32⟩ : BufTy).Contents (Elt Ideal)) i := by
    show StableHlo.after hostOps0_2 (StableHlo.after hostOps0_1 (StableHlo.after hostOps0 (W0 m ρ c))) _ = _
    after_results_simp
    rfl
  rw [h]

/-- A narrowed weight matrix reads as the argument. -/
theorem w21_apply (j : S256x256.Idx) :
    (W3 m ρ c (Proc.devRef .tc main_v21) : (⟨S256x256, .bf16⟩ : BufTy).Contents (Elt Ideal)) j
      = (m ((c : Thread nD τ).loc main_arg12) : (⟨S256x256, .f32⟩ : BufTy).Contents (Elt Ideal)) j := by
  have h : W3 m ρ c (Proc.devRef .tc main_v21)
      = fun i => (m ((c : Thread nD τ).loc main_arg12) : (⟨S256x256, .f32⟩ : BufTy).Contents (Elt Ideal)) i := by
    show StableHlo.after hostOps0_2 (StableHlo.after hostOps0_1 (StableHlo.after hostOps0 (W0 m ρ c))) _ = _
    after_results_simp
    rfl
  rw [h]

/-- A bias recast as a row reads, at (0, k), the argument's entry k. -/
theorem b22_apply (k : Fin 256) :
    (W3 m ρ c (Proc.devRef .tc main_v22) : (⟨S1x256, .f32⟩ : BufTy).Contents (Elt Ideal)) (ix2 (0 : Fin 1) k)
      = (m ((c : Thread nD τ).loc main_arg3) : (⟨S256, .f32⟩ : BufTy).Contents (Elt Ideal)) (ix1 k) := by
  have h : (W3 m ρ c (Proc.devRef .tc main_v22) : (⟨S1x256, .f32⟩ : BufTy).Contents (Elt Ideal))
      = shapeCast S1x256 (m ((c : Thread nD τ).loc main_arg3) : (⟨S256, .f32⟩ : BufTy).Contents (Elt Ideal)) shapeCasts_S256_S1x256 := by
    show StableHlo.after hostOps0_2 (StableHlo.after hostOps0_1 (StableHlo.after hostOps0 (W0 m ρ c))) _ = _
    after_results_simp
    rfl
  rw [h]
  exact shapeCast_a_1a_apply _ _ 0 k

/-- A bias recast as a row reads, at (0, k), the argument's entry k. -/
theorem b23_apply (k : Fin 256) :
    (W3 m ρ c (Proc.devRef .tc main_v23) : (⟨S1x256, .f32⟩ : BufTy).Contents (Elt Ideal)) (ix2 (0 : Fin 1) k)
      = (m ((c : Thread nD τ).loc main_arg5) : (⟨S256, .f32⟩ : BufTy).Contents (Elt Ideal)) (ix1 k) := by
  have h : (W3 m ρ c (Proc.devRef .tc main_v23) : (⟨S1x256, .f32⟩ : BufTy).Contents (Elt Ideal))
      = shapeCast S1x256 (m ((c : Thread nD τ).loc main_arg5) : (⟨S256, .f32⟩ : BufTy).Contents (Elt Ideal)) shapeCasts_S256_S1x256 := by
    show StableHlo.after hostOps0_2 (StableHlo.after hostOps0_1 (StableHlo.after hostOps0 (W0 m ρ c))) _ = _
    after_results_simp
    rfl
  rw [h]
  exact shapeCast_a_1a_apply _ _ 0 k

/-- A bias recast as a row reads, at (0, k), the argument's entry k. -/
theorem b24_apply (k : Fin 256) :
    (W3 m ρ c (Proc.devRef .tc main_v24) : (⟨S1x256, .f32⟩ : BufTy).Contents (Elt Ideal)) (ix2 (0 : Fin 1) k)
      = (m ((c : Thread nD τ).loc main_arg7) : (⟨S256, .f32⟩ : BufTy).Contents (Elt Ideal)) (ix1 k) := by
  have h : (W3 m ρ c (Proc.devRef .tc main_v24) : (⟨S1x256, .f32⟩ : BufTy).Contents (Elt Ideal))
      = shapeCast S1x256 (m ((c : Thread nD τ).loc main_arg7) : (⟨S256, .f32⟩ : BufTy).Contents (Elt Ideal)) shapeCasts_S256_S1x256 := by
    show StableHlo.after hostOps0_2 (StableHlo.after hostOps0_1 (StableHlo.after hostOps0 (W0 m ρ c))) _ = _
    after_results_simp
    rfl
  rw [h]
  exact shapeCast_a_1a_apply _ _ 0 k

/-- A bias recast as a row reads, at (0, k), the argument's entry k. -/
theorem b25_apply (k : Fin 256) :
    (W3 m ρ c (Proc.devRef .tc main_v25) : (⟨S1x256, .f32⟩ : BufTy).Contents (Elt Ideal)) (ix2 (0 : Fin 1) k)
      = (m ((c : Thread nD τ).loc main_arg9) : (⟨S256, .f32⟩ : BufTy).Contents (Elt Ideal)) (ix1 k) := by
  have h : (W3 m ρ c (Proc.devRef .tc main_v25) : (⟨S1x256, .f32⟩ : BufTy).Contents (Elt Ideal))
      = shapeCast S1x256 (m ((c : Thread nD τ).loc main_arg9) : (⟨S256, .f32⟩ : BufTy).Contents (Elt Ideal)) shapeCasts_S256_S1x256 := by
    show StableHlo.after hostOps0_2 (StableHlo.after hostOps0_1 (StableHlo.after hostOps0 (W0 m ρ c))) _ = _
    after_results_simp
    rfl
  rw [h]
  exact shapeCast_a_1a_apply _ _ 0 k

/-- A bias recast as a row reads, at (0, k), the argument's entry k. -/
theorem b26_apply (k : Fin 256) :
    (W3 m ρ c (Proc.devRef .tc main_v26) : (⟨S1x256, .f32⟩ : BufTy).Contents (Elt Ideal)) (ix2 (0 : Fin 1) k)
      = (m ((c : Thread nD τ).loc main_arg11) : (⟨S256, .f32⟩ : BufTy).Contents (Elt Ideal)) (ix1 k) := by
  have h : (W3 m ρ c (Proc.devRef .tc main_v26) : (⟨S1x256, .f32⟩ : BufTy).Contents (Elt Ideal))
      = shapeCast S1x256 (m ((c : Thread nD τ).loc main_arg11) : (⟨S256, .f32⟩ : BufTy).Contents (Elt Ideal)) shapeCasts_S256_S1x256 := by
    show StableHlo.after hostOps0_2 (StableHlo.after hostOps0_1 (StableHlo.after hostOps0 (W0 m ρ c))) _ = _
    after_results_simp
    rfl
  rw [h]
  exact shapeCast_a_1a_apply _ _ 0 k

/-- A bias recast as a row reads, at (0, k), the argument's entry k. -/
theorem b27_apply (k : Fin 256) :
    (W3 m ρ c (Proc.devRef .tc main_v27) : (⟨S1x256, .f32⟩ : BufTy).Contents (Elt Ideal)) (ix2 (0 : Fin 1) k)
      = (m ((c : Thread nD τ).loc main_arg13) : (⟨S256, .f32⟩ : BufTy).Contents (Elt Ideal)) (ix1 k) := by
  have h : (W3 m ρ c (Proc.devRef .tc main_v27) : (⟨S1x256, .f32⟩ : BufTy).Contents (Elt Ideal))
      = shapeCast S1x256 (m ((c : Thread nD τ).loc main_arg13) : (⟨S256, .f32⟩ : BufTy).Contents (Elt Ideal)) shapeCasts_S256_S1x256 := by
    show StableHlo.after hostOps0_2 (StableHlo.after hostOps0_1 (StableHlo.after hostOps0 (W0 m ρ c))) _ = _
    after_results_simp
    rfl
  rw [h]
  exact shapeCast_a_1a_apply _ _ 0 k

end Cert.KernelIdeal.Entry

end
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.LibDotSums.lean ====
/-
  Matrix products at the exact values, read entry by entry.

  For operands of shapes [A, K] and [K, B] whose dimension numbers say "no batch axes, contract axis 1 of the left
  against axis 0 of the right", both the in-kernel product accumulated into a zero tile and the host's `dot_general`
  have, at the entry (p, q), the value `∑ k < K, x (p, k) * y (k, q)`: over the extended reals neither carries a rounding
  or an order of summation, so the two are the same finite sum. The re-indexing of the contraction's own index set to
  `Fin K` is the rows-by-columns lemma for such records.
-/
import proofs.«176313_j54795192762716_2_alg».proof.Proof.LibPlainDot

open scoped BigOperators

namespace Cert.DotSums

open Idealize.ShloMosaic Idealize.ShloMosaic.ValueIdx

variable {A K B : Nat} (d : DotDims ⟨2, ![A, K]⟩ ⟨2, ![K, B]⟩ ⟨2, ![A, B]⟩)

/-- The in-kernel product into a zero accumulator, at (p, q): the plain sum along row p and column q. -/
theorem matmul_zero_ix2 {φ₁ φ₂ : FTy} (prec : Option ContractPrecision)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.matmul d prec x y (constant ⟨2, ![A, B]⟩ .f32 0x00000000#32) (ix2 p q)
      = ∑ k : Fin K, (x (ix2 p k) : EReal) * (y (ix2 k q) : EReal) :=
  (Ideal.matmul_constant_zero_apply d prec x y (ix2 p q)).trans
    (Cert.PlainDot.sum_eq d hlb hln hlc hrb hrn hrc hr hs x y p q)

/-- The host's `dot_general`, at (p, q): the same plain sum, whatever the schedule key. -/
theorem dotGeneral_ix2 {φ₁ φ₂ : FTy} (prec : Option ContractPrecision) (sched : HostSchedule)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.dotGeneral d prec sched x y (ix2 p q)
      = ∑ k : Fin K, (x (ix2 p k) : EReal) * (y (ix2 k q) : EReal) :=
  (Ideal.dotGeneral_apply d prec sched x y (ix2 p q)).trans
    (Cert.PlainDot.sum_eq d hlb hln hlc hrb hrn hrc hr hs x y p q)

end Cert.DotSums
-- ==== Proof.LibBiasRow.lean ====
/-
  A bias vector as a row, read at an index: a vector `[b]` placed as the one row of `[1, b]` reads its entry of the
  column; a row `[1, b]` repeated down `a` rows reads, at `(p, q)`, its entry `q`. (A `broadcast_in_dim` reads the
  operand's unit axes at coordinate zero and its other axes at the result's coordinate on the axis they are sent to.)
-/
import Idealize.ShloMosaic.Lib.ValueIdx
import Idealize.ShloMosaic.Lib.Pipeline.Value

noncomputable section

namespace Cert.BiasRow

open Idealize.ShloMosaic Idealize.ShloMosaic.ValueIdx

variable {α : Type}

/-- A vector `[b]` placed as the row of `[1, b]` reads, at `(u, q)`, its entry `q`. -/
theorem row_apply {b : ℕ} (x : (⟨1, ![b]⟩ : Shape).Idx → α) (h : (⟨1, ![b]⟩ : Shape).BroadcastsInDim ⟨2, ![1, b]⟩ ![1])
    (u : Fin 1) (q : Fin b) : broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

/-- A row `[1, b]` repeated down `a` rows reads, at `(p, q)`, the row's entry `q`. -/
theorem down_apply {a b : ℕ} (x : (⟨2, ![1, b]⟩ : Shape).Idx → α) (h : (⟨2, ![1, b]⟩ : Shape).BroadcastsInDim ⟨2, ![a, b]⟩ ![0, 1])
    (p : Fin a) (q : Fin b) : broadcastInDim ⟨2, ![a, b]⟩ ![0, 1] h x (ix2 p q) = x (ix2 (0 : Fin 1) q) := by
  refine broadcastInDim_apply ![0, 1] h x (ix2 p q) (ix2 (0 : Fin 1) q) fun ax => ?_
  match ax with
  | ⟨0, _⟩ =>
    show (0 : ℕ) = if (1 : ℕ) = 1 then 0 else p.val
    rw [if_pos rfl]
  | ⟨1, _⟩ =>
    show q.val = if b = 1 then 0 else q.val
    split
    · have := q.isLt; omega
    · rfl

end Cert.BiasRow

end
-- ==== Proof.LibDenseLayer.lean ====
/-
  A dense layer read entry by entry at the exact values, in the form a kernel tile computes it and in the form a host
  program computes it.

  Over the extended reals a float is an exact number and a change of float format is the identity, so:

    an affine layer   x · W + b   has, at row p and column q, the value  (∑ k, x (p, k) · W (k, q)) + b q,  whether the
      product is a matrix unit's product into a zero accumulator with the bias vector recast as a one-row matrix and
      repeated down the rows, or the host's general product with the bias placed by two broadcasts;

    a leaky rectifier   z ↦ if z ≥ 0 then z else slope · z   is decided entry by entry by the ordered comparison
      against the zero word, whether the zero and the slope are splat scalars (a tile) or rank-0 arrays broadcast over the
      shape (the host, where the slope arrives through a conversion to its own type, the identity);

    the logistic   z ↦ 1 / (1 + exp (−z))   is one function whether it is one operation (a tile) or the host's
      negate, exponential, add-one, divide-into-one spelt out, the word of 1 being the number 1.

  Every statement is for any shape extents, any dimension record with the rows-by-columns numbers, any operand formats.
-/
import proofs.«176313_j54795192762716_2_alg».proof.Proof.LibDotSums
import proofs.«176313_j54795192762716_2_alg».proof.Proof.LibBiasRow
import Idealize.ShloMosaic.Lib.ValueLayout

open scoped BigOperators

noncomputable section

namespace Cert.DenseLayer

open Idealize.ShloMosaic Idealize.ShloMosaic.ValueIdx

/-- Entry `q` of one row `h` sent through an affine layer: the row against column `q` of the weights, plus the
    bias's entry `q`. -/
def affine {K B : ℕ} (h : Fin K → EReal) (W : Fin K → Fin B → EReal) (b : Fin B → EReal) (q : Fin B) : EReal :=
  (∑ k : Fin K, h k * W k q) + b q

/-- The leaky rectifier with the slope of word `sl`: `z` where the ordered comparison `z ≥ 0` holds, the slope times
    `z` elsewhere. -/
def leaky (sl : BitVec 32) (z : EReal) : EReal :=
  Scalar.select (FloatOps.cmpf (F := Ideal) (φ := .f32) .oge z (Ideal.ofBits .f32 0x00000000#32)) z
    (Ideal.ofBits .f32 sl * z)

/-- The f32 word of one is the number one. -/
theorem one_word : Ideal.ofBits .f32 0x3F800000#32 = 1 := by
  simp [Ideal.ofBits, Ideal.ieee, -EReal.coe_mul]; norm_num

/-- A rank-0 array broadcast over any shape reads its one entry everywhere. (The map from the operand's axes to the
    result's has no axis to send; it is kept a variable so that any spelling of the empty map is matched.) -/
theorem scalar_apply {α : Type} {t : Shape} (dims : Fin (⟨0, ![]⟩ : Shape).rank → Fin t.rank)
    (x : (⟨0, ![]⟩ : Shape).Idx → α) (h : (⟨0, ![]⟩ : Shape).BroadcastsInDim t dims) (j : t.Idx) :
    broadcastInDim t dims h x j = x ix0 :=
  broadcastInDim_apply dims h x j ix0 (fun a => a.elim0)

section Affine

variable {A K B : ℕ} {φ₁ φ₂ : FTy} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])
  (hr : d.contr.rank = 1) (hs : d.contr.size ⟨0, by omega⟩ = K) (prec : Option ContractPrecision)
  (x : FVec Ideal ⟨2, ![A, K]⟩ φ₁) (w : FVec Ideal ⟨2, ![K, B]⟩ φ₂) (c : FVec Ideal ⟨1, ![B]⟩ .f32)

include hlb hln hlc hrb hrn hrc hr hs

/-- The tile form: the matrix unit's product into the zero tile, plus the bias recast `[B] → [1, B]` and repeated
    down the rows. -/
theorem tile_affine_apply (h1 : (⟨1, ![B]⟩ : Shape).ShapeCasts ⟨2, ![1, B]⟩)
    (h2 : (⟨2, ![1, B]⟩ : Shape).Broadcasts ⟨2, ![A, B]⟩) (p : Fin A) (q : Fin B) :
    addf (matmul d prec x w (constant ⟨2, ![A, B]⟩ .f32 0x00000000#32))
        (broadcastTo ⟨2, ![A, B]⟩ (shapeCast ⟨2, ![1, B]⟩ c h1) h2) (ix2 p q)
      = affine (fun k => x (ix2 p k)) (fun k q => w (ix2 k q)) (fun q => c (ix1 q)) q := by
  show FloatOps.matmul d prec x w (constant ⟨2, ![A, B]⟩ .f32 0x00000000#32) (ix2 p q)
      + broadcastTo ⟨2, ![A, B]⟩ (shapeCast ⟨2, ![1, B]⟩ c h1) h2 (ix2 p q) = _
  rw [Cert.DotSums.matmul_zero_ix2 d prec hlb hln hlc hrb hrn hrc hr hs x w p q, broadcastTo_1b_ab_apply,
    shapeCast_a_1a_apply]
  rfl

/-- The host form: the general product, plus the bias placed as the row of `[1, B]` and repeated down the rows by two
    broadcasts. -/
theorem host_affine_apply (h1 : (⟨1, ![B]⟩ : Shape).BroadcastsInDim ⟨2, ![1, B]⟩ ![1])
    (h2 : (⟨2, ![1, B]⟩ : Shape).BroadcastsInDim ⟨2, ![A, B]⟩ ![0, 1]) (p : Fin A) (q : Fin B) :
    addf (Host.dotGeneral d prec x w)
        (broadcastInDim ⟨2, ![A, B]⟩ ![0, 1] h2 (broadcastInDim ⟨2, ![1, B]⟩ ![1] h1 c)) (ix2 p q)
      = affine (fun k => x (ix2 p k)) (fun k q => w (ix2 k q)) (fun q => c (ix1 q)) q := by
  show FloatOps.dotGeneral d prec .single x w (ix2 p q)
      + broadcastInDim ⟨2, ![A, B]⟩ ![0, 1] h2 (broadcastInDim ⟨2, ![1, B]⟩ ![1] h1 c) (ix2 p q) = _
  rw [Cert.DotSums.dotGeneral_ix2 d prec .single hlb hln hlc hrb hrn hrc hr hs x w p q, Cert.BiasRow.down_apply,
    Cert.BiasRow.row_apply]
  rfl

/-- The last layer of a tile, with no bias: the matrix unit's product into the zero tile is the plain sum. -/
theorem tile_product_apply (p : Fin A) (q : Fin B) :
    matmul d prec x w (constant ⟨2, ![A, B]⟩ .f32 0x00000000#32) (ix2 p q) = ∑ k : Fin K, x (ix2 p k) * w (ix2 k q) :=
  Cert.DotSums.matmul_zero_ix2 d prec hlb hln hlc hrb hrn hrc hr hs x w p q

/-- The host's product with no bias likewise. -/
theorem host_product_apply (p : Fin A) (q : Fin B) :
    Host.dotGeneral d prec x w (ix2 p q) = ∑ k : Fin K, x (ix2 p k) * w (ix2 k q) :=
  Cert.DotSums.dotGeneral_ix2 d prec .single hlb hln hlc hrb hrn hrc hr hs x w p q

end Affine

/-- The tile form of the leaky rectifier: the zero and the slope are scalars splat over the tile. -/
theorem tile_leaky_apply {t : Shape} (sl : BitVec 32) (v : FVec Ideal t .f32) (j : t.Idx) :
    select (cmpf .oge v (broadcast t (Scalar.ofBits (F := Ideal) .f32 0x00000000#32))) v
      (mulf (broadcast t (Scalar.ofBits (F := Ideal) .f32 sl)) v) j = leaky sl (v j) := rfl

/-- The host form of the leaky rectifier: the zero and the slope are rank-0 arrays broadcast over the shape, the slope
    first converted to its own type. -/
theorem host_leaky_apply {t : Shape} (sl : BitVec 32) (v : FVec Ideal t .f32)
    (dims : Fin (⟨0, ![]⟩ : Shape).rank → Fin t.rank) (h0 : (⟨0, ![]⟩ : Shape).BroadcastsInDim t dims) (j : t.Idx) :
    select (cmpf .oge v (broadcastInDim t dims h0 (constant (F := Ideal) ⟨0, ![]⟩ .f32 0x00000000#32))) v
      (mulf (broadcastInDim t dims h0 (id (constant (F := Ideal) ⟨0, ![]⟩ .f32 sl))) v) j = leaky sl (v j) := by
  show Scalar.select (FloatOps.cmpf (F := Ideal) (φ := .f32) .oge (v j)
      (broadcastInDim t dims h0 (constant (F := Ideal) ⟨0, ![]⟩ .f32 0x00000000#32) j)) (v j)
      (broadcastInDim t dims h0 (id (constant (F := Ideal) ⟨0, ![]⟩ .f32 sl)) j * v j) = _
  rw [scalar_apply, scalar_apply]
  rfl

/-- The tile's logistic is the logistic of the entry. -/
theorem tile_logistic_apply {t : Shape} (v : FVec Ideal t .f32) (j : t.Idx) :
    logistic v j = Ideal.logistic (v j) := rfl

/-- The host's logistic spelt out, `1 / (1 + exp (−z))` with both ones rank-0 arrays broadcast over the shape, is the
    logistic of the entry. -/
theorem host_logistic_apply {t : Shape} (v : FVec Ideal t .f32) (dims : Fin (⟨0, ![]⟩ : Shape).rank → Fin t.rank)
    (h0 : (⟨0, ![]⟩ : Shape).BroadcastsInDim t dims) (j : t.Idx) :
    Host.divf (broadcastInDim t dims h0 (constant (F := Ideal) ⟨0, ![]⟩ .f32 0x3F800000#32))
      (addf (broadcastInDim t dims h0 (constant (F := Ideal) ⟨0, ![]⟩ .f32 0x3F800000#32)) (Host.exp (Host.negf v))) j
      = Ideal.logistic (v j) := by
  show Ideal.div (broadcastInDim t dims h0 (constant (F := Ideal) ⟨0, ![]⟩ .f32 0x3F800000#32) j)
      (broadcastInDim t dims h0 (constant (F := Ideal) ⟨0, ![]⟩ .f32 0x3F800000#32) j + Ideal.exp (-(v j))) = _
  rw [scalar_apply]
  show Ideal.div (Ideal.ofBits .f32 0x3F800000#32) (Ideal.ofBits .f32 0x3F800000#32 + Ideal.exp (-(v j))) = _
  rw [one_word]
  rfl

end Cert.DenseLayer

end
-- ==== Proof.TileMath.lean ====
/-
  The four kernel bodies' arithmetic, read at an entry of the output tile.

  Every body works on a tile of 1000 rows. At the exact values a change of float format is the identity, a recast to
  the same shape is the identity, and a matrix-unit product into a zero accumulator is the plain sum of products, so at
  row p and column q:

    the first projection is          (∑ k, x (p,k) · w (k,q)) · d p,
    a fused rectify-and-project is   (∑ k, max (s (p,k) · d p + b k) 0 · w (k,q)) · d p,
    the head is                      ∑ k, max (∑ k', max (∑ k'', (s (p,k'') · d p + b k'') · w₁ (k'',k') + b₁ k') 0 · w₂ (k',k) + b₂ k) 0 · w₃ (k,q) + b₃ q,

  where d is the tile's column of node weights (shape [1000, 1], repeated across the columns) and each bias is a row
  (shape [1, 256], repeated down the rows).
-/
import proofs.«176313_j54795192762716_2_alg».proof.Proof.Gen.KernelIdeal.Skeleton
import proofs.«176313_j54795192762716_2_alg».proof.Proof.LibDenseLayer
import proofs.«176313_j54795192762716_2_alg».proof.Proof.LibColumn

open scoped BigOperators

noncomputable section

namespace Cert.KernelIdeal.Tile

open Cert.KernelIdeal Cert.KernelIdeal.Gen Idealize.ShloMosaic Idealize.ShloMosaic.ValueIdx

/-- The rectifier: the larger of a number and the zero word's value. -/
abbrev relu (z : EReal) : EReal := max z (Ideal.ofBits .f32 0x00000000#32)

/-- A scaled, shifted tile entry: `s (p,k) · d p + b k`. -/
theorem scaled_shifted (s : FVec Ideal S1000x256 .f32) (d : FVec Ideal S1000x1 .f32) (b : FVec Ideal S1x256 .f32)
    (p : Fin 1000) (k : Fin 256) :
    addf (mulf s (broadcastTo S1000x256 d broadcasts_S1000x1_S1000x256))
      (broadcastTo S1000x256 b broadcasts_S1x256_S1000x256) (ix2 p k)
      = s (ix2 p k) * d (ix2 p (0 : Fin 1)) + b (ix2 (0 : Fin 1) k) := by
  show s (ix2 p k) * broadcastTo S1000x256 d broadcasts_S1000x1_S1000x256 (ix2 p k)
      + broadcastTo S1000x256 b broadcasts_S1x256_S1000x256 (ix2 p k) = _
  rw [Cert.Column.across_apply, broadcastTo_1b_ab_apply]

/-- A tile plus a bias row, at an entry. -/
theorem plus_row (z : FVec Ideal S1000x256 .f32) (b : FVec Ideal S1x256 .f32) (p : Fin 1000) (k : Fin 256) :
    addf z (broadcastTo S1000x256 b broadcasts_S1x256_S1000x256) (ix2 p k) = z (ix2 p k) + b (ix2 (0 : Fin 1) k) := by
  show z (ix2 p k) + broadcastTo S1000x256 b broadcasts_S1x256_S1000x256 (ix2 p k) = _
  rw [broadcastTo_1b_ab_apply]

/-- The matrix-unit product of a tile with a 256 × 256 weight, at an entry. -/
theorem product256 {φ : FTy} (z : FVec Ideal S1000x256 φ) (w : FVec Ideal S256x256 .bf16) (p : Fin 1000) (q : Fin 256) :
    matmul dot_S1000x256_S256x256_S1000x256_1_0_0_1_n_n none z w (constant S1000x256 .f32 0x00000000#32) (ix2 p q) = ∑ k : Fin 256, z (ix2 p k) * w (ix2 k q) :=
  Cert.DenseLayer.tile_product_apply dot_S1000x256_S256x256_S1000x256_1_0_0_1_n_n rfl rfl rfl rfl rfl rfl rfl rfl none z w p q

/-- The first projection's tile at (p, q). -/
theorem pay0_apply (v0 : Vec Ideal S1000x300 .f32) (v2 : Vec Ideal S300x256 .bf16) (v5 : Vec Ideal S1000x1 .f32)
    (p : Fin 1000) (q : Fin 256) :
    k0_pay1 v0 v2 v5 (ix2 p q) = (∑ k : Fin 300, v0 (ix2 p k) * v2 (ix2 k q)) * v5 (ix2 p (0 : Fin 1)) := by
  unfold k0_pay1
  simp only [shapeCast_self]
  refine (show ∀ (M : FVec Ideal S1000x256 .f32) (B : FVec Ideal S1000x256 .f32), mulf M B (ix2 p q) = M (ix2 p q) * B (ix2 p q)
    from fun _ _ => rfl) _ _ |>.trans ?_
  rw [Cert.DenseLayer.tile_product_apply dot_S1000x300_S300x256_S1000x256_1_0_0_1_n_n rfl rfl rfl rfl rfl rfl rfl rfl none, Cert.Column.across_apply]
  rfl

/-- A fused rectify-and-project tile at (p, q) (the second region's body). -/
theorem pay1_apply (v0 : Vec Ideal S1000x256 .f32) (v2 : Vec Ideal S1000x1 .f32) (v6 : Vec Ideal S1x256 .f32)
    (v13 : Vec Ideal S256x256 .bf16) (v16 : Vec Ideal S1000x1 .f32) (p : Fin 1000) (q : Fin 256) :
    k1_pay1 v0 v2 v6 v13 v16 (ix2 p q)
      = (∑ k : Fin 256, relu (v0 (ix2 p k) * v2 (ix2 p (0 : Fin 1)) + v6 (ix2 (0 : Fin 1) k)) * v13 (ix2 k q))
          * v16 (ix2 p (0 : Fin 1)) := by
  unfold k1_pay1
  simp only [shapeCast_self]
  refine (show ∀ (M : FVec Ideal S1000x256 .f32) (B : FVec Ideal S1000x256 .f32), mulf M B (ix2 p q) = M (ix2 p q) * B (ix2 p q)
    from fun _ _ => rfl) _ _ |>.trans ?_
  rw [product256, Cert.Column.across_apply]
  refine congrArg (· * v16 (ix2 p (0 : Fin 1))) (Finset.sum_congr rfl fun k _ => congrArg (· * v13 (ix2 k q)) ?_)
  show max (addf _ _ (ix2 p k)) (Scalar.ofBits (F := Ideal) .f32 0x00000000#32) = _
  rw [scaled_shifted]
  rfl

/-- The same for the third region's body. -/
theorem pay2_apply (v0 : Vec Ideal S1000x256 .f32) (v2 : Vec Ideal S1000x1 .f32) (v6 : Vec Ideal S1x256 .f32)
    (v13 : Vec Ideal S256x256 .bf16) (v16 : Vec Ideal S1000x1 .f32) (p : Fin 1000) (q : Fin 256) :
    k2_pay1 v0 v2 v6 v13 v16 (ix2 p q)
      = (∑ k : Fin 256, relu (v0 (ix2 p k) * v2 (ix2 p (0 : Fin 1)) + v6 (ix2 (0 : Fin 1) k)) * v13 (ix2 k q))
          * v16 (ix2 p (0 : Fin 1)) := by
  unfold k2_pay1
  simp only [shapeCast_self]
  refine (show ∀ (M : FVec Ideal S1000x256 .f32) (B : FVec Ideal S1000x256 .f32), mulf M B (ix2 p q) = M (ix2 p q) * B (ix2 p q)
    from fun _ _ => rfl) _ _ |>.trans ?_
  rw [product256, Cert.Column.across_apply]
  refine congrArg (· * v16 (ix2 p (0 : Fin 1))) (Finset.sum_congr rfl fun k _ => congrArg (· * v13 (ix2 k q)) ?_)
  show max (addf _ _ (ix2 p k)) (Scalar.ofBits (F := Ideal) .f32 0x00000000#32) = _
  rw [scaled_shifted]
  rfl

/-- The head's tile at (p, q): three affine layers, the first two rectified, on the scaled and shifted input. -/
theorem pay3_apply (v0 : Vec Ideal S1000x256 .f32) (v2 : Vec Ideal S1000x1 .f32) (v6 : Vec Ideal S1x256 .f32)
    (v11 : Vec Ideal S256x256 .bf16) (v14 : Vec Ideal S1x256 .f32) (v21 : Vec Ideal S256x256 .bf16)
    (v24 : Vec Ideal S1x256 .f32) (v31 : Vec Ideal S256x256 .bf16) (v34 : Vec Ideal S1x256 .f32) (p : Fin 1000) (q : Fin 256) :
    k3_pay1 (k3_pay2 v0 v2 v6 v11 v14 v21 v24 v31) (k3_pay3 v34) (ix2 p q)
      = (∑ k : Fin 256,
          relu ((∑ k' : Fin 256,
              relu ((∑ k'' : Fin 256, (v0 (ix2 p k'') * v2 (ix2 p (0 : Fin 1)) + v6 (ix2 (0 : Fin 1) k'')) * v11 (ix2 k'' k'))
                + v14 (ix2 (0 : Fin 1) k')) * v21 (ix2 k' k))
            + v24 (ix2 (0 : Fin 1) k)) * v31 (ix2 k q))
        + v34 (ix2 (0 : Fin 1) q) := by
  unfold k3_pay1 k3_pay2 k3_pay3
  simp only [shapeCast_self]
  refine (show ∀ (M : FVec Ideal S1000x256 .f32) (B : FVec Ideal S1000x256 .f32), addf M B (ix2 p q) = M (ix2 p q) + B (ix2 p q)
    from fun _ _ => rfl) _ _ |>.trans ?_
  rw [product256, broadcastTo_1b_ab_apply]
  refine congrArg (· + v34 (ix2 (0 : Fin 1) q)) (Finset.sum_congr rfl fun k _ => congrArg (· * v31 (ix2 k q)) ?_)
  show max (addf _ _ (ix2 p k)) (Scalar.ofBits (F := Ideal) .f32 0x00000000#32) = _
  rw [plus_row, product256]
  refine congrArg (fun z => relu (z + v24 (ix2 (0 : Fin 1) k))) (Finset.sum_congr rfl fun k' _ => congrArg (· * v21 (ix2 k' k)) ?_)
  show max (addf _ _ (ix2 p k')) (Scalar.ofBits (F := Ideal) .f32 0x00000000#32) = _
  rw [plus_row, product256]
  refine congrArg (fun z => relu (z + v14 (ix2 (0 : Fin 1) k'))) (Finset.sum_congr rfl fun k'' _ => congrArg (· * v11 (ix2 k'' k')) ?_)
  exact scaled_shifted v0 v2 v6 p k''

end Cert.KernelIdeal.Tile

end
-- ==== Proof.KernelRegion0.lean ====
/-
  The first region's output array as one function of its input arrays.

  The region tiles the 20000 rows into 20 blocks of 1000. At grid point t the body reads rows 1000·t … 1000·t + 999 of the
  feature matrix and of the weight column, the whole projection matrix, and writes the same rows of the output. A row
  of the output depends only on the same row of the inputs, so every written block is the restriction of ONE function of
  the whole arrays,

      G (r, c) = (∑ k, X (r, k) · W (k, c)) · d (r, 0),

  and since the 20 blocks cover every row the array ends holding G.
-/
import proofs.«176313_j54795192762716_2_alg».proof.Proof.Gen.KernelIdeal.Frame
import proofs.«176313_j54795192762716_2_alg».proof.Proof.TileMath
import Idealize.ShloMosaic.Lib.Pipeline.Value

set_option maxRecDepth 16384

open scoped BigOperators

noncomputable section

namespace Cert.KernelIdeal.Region0

open Cert.KernelIdeal Cert.KernelIdeal.Gen Idealize.ShloMosaic Idealize.ShloMosaic.TcCoe Idealize.ShloMosaic.ValueIdx
open Idealize.SL.Sem Idealize.ShloMosaic.Pipeline

/-- The region's output as one function of the whole input arrays. -/
def G (X : S20000x300.Idx → Elt Ideal .f32) (W : S300x256.Idx → Elt Ideal .bf16) (Dv : S20000x1.Idx → Elt Ideal .f32) :
    S20000x256.Idx → Elt Ideal .f32 := fun i =>
  (∑ k : Fin 300, X (ix2 (⟨(i 0).val, idx2_lt0 i⟩ : Fin 20000) k) * W (ix2 k (⟨(i 1).val, idx2_lt1 i⟩ : Fin 256)))
    * Dv (ix2 (⟨(i 0).val, idx2_lt0 i⟩ : Fin 20000) (0 : Fin 1))

theorem hz : (![0, 0] : Fin 2 → Nat) = fun _ => 0 := funext fun a => by fin_cases a <;> rfl

/-- One tile entry against one array entry: if the tile's row p is the array's row R, the body's value at (p, q) is
    G at (R, q). -/
theorem point (x0 : Vec Ideal S1000x300 .f32) (x1 : Vec Ideal S300x256 .bf16) (x2 : Vec Ideal S1000x1 .f32)
    (X : S20000x300.Idx → Elt Ideal .f32) (W : S300x256.Idx → Elt Ideal .bf16) (Dv : S20000x1.Idx → Elt Ideal .f32)
    (p : Fin 1000) (q : Fin 256) (R : Fin 20000)
    (h0 : ∀ k : Fin 300, x0 (ix2 p k) = X (ix2 R k)) (h1 : ∀ k : Fin 300, x1 (ix2 k q) = W (ix2 k q))
    (h2 : x2 (ix2 p (0 : Fin 1)) = Dv (ix2 R (0 : Fin 1))) :
    k0_pay1 x0 x1 x2 (ix2 p q) = G X W Dv (ix2 R q) := by
  rw [Cert.KernelIdeal.Tile.pay0_apply]
  simp only [h0, h1, h2]
  rfl

/-- The printed index maps over the grid: the row-tiled windows move with the point, the others stay. -/
theorem idx_facts : ∀ t : Fin cfg0.N, win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 20 :=
  (by decide +kernel : ∀ t : Fin grid0.N, _)

variable (V : (c : Dev nD) → (b : Ref sig .tc) → Buf (Elt Ideal) ((c : Thread nD τ).loc b))

/-- What point t writes back is block t of G of the arrays as the region finds them. -/
theorem flushed_eq (c : Dev nD) (t : Fin cfg0.N) :
    (dat0 V c).flushed 3 t = ((cfg0.win 3).blk t).view.read (Elt Ideal)
      (G (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz]
  simp only [View.ld_unit_zero (S := S1000x300) hz, View.ld_unit_zero (S := S300x256) hz, View.ld_unit_zero (S := S1000x1) hz]
  obtain ⟨e30, e31, e00, e01, e10, e11, e20, e21, ht⟩ := idx_facts t
  funext j
  have hp : (j 0).val < 1000 := (j 0).isLt
  have hq : (j 1).val < 256 := (j 1).isLt
  obtain ⟨p, q, rfl⟩ : ∃ (p : Fin 1000) (q : Fin 256), j = ix2 p q :=
    ⟨⟨(j 0).val, hp⟩, ⟨(j 1).val, hq⟩, funext fun a => by match a with | ⟨0, _⟩ => rfl | ⟨1, _⟩ => rfl⟩
  have hR : t.val * 1000 + p.val < 20000 := by have := p.isLt; omega
  refine (point _ _ _ (V c (Pipeline.arrRef spec0 0)) (V c (Pipeline.arrRef spec0 1)) (V c (Pipeline.arrRef spec0 2))
    p q ⟨t.val * 1000 + p.val, hR⟩ (fun k => ?_) (fun k => ?_) ?_).trans ?_
  · show V c (Pipeline.arrRef spec0 0) (((cfg0.win 0).blk t).view.emb (ix2 p k)) = _
    refine congrArg _ (funext fun a => Fin.ext ?_)
    match a with
    | ⟨0, _⟩ => show win0_0.index t (0 : Fin 2) * 1000 + 1 * p.val = t.val * 1000 + p.val; omega
    | ⟨1, _⟩ => show win0_0.index t (1 : Fin 2) * 300 + 1 * k.val = k.val; omega
  · show V c (Pipeline.arrRef spec0 1) (((cfg0.win 1).blk t).view.emb (ix2 k q)) = _
    refine congrArg _ (funext fun a => Fin.ext ?_)
    match a with
    | ⟨0, _⟩ => show win0_1.index t (0 : Fin 2) * 300 + 1 * k.val = k.val; omega
    | ⟨1, _⟩ => show win0_1.index t (1 : Fin 2) * 256 + 1 * q.val = q.val; omega
  · show V c (Pipeline.arrRef spec0 2) (((cfg0.win 2).blk t).view.emb (ix2 p (0 : Fin 1))) = _
    refine congrArg _ (funext fun a => Fin.ext ?_)
    match a with
    | ⟨0, _⟩ => show win0_2.index t (0 : Fin 2) * 1000 + 1 * p.val = t.val * 1000 + p.val; omega
    | ⟨1, _⟩ => show win0_2.index t (1 : Fin 2) * 1 + 1 * 0 = 0; omega
  · show G _ _ _ _ = G _ _ _ (((cfg0.win 3).blk t).view.emb (ix2 p q))
    refine congrArg _ (funext fun a => Fin.ext ?_)
    match a with
    | ⟨0, _⟩ => show t.val * 1000 + p.val = win0_3.index t (0 : Fin 2) * 1000 + 1 * p.val; omega
    | ⟨1, _⟩ => show q.val = win0_3.index t (1 : Fin 2) * 256 + 1 * q.val; omega

/-- An index of the array is in point t's block iff each coordinate is in the block's range on its axis. -/
theorem mem_blk (t : Fin cfg0.N) (i : S20000x256.Idx) :
    i ∈ ((cfg0.win 3).blk t).view.set ↔ ∀ a : Fin 2, win0_3.index t a * S1000x256.size a ≤ (i a).val
      ∧ (i a).val < win0_3.index t a * S1000x256.size a + S1000x256.size a := by
  show i ∈ ((View.whole main_v28).slice (win0_3.rect t)).set ↔ _
  rw [View.set_slice_whole, Rect.mem_set_unit]
  exact Iff.rfl

/-- Every row lies in the block of the point that is its row number divided by 1000. -/
theorem cover (i : S20000x256.Idx) :
    ∃ t : Fin cfg0.N, (cfg0.win 3).flush t = true ∧ i ∈ ((cfg0.win 3).blk t).view.set := by
  have hi0 : (i 0).val < 20000 := (i 0).isLt
  have hi1 : (i 1).val < 256 := (i 1).isLt
  have hN : cfg0.N = 20 := N_0
  refine ⟨⟨(i 0).val / 1000, by rw [hN]; omega⟩, flush0_3 _, ?_⟩
  rw [mem_blk]
  obtain ⟨e30, e31, -⟩ := idx_facts ⟨(i 0).val / 1000, by rw [hN]; omega⟩
  intro a
  match a with
  | ⟨0, _⟩ =>
    show win0_3.index _ (0 : Fin 2) * 1000 ≤ (i 0).val ∧ (i 0).val < win0_3.index _ (0 : Fin 2) * 1000 + 1000
    rw [e30]; show (i 0).val / 1000 * 1000 ≤ (i 0).val ∧ (i 0).val < (i 0).val / 1000 * 1000 + 1000; omega
  | ⟨1, _⟩ =>
    show win0_3.index _ (1 : Fin 2) * 256 ≤ (i 1).val ∧ (i 1).val < win0_3.index _ (1 : Fin 2) * 256 + 256
    rw [e31]; omega

/-- The output array after the region. -/
theorem final (c : Dev nD) : (dat0 V c).arrAt 3 cfg0.N
    = G (V c (Pipeline.arrRef spec0 0)) (V c (Pipeline.arrRef spec0 1)) (V c (Pipeline.arrRef spec0 2)) :=
  (dat0 V c).arrAt_eq_of_cover 3 _ (fun t _ => flushed_eq V c t) cover

end Cert.KernelIdeal.Region0

end
-- ==== Proof.KernelRegion1.lean ====
/-
  The second region's output array as one function of its input arrays.

  The region tiles the 20000 rows into 20 blocks of 1000. At grid point t the body reads rows 1000·t … 1000·t + 999 of the
  aggregated matrix and of the weight column, the whole bias row and projection matrix, and writes the same rows of the
  output. A row of the output depends only on the same row of the row-tiled inputs, so every written block is the
  restriction of ONE function of the whole arrays,

      G (r, c) = (∑ k, max (S (r, k) · d (r, 0) + b (0, k)) 0 · W (k, c)) · d (r, 0),

  and since the 20 blocks cover every row the array ends holding G.
-/
import proofs.«176313_j54795192762716_2_alg».proof.Proof.Gen.KernelIdeal.Frame
import proofs.«176313_j54795192762716_2_alg».proof.Proof.TileMath
import Idealize.ShloMosaic.Lib.Pipeline.Value

set_option maxRecDepth 16384

open scoped BigOperators

noncomputable section

namespace Cert.KernelIdeal.Region1

open Cert.KernelIdeal Cert.KernelIdeal.Gen Idealize.ShloMosaic Idealize.ShloMosaic.TcCoe Idealize.ShloMosaic.ValueIdx
open Idealize.SL.Sem Idealize.ShloMosaic.Pipeline Cert.KernelIdeal.Tile

/-- The region's output as one function of the whole input arrays. -/
def G (S : S20000x256.Idx → Elt Ideal .f32) (Dv : S20000x1.Idx → Elt Ideal .f32) (B : S1x256.Idx → Elt Ideal .f32)
    (W : S256x256.Idx → Elt Ideal .bf16) : S20000x256.Idx → Elt Ideal .f32 := fun i =>
  (∑ k : Fin 256, relu (S (ix2 (⟨(i 0).val, idx2_lt0 i⟩ : Fin 20000) k) * Dv (ix2 (⟨(i 0).val, idx2_lt0 i⟩ : Fin 20000) (0 : Fin 1))
        + B (ix2 (0 : Fin 1) k)) * W (ix2 k (⟨(i 1).val, idx2_lt1 i⟩ : Fin 256)))
    * Dv (ix2 (⟨(i 0).val, idx2_lt0 i⟩ : Fin 20000) (0 : Fin 1))

theorem hz : (![0, 0] : Fin 2 → Nat) = fun _ => 0 := funext fun a => by fin_cases a <;> rfl

/-- One tile entry against one array entry: if the tile's row p is the array's row R, the body's value at (p, q) is
    G at (R, q). -/
theorem point (x0 : Vec Ideal S1000x256 .f32) (x1 : Vec Ideal S1000x1 .f32) (x2 : Vec Ideal S1x256 .f32)
    (x3 : Vec Ideal S256x256 .bf16)
    (S : S20000x256.Idx → Elt Ideal .f32) (Dv : S20000x1.Idx → Elt Ideal .f32) (B : S1x256.Idx → Elt Ideal .f32)
    (W : S256x256.Idx → Elt Ideal .bf16) (p : Fin 1000) (q : Fin 256) (R : Fin 20000)
    (h0 : ∀ k : Fin 256, x0 (ix2 p k) = S (ix2 R k)) (h1 : x1 (ix2 p (0 : Fin 1)) = Dv (ix2 R (0 : Fin 1)))
    (h2 : ∀ k : Fin 256, x2 (ix2 (0 : Fin 1) k) = B (ix2 (0 : Fin 1) k)) (h3 : ∀ k : Fin 256, x3 (ix2 k q) = W (ix2 k q)) :
    k1_pay1 x0 x1 x2 x3 x1 (ix2 p q) = G S Dv B W (ix2 R q) := by
  rw [pay1_apply]
  simp only [h0, h1, h2, h3]
  rfl

/-- The printed index maps over the grid: the row-tiled windows move with the point, the others stay. -/
theorem idx_facts : ∀ t : Fin cfg1.N, win1_4.index t (0 : Fin 2) = t.val ∧ win1_4.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 ∧ t.val < 20 :=
  (by decide +kernel : ∀ t : Fin grid1.N, _)

variable (V : (c : Dev nD) → (b : Ref sig .tc) → Buf (Elt Ideal) ((c : Thread nD τ).loc b))

set_option maxHeartbeats 8000000 in
/-- What point t writes back is block t of G of the arrays as the region finds them. -/
theorem flushed_eq (c : Dev nD) (t : Fin cfg1.N) :
    (dat1 V c).flushed 4 t = ((cfg1.win 4).blk t).view.read (Elt Ideal)
      (G (V c (Pipeline.arrRef spec1 0)) (V c (Pipeline.arrRef spec1 1)) (V c (Pipeline.arrRef spec1 2))
        (V c (Pipeline.arrRef spec1 3))) := by
  show (cfg1.win 4).cut (grid1.coords t) ((dat1 V c).after 4 t) = _
  rw [after1_4]
  unfold out1_4
  rw [View.canon_unit_zero hz]
  simp only [View.ld_unit_zero (S := S1000x256) hz, View.ld_unit_zero (S := S1000x1) hz, View.ld_unit_zero (S := S1x256) hz,
    View.ld_unit_zero (S := S256x256) hz]
  obtain ⟨e40, e41, e00, e01, e10, e11, e20, e21, e30, e31, ht⟩ := idx_facts t
  funext j
  have hp : (j 0).val < 1000 := (j 0).isLt
  have hq : (j 1).val < 256 := (j 1).isLt
  obtain ⟨p, q, rfl⟩ : ∃ (p : Fin 1000) (q : Fin 256), j = ix2 p q :=
    ⟨⟨(j 0).val, hp⟩, ⟨(j 1).val, hq⟩, funext fun a => by match a with | ⟨0, _⟩ => rfl | ⟨1, _⟩ => rfl⟩
  have hR : t.val * 1000 + p.val < 20000 := by have := p.isLt; omega
  refine (point _ _ _ _ (V c (Pipeline.arrRef spec1 0)) (V c (Pipeline.arrRef spec1 1)) (V c (Pipeline.arrRef spec1 2))
    (V c (Pipeline.arrRef spec1 3)) p q ⟨t.val * 1000 + p.val, hR⟩ (fun k => ?_) ?_ (fun k => ?_) (fun k => ?_)).trans ?_
  · show V c (Pipeline.arrRef spec1 0) (((cfg1.win 0).blk t).view.emb (ix2 p k)) = _
    refine congrArg _ (funext fun a => Fin.ext ?_)
    match a with
    | ⟨0, _⟩ => show win1_0.index t (0 : Fin 2) * 1000 + 1 * p.val = t.val * 1000 + p.val; omega
    | ⟨1, _⟩ => show win1_0.index t (1 : Fin 2) * 256 + 1 * k.val = k.val; omega
  · show V c (Pipeline.arrRef spec1 1) (((cfg1.win 1).blk t).view.emb (ix2 p (0 : Fin 1))) = _
    refine congrArg _ (funext fun a => Fin.ext ?_)
    match a with
    | ⟨0, _⟩ => show win1_1.index t (0 : Fin 2) * 1000 + 1 * p.val = t.val * 1000 + p.val; omega
    | ⟨1, _⟩ => show win1_1.index t (1 : Fin 2) * 1 + 1 * 0 = 0; omega
  · show V c (Pipeline.arrRef spec1 2) (((cfg1.win 2).blk t).view.emb (ix2 (0 : Fin 1) k)) = _
    refine congrArg _ (funext fun a => Fin.ext ?_)
    match a with
    | ⟨0, _⟩ => show win1_2.index t (0 : Fin 2) * 1 + 1 * 0 = 0; omega
    | ⟨1, _⟩ => show win1_2.index t (1 : Fin 2) * 256 + 1 * k.val = k.val; omega
  · show V c (Pipeline.arrRef spec1 3) (((cfg1.win 3).blk t).view.emb (ix2 k q)) = _
    refine congrArg _ (funext fun a => Fin.ext ?_)
    match a with
    | ⟨0, _⟩ => show win1_3.index t (0 : Fin 2) * 256 + 1 * k.val = k.val; omega
    | ⟨1, _⟩ => show win1_3.index t (1 : Fin 2) * 256 + 1 * q.val = q.val; omega
  · show G _ _ _ _ _ = G _ _ _ _ (((cfg1.win 4).blk t).view.emb (ix2 p q))
    refine congrArg _ (funext fun a => Fin.ext ?_)
    match a with
    | ⟨0, _⟩ => show t.val * 1000 + p.val = win1_4.index t (0 : Fin 2) * 1000 + 1 * p.val; omega
    | ⟨1, _⟩ => show q.val = win1_4.index t (1 : Fin 2) * 256 + 1 * q.val; omega

/-- An index of the array is in point t's block iff each coordinate is in the block's range on its axis. -/
theorem mem_blk (t : Fin cfg1.N) (i : S20000x256.Idx) :
    i ∈ ((cfg1.win 4).blk t).view.set ↔ ∀ a : Fin 2, win1_4.index t a * S1000x256.size a ≤ (i a).val
      ∧ (i a).val < win1_4.index t a * S1000x256.size a + S1000x256.size a := by
  show i ∈ ((View.whole main_v39).slice (win1_4.rect t)).set ↔ _
  rw [View.set_slice_whole, Rect.mem_set_unit]
  exact Iff.rfl

/-- Every row lies in the block of the point that is its row number divided by 1000. -/
theorem cover (i : S20000x256.Idx) :
    ∃ t : Fin cfg1.N, (cfg1.win 4).flush t = true ∧ i ∈ ((cfg1.win 4).blk t).view.set := by
  have hi0 : (i 0).val < 20000 := (i 0).isLt
  have hi1 : (i 1).val < 256 := (i 1).isLt
  have hN : cfg1.N = 20 := N_1
  refine ⟨⟨(i 0).val / 1000, by rw [hN]; omega⟩, flush1_4 _, ?_⟩
  rw [mem_blk]
  obtain ⟨e40, e41, -⟩ := idx_facts ⟨(i 0).val / 1000, by rw [hN]; omega⟩
  intro a
  match a with
  | ⟨0, _⟩ =>
    show win1_4.index _ (0 : Fin 2) * 1000 ≤ (i 0).val ∧ (i 0).val < win1_4.index _ (0 : Fin 2) * 1000 + 1000
    rw [e40]; show (i 0).val / 1000 * 1000 ≤ (i 0).val ∧ (i 0).val < (i 0).val / 1000 * 1000 + 1000; omega
  | ⟨1, _⟩ =>
    show win1_4.index _ (1 : Fin 2) * 256 ≤ (i 1).val ∧ (i 1).val < win1_4.index _ (1 : Fin 2) * 256 + 256
    rw [e41]; omega

/-- The output array after the region. -/
theorem final (c : Dev nD) : (dat1 V c).arrAt 4 cfg1.N
    = G (V c (Pipeline.arrRef spec1 0)) (V c (Pipeline.arrRef spec1 1)) (V c (Pipeline.arrRef spec1 2))
        (V c (Pipeline.arrRef spec1 3)) :=
  (dat1 V c).arrAt_eq_of_cover 4 _ (fun t _ => flushed_eq V c t) cover

end Cert.KernelIdeal.Region1

end
-- ==== Proof.KernelRegion2.lean ====
/-
  The third region's output array as one function of its input arrays.

  The region tiles the 20000 rows into 20 blocks of 1000. At grid point t the body reads rows 1000·t … 1000·t + 999 of the
  aggregated matrix and of the weight column, the whole bias row and projection matrix, and writes the same rows of the
  output. A row of the output depends only on the same row of the row-tiled inputs, so every written block is the
  restriction of ONE function of the whole arrays,

      G (r, c) = (∑ k, max (S (r, k) · d (r, 0) + b (0, k)) 0 · W (k, c)) · d (r, 0),

  and since the 20 blocks cover every row the array ends holding G.
-/
import proofs.«176313_j54795192762716_2_alg».proof.Proof.Gen.KernelIdeal.Frame
import proofs.«176313_j54795192762716_2_alg».proof.Proof.TileMath
import Idealize.ShloMosaic.Lib.Pipeline.Value

set_option maxRecDepth 16384

open scoped BigOperators

noncomputable section

namespace Cert.KernelIdeal.Region2

open Cert.KernelIdeal Cert.KernelIdeal.Gen Idealize.ShloMosaic Idealize.ShloMosaic.TcCoe Idealize.ShloMosaic.ValueIdx
open Idealize.SL.Sem Idealize.ShloMosaic.Pipeline Cert.KernelIdeal.Tile

/-- The region's output as one function of the whole input arrays. -/
def G (S : S20000x256.Idx → Elt Ideal .f32) (Dv : S20000x1.Idx → Elt Ideal .f32) (B : S1x256.Idx → Elt Ideal .f32)
    (W : S256x256.Idx → Elt Ideal .bf16) : S20000x256.Idx → Elt Ideal .f32 := fun i =>
  (∑ k : Fin 256, relu (S (ix2 (⟨(i 0).val, idx2_lt0 i⟩ : Fin 20000) k) * Dv (ix2 (⟨(i 0).val, idx2_lt0 i⟩ : Fin 20000) (0 : Fin 1))
        + B (ix2 (0 : Fin 1) k)) * W (ix2 k (⟨(i 1).val, idx2_lt1 i⟩ : Fin 256)))
    * Dv (ix2 (⟨(i 0).val, idx2_lt0 i⟩ : Fin 20000) (0 : Fin 1))

theorem hz : (![0, 0] : Fin 2 → Nat) = fun _ => 0 := funext fun a => by fin_cases a <;> rfl

/-- One tile entry against one array entry: if the tile's row p is the array's row R, the body's value at (p, q) is
    G at (R, q). -/
theorem point (x0 : Vec Ideal S1000x256 .f32) (x1 : Vec Ideal S1000x1 .f32) (x2 : Vec Ideal S1x256 .f32)
    (x3 : Vec Ideal S256x256 .bf16)
    (S : S20000x256.Idx → Elt Ideal .f32) (Dv : S20000x1.Idx → Elt Ideal .f32) (B : S1x256.Idx → Elt Ideal .f32)
    (W : S256x256.Idx → Elt Ideal .bf16) (p : Fin 1000) (q : Fin 256) (R : Fin 20000)
    (h0 : ∀ k : Fin 256, x0 (ix2 p k) = S (ix2 R k)) (h1 : x1 (ix2 p (0 : Fin 1)) = Dv (ix2 R (0 : Fin 1)))
    (h2 : ∀ k : Fin 256, x2 (ix2 (0 : Fin 1) k) = B (ix2 (0 : Fin 1) k)) (h3 : ∀ k : Fin 256, x3 (ix2 k q) = W (ix2 k q)) :
    k2_pay1 x0 x1 x2 x3 x1 (ix2 p q) = G S Dv B W (ix2 R q) := by
  rw [pay2_apply]
  simp only [h0, h1, h2, h3]
  rfl

/-- The printed index maps over the grid: the row-tiled windows move with the point, the others stay. -/
theorem idx_facts : ∀ t : Fin cfg2.N, win2_4.index t (0 : Fin 2) = t.val ∧ win2_4.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 ∧ t.val < 20 :=
  (by decide +kernel : ∀ t : Fin grid2.N, _)

variable (V : (c : Dev nD) → (b : Ref sig .tc) → Buf (Elt Ideal) ((c : Thread nD τ).loc b))

set_option maxHeartbeats 8000000 in
/-- What point t writes back is block t of G of the arrays as the region finds them. -/
theorem flushed_eq (c : Dev nD) (t : Fin cfg2.N) :
    (dat2 V c).flushed 4 t = ((cfg2.win 4).blk t).view.read (Elt Ideal)
      (G (V c (Pipeline.arrRef spec2 0)) (V c (Pipeline.arrRef spec2 1)) (V c (Pipeline.arrRef spec2 2))
        (V c (Pipeline.arrRef spec2 3))) := by
  show (cfg2.win 4).cut (grid2.coords t) ((dat2 V c).after 4 t) = _
  rw [after2_4]
  unfold out2_4
  rw [View.canon_unit_zero hz]
  simp only [View.ld_unit_zero (S := S1000x256) hz, View.ld_unit_zero (S := S1000x1) hz, View.ld_unit_zero (S := S1x256) hz,
    View.ld_unit_zero (S := S256x256) hz]
  obtain ⟨e40, e41, e00, e01, e10, e11, e20, e21, e30, e31, ht⟩ := idx_facts t
  funext j
  have hp : (j 0).val < 1000 := (j 0).isLt
  have hq : (j 1).val < 256 := (j 1).isLt
  obtain ⟨p, q, rfl⟩ : ∃ (p : Fin 1000) (q : Fin 256), j = ix2 p q :=
    ⟨⟨(j 0).val, hp⟩, ⟨(j 1).val, hq⟩, funext fun a => by match a with | ⟨0, _⟩ => rfl | ⟨1, _⟩ => rfl⟩
  have hR : t.val * 1000 + p.val < 20000 := by have := p.isLt; omega
  refine (point _ _ _ _ (V c (Pipeline.arrRef spec2 0)) (V c (Pipeline.arrRef spec2 1)) (V c (Pipeline.arrRef spec2 2))
    (V c (Pipeline.arrRef spec2 3)) p q ⟨t.val * 1000 + p.val, hR⟩ (fun k => ?_) ?_ (fun k => ?_) (fun k => ?_)).trans ?_
  · show V c (Pipeline.arrRef spec2 0) (((cfg2.win 0).blk t).view.emb (ix2 p k)) = _
    refine congrArg _ (funext fun a => Fin.ext ?_)
    match a with
    | ⟨0, _⟩ => show win2_0.index t (0 : Fin 2) * 1000 + 1 * p.val = t.val * 1000 + p.val; omega
    | ⟨1, _⟩ => show win2_0.index t (1 : Fin 2) * 256 + 1 * k.val = k.val; omega
  · show V c (Pipeline.arrRef spec2 1) (((cfg2.win 1).blk t).view.emb (ix2 p (0 : Fin 1))) = _
    refine congrArg _ (funext fun a => Fin.ext ?_)
    match a with
    | ⟨0, _⟩ => show win2_1.index t (0 : Fin 2) * 1000 + 1 * p.val = t.val * 1000 + p.val; omega
    | ⟨1, _⟩ => show win2_1.index t (1 : Fin 2) * 1 + 1 * 0 = 0; omega
  · show V c (Pipeline.arrRef spec2 2) (((cfg2.win 2).blk t).view.emb (ix2 (0 : Fin 1) k)) = _
    refine congrArg _ (funext fun a => Fin.ext ?_)
    match a with
    | ⟨0, _⟩ => show win2_2.index t (0 : Fin 2) * 1 + 1 * 0 = 0; omega
    | ⟨1, _⟩ => show win2_2.index t (1 : Fin 2) * 256 + 1 * k.val = k.val; omega
  · show V c (Pipeline.arrRef spec2 3) (((cfg2.win 3).blk t).view.emb (ix2 k q)) = _
    refine congrArg _ (funext fun a => Fin.ext ?_)
    match a with
    | ⟨0, _⟩ => show win2_3.index t (0 : Fin 2) * 256 + 1 * k.val = k.val; omega
    | ⟨1, _⟩ => show win2_3.index t (1 : Fin 2) * 256 + 1 * q.val = q.val; omega
  · show G _ _ _ _ _ = G _ _ _ _ (((cfg2.win 4).blk t).view.emb (ix2 p q))
    refine congrArg _ (funext fun a => Fin.ext ?_)
    match a with
    | ⟨0, _⟩ => show t.val * 1000 + p.val = win2_4.index t (0 : Fin 2) * 1000 + 1 * p.val; omega
    | ⟨1, _⟩ => show q.val = win2_4.index t (1 : Fin 2) * 256 + 1 * q.val; omega

/-- An index of the array is in point t's block iff each coordinate is in the block's range on its axis. -/
theorem mem_blk (t : Fin cfg2.N) (i : S20000x256.Idx) :
    i ∈ ((cfg2.win 4).blk t).view.set ↔ ∀ a : Fin 2, win2_4.index t a * S1000x256.size a ≤ (i a).val
      ∧ (i a).val < win2_4.index t a * S1000x256.size a + S1000x256.size a := by
  show i ∈ ((View.whole main_v50).slice (win2_4.rect t)).set ↔ _
  rw [View.set_slice_whole, Rect.mem_set_unit]
  exact Iff.rfl

/-- Every row lies in the block of the point that is its row number divided by 1000. -/
theorem cover (i : S20000x256.Idx) :
    ∃ t : Fin cfg2.N, (cfg2.win 4).flush t = true ∧ i ∈ ((cfg2.win 4).blk t).view.set := by
  have hi0 : (i 0).val < 20000 := (i 0).isLt
  have hi1 : (i 1).val < 256 := (i 1).isLt
  have hN : cfg2.N = 20 := N_2
  refine ⟨⟨(i 0).val / 1000, by rw [hN]; omega⟩, flush2_4 _, ?_⟩
  rw [mem_blk]
  obtain ⟨e40, e41, -⟩ := idx_facts ⟨(i 0).val / 1000, by rw [hN]; omega⟩
  intro a
  match a with
  | ⟨0, _⟩ =>
    show win2_4.index _ (0 : Fin 2) * 1000 ≤ (i 0).val ∧ (i 0).val < win2_4.index _ (0 : Fin 2) * 1000 + 1000
    rw [e40]; show (i 0).val / 1000 * 1000 ≤ (i 0).val ∧ (i 0).val < (i 0).val / 1000 * 1000 + 1000; omega
  | ⟨1, _⟩ =>
    show win2_4.index _ (1 : Fin 2) * 256 ≤ (i 1).val ∧ (i 1).val < win2_4.index _ (1 : Fin 2) * 256 + 256
    rw [e41]; omega

/-- The output array after the region. -/
theorem final (c : Dev nD) : (dat2 V c).arrAt 4 cfg2.N
    = G (V c (Pipeline.arrRef spec2 0)) (V c (Pipeline.arrRef spec2 1)) (V c (Pipeline.arrRef spec2 2))
        (V c (Pipeline.arrRef spec2 3)) :=
  (dat2 V c).arrAt_eq_of_cover 4 _ (fun t _ => flushed_eq V c t) cover

end Cert.KernelIdeal.Region2

end
-- ==== Proof.KernelRegion3.lean ====
/-
  The last region's output array as one function of its input arrays.

  The region tiles the 20000 rows into 20 blocks of 1000. At grid point t the body reads rows 1000·t … 1000·t + 999 of the
  aggregated matrix and of the weight column, and the whole of four bias rows and three weight matrices, and writes the
  same rows of the output: the last convolution's scale-and-shift followed by three affine layers, the first two
  rectified. A row of the output depends only on the same row of the row-tiled inputs, so every written block is the
  restriction of ONE function G of the whole arrays, and since the 20 blocks cover every row the array ends holding G.
-/
import proofs.«176313_j54795192762716_2_alg».proof.Proof.Gen.KernelIdeal.Frame
import proofs.«176313_j54795192762716_2_alg».proof.Proof.TileMath
import Idealize.ShloMosaic.Lib.Pipeline.Value

set_option maxRecDepth 16384

open scoped BigOperators

noncomputable section

namespace Cert.KernelIdeal.Region3

open Cert.KernelIdeal Cert.KernelIdeal.Gen Idealize.ShloMosaic Idealize.ShloMosaic.TcCoe Idealize.ShloMosaic.ValueIdx
open Idealize.SL.Sem Idealize.ShloMosaic.Pipeline Cert.KernelIdeal.Tile

/-- The region's output as one function of the whole input arrays. -/
def G (S : S20000x256.Idx → Elt Ideal .f32) (Dv : S20000x1.Idx → Elt Ideal .f32) (B2 : S1x256.Idx → Elt Ideal .f32)
    (W1 : S256x256.Idx → Elt Ideal .bf16) (B1 : S1x256.Idx → Elt Ideal .f32) (W2 : S256x256.Idx → Elt Ideal .bf16)
    (B2b : S1x256.Idx → Elt Ideal .f32) (W3 : S256x256.Idx → Elt Ideal .bf16) (B3 : S1x256.Idx → Elt Ideal .f32) :
    S20000x256.Idx → Elt Ideal .f32 := fun i =>
  (∑ k : Fin 256,
      relu ((∑ k' : Fin 256,
          relu ((∑ k'' : Fin 256, (S (ix2 (⟨(i 0).val, idx2_lt0 i⟩ : Fin 20000) k'')
                  * Dv (ix2 (⟨(i 0).val, idx2_lt0 i⟩ : Fin 20000) (0 : Fin 1)) + B2 (ix2 (0 : Fin 1) k'')) * W1 (ix2 k'' k'))
            + B1 (ix2 (0 : Fin 1) k')) * W2 (ix2 k' k))
        + B2b (ix2 (0 : Fin 1) k)) * W3 (ix2 k (⟨(i 1).val, idx2_lt1 i⟩ : Fin 256)))
    + B3 (ix2 (0 : Fin 1) (⟨(i 1).val, idx2_lt1 i⟩ : Fin 256))

theorem hz : (![0, 0] : Fin 2 → Nat) = fun _ => 0 := funext fun a => by fin_cases a <;> rfl

/-- One tile entry against one array entry: if the tile's row p is the array's row R, the body's value at (p, q) is
    G at (R, q). -/
theorem point (x0 : Vec Ideal S1000x256 .f32) (x1 : Vec Ideal S1000x1 .f32) (x2 : Vec Ideal S1x256 .f32)
    (x3 : Vec Ideal S256x256 .bf16) (x4 : Vec Ideal S1x256 .f32) (x5 : Vec Ideal S256x256 .bf16)
    (x6 : Vec Ideal S1x256 .f32) (x7 : Vec Ideal S256x256 .bf16) (x8 : Vec Ideal S1x256 .f32)
    (S : S20000x256.Idx → Elt Ideal .f32) (Dv : S20000x1.Idx → Elt Ideal .f32) (B2 : S1x256.Idx → Elt Ideal .f32)
    (W1 : S256x256.Idx → Elt Ideal .bf16) (B1 : S1x256.Idx → Elt Ideal .f32) (W2 : S256x256.Idx → Elt Ideal .bf16)
    (B2b : S1x256.Idx → Elt Ideal .f32) (W3 : S256x256.Idx → Elt Ideal .bf16) (B3 : S1x256.Idx → Elt Ideal .f32)
    (p : Fin 1000) (q : Fin 256) (R : Fin 20000)
    (h0 : ∀ k : Fin 256, x0 (ix2 p k) = S (ix2 R k)) (h1 : x1 (ix2 p (0 : Fin 1)) = Dv (ix2 R (0 : Fin 1)))
    (h2 : ∀ k : Fin 256, x2 (ix2 (0 : Fin 1) k) = B2 (ix2 (0 : Fin 1) k)) (h3 : ∀ k k' : Fin 256, x3 (ix2 k k') = W1 (ix2 k k'))
    (h4 : ∀ k : Fin 256, x4 (ix2 (0 : Fin 1) k) = B1 (ix2 (0 : Fin 1) k)) (h5 : ∀ k k' : Fin 256, x5 (ix2 k k') = W2 (ix2 k k'))
    (h6 : ∀ k : Fin 256, x6 (ix2 (0 : Fin 1) k) = B2b (ix2 (0 : Fin 1) k)) (h7 : ∀ k k' : Fin 256, x7 (ix2 k k') = W3 (ix2 k k'))
    (h8 : ∀ k : Fin 256, x8 (ix2 (0 : Fin 1) k) = B3 (ix2 (0 : Fin 1) k)) :
    k3_pay1 (k3_pay2 x0 x1 x2 x3 x4 x5 x6 x7) (k3_pay3 x8) (ix2 p q) = G S Dv B2 W1 B1 W2 B2b W3 B3 (ix2 R q) := by
  rw [pay3_apply]
  simp only [h0, h1, h2, h3, h4, h5, h6, h7, h8]
  rfl

set_option maxHeartbeats 8000000 in
/-- The printed index maps over the grid: the two row-tiled windows and the output move with the point, the others stay. -/
theorem idx_facts : ∀ t : Fin cfg3.N, win3_9.index t (0 : Fin 2) = t.val ∧ win3_9.index t (1 : Fin 2) = 0
    ∧ win3_0.index t (0 : Fin 2) = t.val ∧ win3_0.index t (1 : Fin 2) = 0
    ∧ win3_1.index t (0 : Fin 2) = t.val ∧ win3_1.index t (1 : Fin 2) = 0
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = 0 ∧ win3_7.index t (1 : Fin 2) = 0)
    ∧ (win3_8.index t (0 : Fin 2) = 0 ∧ win3_8.index t (1 : Fin 2) = 0) ∧ t.val < 20 :=
  (by decide +kernel : ∀ t : Fin grid3.N, _)

variable (V : (c : Dev nD) → (b : Ref sig .tc) → Buf (Elt Ideal) ((c : Thread nD τ).loc b))

set_option maxHeartbeats 8000000 in
/-- What point t writes back is block t of G of the arrays as the region finds them. -/
theorem flushed_eq (c : Dev nD) (t : Fin cfg3.N) :
    (dat3 V c).flushed 9 t = ((cfg3.win 9).blk t).view.read (Elt Ideal)
      (G (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5))
        (V c (Pipeline.arrRef spec3 6)) (V c (Pipeline.arrRef spec3 7)) (V c (Pipeline.arrRef spec3 8))) := by
  show (cfg3.win 9).cut (grid3.coords t) ((dat3 V c).after 9 t) = _
  rw [after3_9]
  unfold out3_9
  rw [View.canon_unit_zero hz]
  simp only [View.ld_unit_zero (S := S1000x256) hz, View.ld_unit_zero (S := S1000x1) hz, View.ld_unit_zero (S := S1x256) hz,
    View.ld_unit_zero (S := S256x256) hz]
  obtain ⟨e90, e91, e00, e01, e10, e11, ⟨e20, e21⟩, ⟨e30, e31⟩, ⟨e40, e41⟩, ⟨e50, e51⟩, ⟨e60, e61⟩, ⟨e70, e71⟩, ⟨e80, e81⟩, ht⟩ :=
    idx_facts t
  funext j
  have hp : (j 0).val < 1000 := (j 0).isLt
  have hq : (j 1).val < 256 := (j 1).isLt
  obtain ⟨p, q, rfl⟩ : ∃ (p : Fin 1000) (q : Fin 256), j = ix2 p q :=
    ⟨⟨(j 0).val, hp⟩, ⟨(j 1).val, hq⟩, funext fun a => by match a with | ⟨0, _⟩ => rfl | ⟨1, _⟩ => rfl⟩
  have hR : t.val * 1000 + p.val < 20000 := by have := p.isLt; omega
  refine (point _ _ _ _ _ _ _ _ _ (V c (Pipeline.arrRef spec3 0)) (V c (Pipeline.arrRef spec3 1)) (V c (Pipeline.arrRef spec3 2))
    (V c (Pipeline.arrRef spec3 3)) (V c (Pipeline.arrRef spec3 4)) (V c (Pipeline.arrRef spec3 5))
    (V c (Pipeline.arrRef spec3 6)) (V c (Pipeline.arrRef spec3 7)) (V c (Pipeline.arrRef spec3 8))
    p q ⟨t.val * 1000 + p.val, hR⟩ (fun k => ?_) ?_ (fun k => ?_) (fun k k' => ?_) (fun k => ?_) (fun k k' => ?_)
    (fun k => ?_) (fun k k' => ?_) (fun k => ?_)).trans ?_
  · show V c (Pipeline.arrRef spec3 0) (((cfg3.win 0).blk t).view.emb (ix2 p k)) = _
    refine congrArg _ (funext fun a => Fin.ext ?_)
    match a with
    | ⟨0, _⟩ => show win3_0.index t (0 : Fin 2) * 1000 + 1 * p.val = t.val * 1000 + p.val; omega
    | ⟨1, _⟩ => show win3_0.index t (1 : Fin 2) * 256 + 1 * k.val = k.val; omega
  · show V c (Pipeline.arrRef spec3 1) (((cfg3.win 1).blk t).view.emb (ix2 p (0 : Fin 1))) = _
    refine congrArg _ (funext fun a => Fin.ext ?_)
    match a with
    | ⟨0, _⟩ => show win3_1.index t (0 : Fin 2) * 1000 + 1 * p.val = t.val * 1000 + p.val; omega
    | ⟨1, _⟩ => show win3_1.index t (1 : Fin 2) * 1 + 1 * 0 = 0; omega
  · show V c (Pipeline.arrRef spec3 2) (((cfg3.win 2).blk t).view.emb (ix2 (0 : Fin 1) k)) = _
    refine congrArg _ (funext fun a => Fin.ext ?_)
    match a with
    | ⟨0, _⟩ => show win3_2.index t (0 : Fin 2) * 1 + 1 * 0 = 0; omega
    | ⟨1, _⟩ => show win3_2.index t (1 : Fin 2) * 256 + 1 * k.val = k.val; omega
  · show V c (Pipeline.arrRef spec3 3) (((cfg3.win 3).blk t).view.emb (ix2 k k')) = _
    refine congrArg _ (funext fun a => Fin.ext ?_)
    match a with
    | ⟨0, _⟩ => show win3_3.index t (0 : Fin 2) * 256 + 1 * k.val = k.val; omega
    | ⟨1, _⟩ => show win3_3.index t (1 : Fin 2) * 256 + 1 * k'.val = k'.val; omega
  · show V c (Pipeline.arrRef spec3 4) (((cfg3.win 4).blk t).view.emb (ix2 (0 : Fin 1) k)) = _
    refine congrArg _ (funext fun a => Fin.ext ?_)
    match a with
    | ⟨0, _⟩ => show win3_4.index t (0 : Fin 2) * 1 + 1 * 0 = 0; omega
    | ⟨1, _⟩ => show win3_4.index t (1 : Fin 2) * 256 + 1 * k.val = k.val; omega
  · show V c (Pipeline.arrRef spec3 5) (((cfg3.win 5).blk t).view.emb (ix2 k k')) = _
    refine congrArg _ (funext fun a => Fin.ext ?_)
    match a with
    | ⟨0, _⟩ => show win3_5.index t (0 : Fin 2) * 256 + 1 * k.val = k.val; omega
    | ⟨1, _⟩ => show win3_5.index t (1 : Fin 2) * 256 + 1 * k'.val = k'.val; omega
  · show V c (Pipeline.arrRef spec3 6) (((cfg3.win 6).blk t).view.emb (ix2 (0 : Fin 1) k)) = _
    refine congrArg _ (funext fun a => Fin.ext ?_)
    match a with
    | ⟨0, _⟩ => show win3_6.index t (0 : Fin 2) * 1 + 1 * 0 = 0; omega
    | ⟨1, _⟩ => show win3_6.index t (1 : Fin 2) * 256 + 1 * k.val = k.val; omega
  · show V c (Pipeline.arrRef spec3 7) (((cfg3.win 7).blk t).view.emb (ix2 k k')) = _
    refine congrArg _ (funext fun a => Fin.ext ?_)
    match a with
    | ⟨0, _⟩ => show win3_7.index t (0 : Fin 2) * 256 + 1 * k.val = k.val; omega
    | ⟨1, _⟩ => show win3_7.index t (1 : Fin 2) * 256 + 1 * k'.val = k'.val; omega
  · show V c (Pipeline.arrRef spec3 8) (((cfg3.win 8).blk t).view.emb (ix2 (0 : Fin 1) k)) = _
    refine congrArg _ (funext fun a => Fin.ext ?_)
    match a with
    | ⟨0, _⟩ => show win3_8.index t (0 : Fin 2) * 1 + 1 * 0 = 0; omega
    | ⟨1, _⟩ => show win3_8.index t (1 : Fin 2) * 256 + 1 * k.val = k.val; omega
  · show G _ _ _ _ _ _ _ _ _ _ = G _ _ _ _ _ _ _ _ _ (((cfg3.win 9).blk t).view.emb (ix2 p q))
    refine congrArg _ (funext fun a => Fin.ext ?_)
    match a with
    | ⟨0, _⟩ => show t.val * 1000 + p.val = win3_9.index t (0 : Fin 2) * 1000 + 1 * p.val; omega
    | ⟨1, _⟩ => show q.val = win3_9.index t (1 : Fin 2) * 256 + 1 * q.val; omega

/-- An index of the array is in point t's block iff each coordinate is in the block's range on its axis. -/
theorem mem_blk (t : Fin cfg3.N) (i : S20000x256.Idx) :
    i ∈ ((cfg3.win 9).blk t).view.set ↔ ∀ a : Fin 2, win3_9.index t a * S1000x256.size a ≤ (i a).val
      ∧ (i a).val < win3_9.index t a * S1000x256.size a + S1000x256.size a := by
  show i ∈ ((View.whole main_v61).slice (win3_9.rect t)).set ↔ _
  rw [View.set_slice_whole, Rect.mem_set_unit]
  exact Iff.rfl

/-- Every row lies in the block of the point that is its row number divided by 1000. -/
theorem cover (i : S20000x256.Idx) :
    ∃ t : Fin cfg3.N, (cfg3.win 9).flush t = true ∧ i ∈ ((cfg3.win 9).blk t).view.set := by
  have hi0 : (i 0).val < 20000 := (i 0).isLt
  have hi1 : (i 1).val < 256 := (i 1).isLt
  have hN : cfg3.N = 20 := N_3
  refine ⟨⟨(i 0).val / 1000, by rw [hN]; omega⟩, flush3_9 _, ?_⟩
  rw [mem_blk]
  obtain ⟨e90, e91, -⟩ := idx_facts ⟨(i 0).val / 1000, by rw [hN]; omega⟩
  intro a
  match a with
  | ⟨0, _⟩ =>
    show win3_9.index _ (0 : Fin 2) * 1000 ≤ (i 0).val ∧ (i 0).val < win3_9.index _ (0 : Fin 2) * 1000 + 1000
    rw [e90]; show (i 0).val / 1000 * 1000 ≤ (i 0).val ∧ (i 0).val < (i 0).val / 1000 * 1000 + 1000; omega
  | ⟨1, _⟩ =>
    show win3_9.index _ (1 : Fin 2) * 256 ≤ (i 1).val ∧ (i 1).val < win3_9.index _ (1 : Fin 2) * 256 + 256
    rw [e91]; omega

/-- The output array after the region. -/
theorem final (c : Dev nD) : (dat3 V c).arrAt 9 cfg3.N
    = G (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5))
        (V c (Pipeline.arrRef spec3 6)) (V c (Pipeline.arrRef spec3 7)) (V c (Pipeline.arrRef spec3 8)) :=
  (dat3 V c).arrAt_eq_of_cover 9 _ (fun t _ => flushed_eq V c t) cover

end Cert.KernelIdeal.Region3

end
-- ==== Proof.LibTakeRows.lean ====
/-
  Taking rows by an index list, and adding rows into segments, read at an index.

  `x[idx]` along axis 0 of a matrix [N, C] (or of a vector [N]) at an index column [E, 1] lowers to a gather whose
  result row `e` is the operand's row at the start index `idx (e, 0)`, read as a signed integer and clamped into
  [0, N − 1]. The matching accumulating scatter sends update row `e` to the operand's row `idx (e, 0)`, read signed and
  NOT clamped: an update whose row lies outside [0, N) is dropped, and the column is kept. Stated for any record with
  these dimension numbers and any extents. Last, multiplying a finite sum of extended reals by a nonnegative real
  distributes over the sum.
-/
import Idealize.ShloMosaic.PureOps.Ideal
import Idealize.ShloMosaic.Lib.ValueIdx

open scoped BigOperators

namespace Cert.TakeRows

open Idealize.ShloMosaic Idealize.ShloMosaic.ValueIdx

variable {α : Type}

/-- The row-gather dimension numbers as a literal record. -/
private abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

private theorem gather_rows_aux {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsDims N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowsDims N E C wf).start (ix2 e c) idx 0 + (rowsDims N E C wf).batchCoord (ix2 e c) 0
      + (rowsDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e c) ⟨List.idxOf (0 : Fin 2) (rowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N E C wf).start (ix2 e c) idx 1 + (rowsDims N E C wf).batchCoord (ix2 e c) 1
      + (rowsDims N E C wf).offCoord (ix2 e c) 1 = c.val
    rw [GatherDims.batchCoord_eq_zero _ _ _ List.not_mem_nil, Nat.add_zero]
    have hst : (rowsDims N E C wf).start (ix2 e c) idx 1 = 0 := by
      unfold GatherDims.start
      rw [dif_neg (show (1 : Fin 2) ∉ ([0] : List (Fin 2)) from by decide)]
    rw [hst, Nat.zero_add]
    have hk : (1 : Fin 2) ∈ (rowsDims N E C wf).sKept :=
      (GatherDims.mem_sKept _ _).mpr ⟨show (1 : Fin 2) ∉ ([0] : List (Fin 2)) from by decide, List.not_mem_nil⟩
    unfold GatherDims.offCoord
    rw [dif_pos hk]
    rfl

/-- Row gather: result entry (e, c) is the operand at (clamped start index of e, c). -/
theorem gather_rows_apply {N E C w : Nat} (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![E, 1]⟩ w) (e : Fin E) (c : Fin C) :
    Host.gather d x idx (ix2 e c)
      = x (ix2 (⟨min (idx (ix2 e (0 : Fin 1))).toInt.toNat (N - 1), by omega⟩ : Fin N) c) := by
  obtain ⟨od, cs, ob, sb, sim, iv, ss, wf⟩ := d
  dsimp only at h1 h2 h3 h4 h5 h6 h7
  subst h1 h2 h3 h4 h5 h6 h7
  exact gather_rows_aux hN wf x idx e c

/-- The entry-gather dimension numbers as a literal record. -/
private abbrev flatDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

private theorem gather_flat_aux {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatDims N E wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (flatDims N E wf).start (ix1 e) idx 0 + (flatDims N E wf).batchCoord (ix1 e) 0
    + (flatDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N E wf).startIndexMap from List.mem_singleton.mpr rfl)]
  have hsi : (flatDims N E wf).siIdx (ix1 e) ⟨List.idxOf (0 : Fin 1) (flatDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- Entry gather of a vector: result entry e is the operand at the clamped start index of e. -/
theorem gather_flat_apply {N E w : Nat} (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![E, 1]⟩ w) (e : Fin E) :
    Host.gather d x idx (ix1 e)
      = x (ix1 (⟨min (idx (ix2 e (0 : Fin 1))).toInt.toNat (N - 1), by omega⟩ : Fin N)) := by
  obtain ⟨od, cs, ob, sb, sim, iv, ss, wf⟩ := d
  dsimp only at h1 h2 h3 h4 h5 h6 h7
  subst h1 h2 h3 h4 h5 h6 h7
  exact gather_flat_aux hN wf x idx e

/-- The row-scatter dimension numbers as a literal record. -/
private abbrev rowsSDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

private theorem scatter_rows_aux {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) (r : Fin N) (c' : Fin C) :
    (rowsSDims N E C wf).resultIdx? (ix2 e c) idx = some (ix2 r c')
      ↔ (idx (ix2 e (0 : Fin 1))).toInt = (r.val : Int) ∧ c = c' := by
  -- the start and the window coordinate on the two operand axes
  have hs0 : (rowsSDims N E C wf).start (ix2 e c) idx 0 = (idx (ix2 e (0 : Fin 1))).toInt := by
    unfold ScatterDims.start
    rw [dif_pos (show (0 : Fin 2) ∈ (rowsSDims N E C wf).scatterDimsToOperandDims from List.mem_singleton.mpr rfl)]
    have hsi : (rowsSDims N E C wf).siIdx (ix2 e c)
        ⟨List.idxOf (0 : Fin 2) (rowsSDims N E C wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowsSDims N E C wf).start (ix2 e c) idx 1 = 0 := by
    unfold ScatterDims.start
    rw [dif_neg (show (1 : Fin 2) ∉ ([0] : List (Fin 2)) from by decide)]
  have hw0 : (rowsSDims N E C wf).window (ix2 e c) 0 = 0 := by
    unfold ScatterDims.window
    have hk : (0 : Fin 2) ∉ (rowsSDims N E C wf).sKept :=
      show (0 : Fin 2) ∉ (List.finRange 2).filter (· ∉ ([0] : List (Fin 2))) from by decide
    rw [dif_neg hk]
  have hw1 : (rowsSDims N E C wf).window (ix2 e c) 1 = c.val := by
    unfold ScatterDims.window
    have hk : (1 : Fin 2) ∈ (rowsSDims N E C wf).sKept :=
      show (1 : Fin 2) ∈ (List.finRange 2).filter (· ∉ ([0] : List (Fin 2))) from by decide
    rw [dif_pos hk]
    rfl
  have hr : r.val < N := r.isLt
  have hc : c.val < C := c.isLt
  unfold ScatterDims.resultIdx?
  constructor
  · intro h
    split at h
    · rename_i hin
      have hf := Option.some.inj h
      have h0 := congrArg Fin.val (congrFun hf 0)
      have h1 := congrArg Fin.val (congrFun hf 1)
      have hin0 := (hin 0).1
      rw [hs0, hw0] at hin0
      change ((rowsSDims N E C wf).start (ix2 e c) idx 0 + ((rowsSDims N E C wf).window (ix2 e c) 0 : Nat)).toNat = r.val at h0
      change ((rowsSDims N E C wf).start (ix2 e c) idx 1 + ((rowsSDims N E C wf).window (ix2 e c) 1 : Nat)).toNat = c'.val at h1
      rw [hs0, hw0] at h0
      rw [hs1, hw1] at h1
      refine ⟨by omega, Fin.ext (by omega)⟩
    · exact absurd h (by simp)
  · rintro ⟨hz, rfl⟩
    have hin : ∀ a, 0 ≤ (rowsSDims N E C wf).start (ix2 e c) idx a + ((rowsSDims N E C wf).window (ix2 e c) a : Nat)
        ∧ (rowsSDims N E C wf).start (ix2 e c) idx a + ((rowsSDims N E C wf).window (ix2 e c) a : Nat)
          < ((⟨2, ![N, C]⟩ : Shape).size a : Nat) := by
      intro a
      match a with
      | ⟨0, _⟩ =>
        show 0 ≤ (rowsSDims N E C wf).start (ix2 e c) idx 0 + ((rowsSDims N E C wf).window (ix2 e c) 0 : Nat)
          ∧ (rowsSDims N E C wf).start (ix2 e c) idx 0 + ((rowsSDims N E C wf).window (ix2 e c) 0 : Nat) < (N : Int)
        rw [hs0, hw0]; omega
      | ⟨1, _⟩ =>
        show 0 ≤ (rowsSDims N E C wf).start (ix2 e c) idx 1 + ((rowsSDims N E C wf).window (ix2 e c) 1 : Nat)
          ∧ (rowsSDims N E C wf).start (ix2 e c) idx 1 + ((rowsSDims N E C wf).window (ix2 e c) 1 : Nat) < (C : Int)
        rw [hs1, hw1]; omega
    rw [dif_pos hin]
    congr 1
    funext a
    refine Fin.ext ?_
    match a with
    | ⟨0, _⟩ =>
      show ((rowsSDims N E C wf).start (ix2 e c) idx 0 + ((rowsSDims N E C wf).window (ix2 e c) 0 : Nat)).toNat = r.val
      rw [hs0, hw0]; omega
    | ⟨1, _⟩ =>
      show ((rowsSDims N E C wf).start (ix2 e c) idx 1 + ((rowsSDims N E C wf).window (ix2 e c) 1 : Nat)).toNat = c.val
      rw [hs1, hw1]; omega

/-- Row scatter: update entry (e, c) lands at (r, c') exactly when e's start index, read signed, is r and c = c'. -/
theorem scatter_rows_lands {N E C w : Nat} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (idx : IVec ⟨2, ![E, 1]⟩ w) (e : Fin E) (c : Fin C) (r : Fin N) (c' : Fin C) :
    d.resultIdx? (ix2 e c) idx = some (ix2 r c') ↔ (idx (ix2 e (0 : Fin 1))).toInt = (r.val : Int) ∧ c = c' := by
  obtain ⟨uw, iw, sd, iv, wf⟩ := d
  dsimp only at h1 h2 h3 h4
  subst h1 h2 h3 h4
  exact scatter_rows_aux wf idx e c r c'

/-- The entry-scatter dimension numbers as a literal record. -/
private abbrev flatSDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

private theorem scatter_flat_aux {N E w : Nat}
    (wf : ScatterDims.WF ⟨1, ![N]⟩ ⟨2, ![E, 1]⟩ ⟨1, ![E]⟩ [] [0] [0] 1)
    (idx : IVec ⟨2, ![E, 1]⟩ w) (e : Fin E) (r : Fin N) :
    (flatSDims N E wf).resultIdx? (ix1 e) idx = some (ix1 r)
      ↔ (idx (ix2 e (0 : Fin 1))).toInt = (r.val : Int) := by
  -- the start and the window coordinate on the operand's one axis
  have hs0 : (flatSDims N E wf).start (ix1 e) idx 0 = (idx (ix2 e (0 : Fin 1))).toInt := by
    unfold ScatterDims.start
    rw [dif_pos (show (0 : Fin 1) ∈ (flatSDims N E wf).scatterDimsToOperandDims from List.mem_singleton.mpr rfl)]
    have hsi : (flatSDims N E wf).siIdx (ix1 e)
        ⟨List.idxOf (0 : Fin 1) (flatSDims N E wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (flatSDims N E wf).window (ix1 e) 0 = 0 := by
    unfold ScatterDims.window
    have hk : (0 : Fin 1) ∉ (flatSDims N E wf).sKept :=
      show (0 : Fin 1) ∉ (List.finRange 1).filter (· ∉ ([0] : List (Fin 1))) from by decide
    rw [dif_neg hk]
  have hr : r.val < N := r.isLt
  unfold ScatterDims.resultIdx?
  constructor
  · intro h
    split at h
    · rename_i hin
      have hf := Option.some.inj h
      have h0 := congrArg Fin.val (congrFun hf 0)
      have hin0 := (hin 0).1
      rw [hs0, hw0] at hin0
      change ((flatSDims N E wf).start (ix1 e) idx 0 + ((flatSDims N E wf).window (ix1 e) 0 : Nat)).toNat = r.val at h0
      rw [hs0, hw0] at h0
      omega
    · exact absurd h (by simp)
  · intro hz
    have hin : ∀ a, 0 ≤ (flatSDims N E wf).start (ix1 e) idx a + ((flatSDims N E wf).window (ix1 e) a : Nat)
        ∧ (flatSDims N E wf).start (ix1 e) idx a + ((flatSDims N E wf).window (ix1 e) a : Nat)
          < ((⟨1, ![N]⟩ : Shape).size a : Nat) := by
      intro a
      obtain rfl : a = 0 := Subsingleton.elim _ _
      show 0 ≤ (flatSDims N E wf).start (ix1 e) idx 0 + ((flatSDims N E wf).window (ix1 e) 0 : Nat)
        ∧ (flatSDims N E wf).start (ix1 e) idx 0 + ((flatSDims N E wf).window (ix1 e) 0 : Nat) < (N : Int)
      rw [hs0, hw0]; omega
    rw [dif_pos hin]
    congr 1
    funext a
    obtain rfl : a = 0 := Subsingleton.elim _ _
    refine Fin.ext ?_
    show ((flatSDims N E wf).start (ix1 e) idx 0 + ((flatSDims N E wf).window (ix1 e) 0 : Nat)).toNat = r.val
    rw [hs0, hw0]; omega

/-- Entry scatter into a vector: update entry e lands at r exactly when e's start index, read signed, is r. -/
theorem scatter_flat_lands {N E w : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (idx : IVec ⟨2, ![E, 1]⟩ w) (e : Fin E) (r : Fin N) :
    d.resultIdx? (ix1 e) idx = some (ix1 r) ↔ (idx (ix2 e (0 : Fin 1))).toInt = (r.val : Int) := by
  obtain ⟨uw, iw, sd, iv, wf⟩ := d
  dsimp only at h1 h2 h3 h4
  subst h1 h2 h3 h4
  exact scatter_flat_aux wf idx e r

/-- A finite sum of extended reals times a nonnegative real is the sum of the products. -/
theorem sum_mul_of_nonneg {ι : Type} (s : Finset ι) (f : ι → EReal) (c : EReal) (h0 : 0 ≤ c) (ht : c ≠ ⊤) :
    (∑ j ∈ s, f j) * c = ∑ j ∈ s, f j * c := by
  classical
  refine Finset.induction_on s ?_ ?_
  · rw [Finset.sum_empty, Finset.sum_empty, zero_mul]
  · intro a s ha ih
    rw [Finset.sum_insert ha, Finset.sum_insert ha, EReal.right_distrib_of_nonneg_of_ne_top h0 ht, ih]

end Cert.TakeRows
-- ==== Proof.GcnLaw.lean ====
/-
  The graph-convolution law on extended reals.

  A row-normalised aggregation scatters, into row r, every message e whose destination is r. Written with the
  destination's weight outside the sum,

      (∑ e → r, A (src e, c) · D (src e)) · D r,

  or with both weights inside each message,

      ∑ e → r, A (src e, c) · (D (src e) · D r),

  it is one number as soon as D r is a nonnegative finite real: multiplication by such a number distributes over a
  finite sum of extended reals whatever the summands are (infinite ones included), and the product is associative.
  The second form takes D r by looking the destination up again through a gather whose start index is the
  destination "normalised" (negative indices shifted by N); a message that lands in row r has destination exactly r,
  so the normalisation leaves it alone and the clamped look-up returns D r.

  Both forms are stated with the same accumulating scatter over the same index column, so the two sums run over the
  same set of messages and are compared summand by summand.
-/
import proofs.«176313_j54795192762716_2_alg».proof.Proof.LibTakeRows

open scoped BigOperators

noncomputable section

namespace Cert.GcnLaw

open Idealize.ShloMosaic Idealize.ShloMosaic.ValueIdx

variable {N E C : Nat}

/-- The row coordinate of a matrix index, as a vector index. -/
abbrev rowOf {a b : Nat} (k : (⟨2, ![a, b]⟩ : Shape).Idx) : (⟨1, ![a]⟩ : Shape).Idx := ix1 (⟨(k 0).val, idx2_lt0 k⟩ : Fin a)

theorem rowOf_ix2 {a b : Nat} (p : Fin a) (q : Fin b) : rowOf (ix2 p q) = ix1 p := rfl

/-- THE LAW, at entry (r, c): the aggregation of the row-scaled matrix, scaled again by the destination's weight, is
    the aggregation of the messages each scaled by both weights. -/
theorem aggregate_scaled (hN : 0 < N)
    (dG2 : GatherDims ⟨2, ![N, C]⟩ ⟨2, ![E, 1]⟩ ⟨2, ![E, C]⟩)
    (g1 : dG2.offsetDims = [1]) (g2 : dG2.collapsedSliceDims = [0]) (g3 : dG2.operandBatchingDims = [])
    (g4 : dG2.startIndicesBatchingDims = []) (g5 : dG2.startIndexMap = [0]) (g6 : dG2.indexVectorDim = 1)
    (g7 : dG2.sliceSizes = ![1, C])
    (dG1 : GatherDims ⟨1, ![N]⟩ ⟨2, ![E, 1]⟩ ⟨1, ![E]⟩)
    (f1 : dG1.offsetDims = []) (f2 : dG1.collapsedSliceDims = [0]) (f3 : dG1.operandBatchingDims = [])
    (f4 : dG1.startIndicesBatchingDims = []) (f5 : dG1.startIndexMap = [0]) (f6 : dG1.indexVectorDim = 1)
    (f7 : dG1.sliceSizes = ![1])
    (dS2 : ScatterDims ⟨2, ![N, C]⟩ ⟨2, ![E, 1]⟩ ⟨2, ![E, C]⟩)
    (s1 : dS2.updateWindowDims = [1]) (s2 : dS2.insertedWindowDims = [0]) (s3 : dS2.scatterDimsToOperandDims = [0])
    (s4 : dS2.indexVectorDim = 1)
    (D : (⟨1, ![N]⟩ : Shape).Idx → EReal) (hD : ∀ r, 0 ≤ D r ∧ D r ≠ ⊤)
    (A : (⟨2, ![N, C]⟩ : Shape).Idx → EReal)
    (isrc idst indst : IVec ⟨2, ![E, 1]⟩ 32)
    (hnd : ∀ (e : Fin E) (r : Fin N), (idst (ix2 e (0 : Fin 1))).toInt = (r.val : Int) →
      (indst (ix2 e (0 : Fin 1))).toInt = (r.val : Int))
    (Z : (⟨2, ![N, C]⟩ : Shape).Idx → EReal) (hZ : ∀ i, Z i = 0) (r : Fin N) (c : Fin C) :
    Ideal.hostScatterAdd dS2 Z idst (Host.gather dG2 (fun k => A k * D (rowOf k)) isrc) (ix2 r c) * D (ix1 r)
      = Ideal.hostScatterAdd dS2 Z idst
          (fun j => Host.gather dG2 A isrc j * (Host.gather dG1 D isrc (rowOf j) * Host.gather dG1 D indst (rowOf j)))
          (ix2 r c) := by
  unfold Ideal.hostScatterAdd
  rw [hZ, zero_add, zero_add, Cert.TakeRows.sum_mul_of_nonneg _ _ _ (hD _).1 (hD _).2]
  refine Finset.sum_congr rfl fun j hj => ?_
  obtain ⟨e, c', rfl⟩ : ∃ (e : Fin E) (c' : Fin C), j = ix2 e c' := ⟨j 0, j 1, eq_ix2 j⟩
  have hl := (Cert.TakeRows.scatter_rows_lands dS2 s1 s2 s3 s4 idst e c' r c).mp (Finset.mem_filter.mp hj).2
  have hr : r.val < N := r.isLt
  have hdst : (⟨min (indst (ix2 e (0 : Fin 1))).toInt.toNat (N - 1), by omega⟩ : Fin N) = r :=
    Fin.ext (by show min (indst (ix2 e (0 : Fin 1))).toInt.toNat (N - 1) = r.val; rw [hnd e r hl.1]; omega)
  have h1 := Cert.TakeRows.gather_rows_apply hN dG2 g1 g2 g3 g4 g5 g6 g7 (fun k => A k * D (rowOf k)) isrc e c'
  have h2 := Cert.TakeRows.gather_rows_apply hN dG2 g1 g2 g3 g4 g5 g6 g7 A isrc e c'
  have h3 := Cert.TakeRows.gather_flat_apply hN dG1 f1 f2 f3 f4 f5 f6 f7 D isrc e
  have h4 := Cert.TakeRows.gather_flat_apply hN dG1 f1 f2 f3 f4 f5 f6 f7 D indst e
  rw [hdst] at h4
  show Host.gather dG2 (fun k => A k * D (rowOf k)) isrc (ix2 e c') * D (ix1 r)
    = Host.gather dG2 A isrc (ix2 e c') * (Host.gather dG1 D isrc (ix1 e) * Host.gather dG1 D indst (ix1 e))
  rw [h1, h2, h3, h4]
  exact mul_assoc _ _ _

end Cert.GcnLaw

end
-- ==== Proof.LibDegree.lean ====
/-
  The normalising weight of a node is a nonnegative finite number.

  A node's degree is a sum of ones, one per incoming message: a natural number. Its weight is the reciprocal square
  root of the degree where the degree is positive and zero elsewhere. For a positive count n the reciprocal square
  root is the positive real 1/√n; at the count zero — where the reciprocal square root itself would be infinite — the
  guard picks zero. Either way the weight is a real number ≥ 0.
-/
import Idealize.ShloMosaic.PureOps.Ideal.Laws
import Idealize.ShloMosaic.Lib.ValueIdx

open scoped BigOperators

noncomputable section

namespace Cert.Degree

open Idealize.ShloMosaic

/-- The f32 word of one is the number one. -/
theorem one_word : Ideal.ofBits .f32 0x3F800000#32 = 1 := by
  simp [Ideal.ofBits, Ideal.ieee, -EReal.coe_mul]; norm_num

/-- A sum of ones started from zero is the number of its terms. -/
theorem count {ι : Type} (s : Finset ι) :
    Ideal.ofBits .f32 0x00000000#32 + ∑ _j ∈ s, Ideal.ofBits .f32 0x3F800000#32 = ((s.card : ℝ) : EReal) := by
  rw [Ideal.ofBits_zero_f32, zero_add, one_word, Finset.sum_const, EReal.nsmul_eq_mul, mul_one]
  rfl

/-- The guarded reciprocal square root of a count is a nonnegative finite number. -/
theorem weight_of_count (n : ℕ) :
    0 ≤ Scalar.select (Ideal.cmp .ogt ((n : ℝ) : EReal) (Ideal.ofBits .f32 0x00000000#32))
          (Ideal.rsqrt ((n : ℝ) : EReal)) (Ideal.ofBits .f32 0x00000000#32)
    ∧ Scalar.select (Ideal.cmp .ogt ((n : ℝ) : EReal) (Ideal.ofBits .f32 0x00000000#32))
          (Ideal.rsqrt ((n : ℝ) : EReal)) (Ideal.ofBits .f32 0x00000000#32) ≠ ⊤ := by
  rw [Ideal.ofBits_zero_f32]
  rcases Nat.eq_zero_or_pos n with h | h
  · subst h
    have hc : Ideal.cmp .ogt (((0 : ℕ) : ℝ) : EReal) 0 = 0#1 := by
      simp [Ideal.cmp]
    rw [hc]
    exact ⟨le_of_eq (by simp [Scalar.select]), by simp [Scalar.select]⟩
  · have hpos : (0 : ℝ) < (n : ℝ) := by exact_mod_cast h
    have hr : Ideal.rsqrt ((n : ℝ) : EReal) = (((Real.sqrt (n : ℝ))⁻¹ : ℝ) : EReal) := by
      show (if (n : ℝ) < 0 then (⊥ : EReal) else if (n : ℝ) = 0 then ⊤ else (((Real.sqrt (n : ℝ))⁻¹ : ℝ) : EReal)) = _
      rw [if_neg (not_lt.mpr hpos.le), if_neg hpos.ne']
    rw [hr]
    have hnn : (0 : EReal) ≤ (((Real.sqrt (n : ℝ))⁻¹ : ℝ) : EReal) :=
      EReal.coe_nonneg.mpr (inv_nonneg.mpr (Real.sqrt_nonneg _))
    unfold Scalar.select
    split
    · exact ⟨hnn, EReal.coe_ne_top _⟩
    · exact ⟨le_refl _, EReal.zero_ne_top⟩

end Cert.Degree

end
-- ==== Proof.RefStages.lean ====
/-
  The reference network, stage by stage, at an entry (r, c).

  A graph-convolution layer of the reference projects, gathers each message's source row, scales it by the product of
  the source's and the destination's weights, sums the messages into their destination rows and adds the bias. By the
  aggregation law that is the same number as scaling the projected rows by their own weight first, summing, and scaling
  the sum by the destination's weight: the form a kernel computes. The dense stages are sums of products plus a bias
  entry, and the rectifier is the larger of an entry and zero.
-/
import proofs.«176313_j54795192762716_2_alg».proof.Proof.RefRead
import proofs.«176313_j54795192762716_2_alg».proof.Proof.GcnLaw
import proofs.«176313_j54795192762716_2_alg».proof.Proof.LibDegree
import proofs.«176313_j54795192762716_2_alg».proof.Proof.LibColumn
import proofs.«176313_j54795192762716_2_alg».proof.Proof.LibDenseLayer

open scoped BigOperators

noncomputable section

namespace Cert.ReferenceIdeal.Stages

open Cert.ReferenceIdeal Cert.ReferenceIdeal.ReadP Idealize.ShloMosaic Idealize.ShloMosaic.ValueIdx

/-- The rectifier: the larger of a number and the zero word's value. -/
abbrev relu (z : EReal) : EReal := max z (Ideal.ofBits .f32 0x00000000#32)

/-- The aggregation as a kernel's program spells it: gather the rows of `G` at the (normalised) sources, add them into
    their destination rows of a zero matrix. -/
def aggr (a1 : (⟨S2x320000, .i32⟩ : BufTy).Contents (Elt Ideal)) (G : (⟨S20000x256, .f32⟩ : BufTy).Contents (Elt Ideal)) : (⟨S20000x256, .f32⟩ : BufTy).Contents (Elt Ideal) :=
  Host.scatterAdd (F := Ideal) (φ := .f32) scatter_S20000x256_S340000x1_S340000x256_1_0_0_1 (val_main_v41 (F := Ideal)) (val_main_v42 (F := Ideal) a1)
    (Host.gather gather_S20000x256_S340000x1_S340000x256_1_0_n_n_0_1_1256 G (val_main_v36 (F := Ideal) a1))

/-! ### Words and index columns -/

/-- A select on "the word is negative" keeps a word that is not negative. -/
private theorem select_keep (z a : BitVec 32) (h : 0 ≤ z.toInt) :
    Scalar.select (IntOp.cmpi .slt z 0#32) a z = z := by
  have hn : ¬ z.toInt < (0#32 : BitVec 32).toInt := by rw [BitVec.toInt_zero]; omega
  have hs : z.slt 0#32 = false := by unfold BitVec.slt; exact decide_eq_false hn
  unfold Scalar.select IntOp.cmpi
  show (if BitVec.ofBool (z.slt 0#32) = 1 then a else z) = z
  rw [hs]; rfl

/-- The zero matrix the aggregation adds into is zero at every entry. -/
private theorem zero41 (i : S20000x256.Idx) : val_main_v41 (F := Ideal) i = 0 := by
  rw [val_main_v41_apply, val_main_cst_8_apply]
  exact Ideal.ofBits_zero_f32

/-- A message that lands in row r has the destination r, which the normalisation (negative indices shifted by the
    number of rows) leaves alone. -/
private theorem dst_norm (a1 : (⟨S2x320000, .i32⟩ : BufTy).Contents (Elt Ideal)) (e : Fin 340000) (r : Fin 20000)
    (h : (val_main_v42 (F := Ideal) a1 (ix2 e (0 : Fin 1))).toInt = (r.val : Int)) :
    (val_main_v28 (F := Ideal) a1 (ix2 e (0 : Fin 1))).toInt = (r.val : Int) := by
  have e1 : idx_main_v42 (ix2 e (0 : Fin 1)) = ix1 e := by funext a; match a with | ⟨0, _⟩ => rfl
  have e2 : idx_main_v28 (ix2 e (0 : Fin 1)) = ix1 e := by funext a; match a with | ⟨0, _⟩ => rfl
  rw [val_main_v42_apply, e1] at h
  rw [val_main_v28_apply, e2, val_main_v27_apply, val_main_v24_apply, val_main_v23_apply, val_main_c_4_apply,
    select_keep _ _ (by rw [h]; omega)]
  exact h

/-- A node's weight is a nonnegative finite number. -/
theorem weight_real (a1 : (⟨S2x320000, .i32⟩ : BufTy).Contents (Elt Ideal)) (i : S20000.Idx) :
    0 ≤ val_main_v15 (F := Ideal) a1 i ∧ val_main_v15 (F := Ideal) a1 i ≠ ⊤ := by
  have hn : ∃ n : ℕ, val_main_v11 (F := Ideal) a1 i = ((n : ℝ) : EReal) := by
    unfold val_main_v11 Host.scatterAdd
    rw [Ideal.hostScatterAdd_def]
    unfold Ideal.hostScatterAdd
    rw [val_main_v9_apply, val_main_cst_0_apply,
      Finset.sum_congr rfl fun j _ => (val_main_v8_apply (F := Ideal) j).trans (val_main_cst_apply (F := Ideal) _)]
    exact ⟨_, Cert.Degree.count _⟩
  obtain ⟨n, hn⟩ := hn
  rw [val_main_v15_apply, val_main_v13_apply, val_main_v14_apply, val_main_call0_v1_apply, val_main_call0_v0_apply,
    val_main_cst_2_apply, val_main_v12_apply, val_main_cst_1_apply, hn]
  exact Cert.Degree.weight_of_count n

/-- The first projection at (r, c). -/
theorem prod7 (x : (⟨S20000x300, .f32⟩ : BufTy).Contents (Elt Ideal)) (w0 : (⟨S300x256, .f32⟩ : BufTy).Contents (Elt Ideal)) (r : Fin 20000) (c : Fin 256) :
    val_main_v7 (F := Ideal) x w0 (ix2 r c) = ∑ k : Fin 300, x (ix2 r k) * w0 (ix2 k c) := by
  rw [val_main_v7_apply]
  refine Finset.sum_congr rfl fun k _ => ?_
  have hl : lidx_main_v7 (ix2 r c) k = ix2 r k := by funext a; match a with | ⟨0, _⟩ => rfl | ⟨1, _⟩ => rfl
  have hr : ridx_main_v7 (ix2 r c) k = ix2 k c := by funext a; match a with | ⟨0, _⟩ => rfl | ⟨1, _⟩ => rfl
  rw [hl, hr]

/-! ### One convolution -/

/-- THE CONVOLUTION, for any projected matrix A: messages that are A's source rows scaled by the product of the two
    weights, added into their destination rows of the zero matrix, are the aggregation of the row-scaled A scaled by
    the destination's weight. -/
private theorem conv_core (a1 : (⟨S2x320000, .i32⟩ : BufTy).Contents (Elt Ideal)) (A : (⟨S20000x256, .f32⟩ : BufTy).Contents (Elt Ideal)) (upd : (⟨S340000x256, .f32⟩ : BufTy).Contents (Elt Ideal))
    (hupd : ∀ j, upd j = Host.gather gather_S20000x256_S340000x1_S340000x256_1_0_n_n_0_1_1256 (A) (val_main_v36 (F := Ideal) a1) j
        * (Host.gather gather_S20000_S340000x1_S340000_n_0_n_n_0_1_1 (val_main_v15 (F := Ideal) a1) (val_main_v36 (F := Ideal) a1) (Cert.GcnLaw.rowOf j)
          * Host.gather gather_S20000_S340000x1_S340000_n_0_n_n_0_1_1 (val_main_v15 (F := Ideal) a1) (val_main_v28 (F := Ideal) a1) (Cert.GcnLaw.rowOf j)))
    (r : Fin 20000) (c : Fin 256) :
    Host.scatterAdd (F := Ideal) (φ := .f32) scatter_S20000x256_S340000x1_S340000x256_1_0_0_1 (val_main_v41 (F := Ideal)) (val_main_v42 (F := Ideal) a1) upd (ix2 r c)
      = aggr a1 (fun k => A k * val_main_v15 (F := Ideal) a1 (Cert.GcnLaw.rowOf k)) (ix2 r c) * val_main_v15 (F := Ideal) a1 (ix1 r) := by
  rw [funext hupd]
  unfold aggr Host.scatterAdd
  rw [Ideal.hostScatterAdd_def, Ideal.hostScatterAdd_def]
  exact (Cert.GcnLaw.aggregate_scaled (N := 20000) (E := 340000) (C := 256) (by omega)
    gather_S20000x256_S340000x1_S340000x256_1_0_n_n_0_1_1256 rfl rfl rfl rfl rfl rfl rfl
    gather_S20000_S340000x1_S340000_n_0_n_n_0_1_1 rfl rfl rfl rfl rfl rfl rfl
    scatter_S20000x256_S340000x1_S340000x256_1_0_0_1 rfl rfl rfl rfl
    (val_main_v15 (F := Ideal) a1) (weight_real a1) A (val_main_v36 (F := Ideal) a1) (val_main_v42 (F := Ideal) a1) (val_main_v28 (F := Ideal) a1)
    (dst_norm a1) (val_main_v41 (F := Ideal)) zero41 r c).symm

/-- The first layer's normalised source column is spelt twice in the program. -/
private theorem src21 (a1 : (⟨S2x320000, .i32⟩ : BufTy).Contents (Elt Ideal)) : val_main_v21 (F := Ideal) a1 = val_main_v36 (F := Ideal) a1 := rfl

/-- The first layer's messages. -/
private theorem upd1 (x : (⟨S20000x300, .f32⟩ : BufTy).Contents (Elt Ideal)) (a1 : (⟨S2x320000, .i32⟩ : BufTy).Contents (Elt Ideal)) (w0 : (⟨S300x256, .f32⟩ : BufTy).Contents (Elt Ideal)) (j : S340000x256.Idx) :
    val_main_v40 (F := Ideal) x a1 w0 j = Host.gather gather_S20000x256_S340000x1_S340000x256_1_0_n_n_0_1_1256 (val_main_v7 (F := Ideal) x w0) (val_main_v36 (F := Ideal) a1) j
        * (Host.gather gather_S20000_S340000x1_S340000_n_0_n_n_0_1_1 (val_main_v15 (F := Ideal) a1) (val_main_v36 (F := Ideal) a1) (Cert.GcnLaw.rowOf j)
          * Host.gather gather_S20000_S340000x1_S340000_n_0_n_n_0_1_1 (val_main_v15 (F := Ideal) a1) (val_main_v28 (F := Ideal) a1) (Cert.GcnLaw.rowOf j)) := by
  have e : idx_main_v38 (idx_main_v39 j) = Cert.GcnLaw.rowOf j := by funext a; match a with | ⟨0, _⟩ => rfl
  rw [val_main_v40_apply, val_main_v39_apply, val_main_v38_apply, val_main_v30_apply, e]
  show val_main_v37 (F := Ideal) x a1 w0 j * (val_main_v22 (F := Ideal) a1 (Cert.GcnLaw.rowOf j) * val_main_v29 (F := Ideal) a1 (Cert.GcnLaw.rowOf j)) = _
  unfold val_main_v37 val_main_v22 val_main_v29
  rw [src21]

/-- The first convolution (before its rectifier) in the kernel's form. -/
theorem conv1 (x : (⟨S20000x300, .f32⟩ : BufTy).Contents (Elt Ideal)) (a1 : (⟨S2x320000, .i32⟩ : BufTy).Contents (Elt Ideal)) (w0 : (⟨S300x256, .f32⟩ : BufTy).Contents (Elt Ideal)) (b0 : (⟨S256, .f32⟩ : BufTy).Contents (Elt Ideal)) (r : Fin 20000) (c : Fin 256) :
    val_main_v46 (F := Ideal) x a1 w0 b0 (ix2 r c)
      = aggr a1 (fun k => val_main_v7 (F := Ideal) x w0 k * val_main_v15 (F := Ideal) a1 (Cert.GcnLaw.rowOf k)) (ix2 r c)
          * val_main_v15 (F := Ideal) a1 (ix1 r) + b0 (ix1 c) := by
  have hb : idx_main_v44 (idx_main_v45 (ix2 r c)) = ix1 c := by funext a; match a with | ⟨0, _⟩ => rfl
  rw [val_main_v46_apply, val_main_v45_apply, val_main_v44_apply, hb]
  refine congrArg (· + b0 (ix1 c)) ?_
  unfold val_main_v43
  exact conv_core a1 (val_main_v7 (F := Ideal) x w0) (val_main_v40 (F := Ideal) x a1 w0) (upd1 x a1 w0) r c

theorem relu47 (x : (⟨S20000x300, .f32⟩ : BufTy).Contents (Elt Ideal)) (a1 : (⟨S2x320000, .i32⟩ : BufTy).Contents (Elt Ideal)) (w0 : (⟨S300x256, .f32⟩ : BufTy).Contents (Elt Ideal)) (b0 : (⟨S256, .f32⟩ : BufTy).Contents (Elt Ideal)) (r : Fin 20000) (c : Fin 256) :
    val_main_v47 (F := Ideal) x a1 w0 b0 (ix2 r c) = relu (val_main_v46 (F := Ideal) x a1 w0 b0 (ix2 r c)) := by
  rw [val_main_v47_apply, val_main_call1_v0_apply]
  rfl

theorem prod48 (x : (⟨S20000x300, .f32⟩ : BufTy).Contents (Elt Ideal)) (a1 : (⟨S2x320000, .i32⟩ : BufTy).Contents (Elt Ideal)) (w0 : (⟨S300x256, .f32⟩ : BufTy).Contents (Elt Ideal)) (b0 : (⟨S256, .f32⟩ : BufTy).Contents (Elt Ideal)) (w1 : (⟨S256x256, .f32⟩ : BufTy).Contents (Elt Ideal)) (r : Fin 20000) (c : Fin 256) :
    val_main_v48 (F := Ideal) x a1 w0 b0 w1 (ix2 r c) = ∑ k : Fin 256, val_main_v47 (F := Ideal) x a1 w0 b0 (ix2 r k) * w1 (ix2 k c) := by
  rw [val_main_v48_apply]
  refine Finset.sum_congr rfl fun k _ => ?_
  have hl : lidx_main_v48 (ix2 r c) k = ix2 r k := by funext a; match a with | ⟨0, _⟩ => rfl | ⟨1, _⟩ => rfl
  have hr : ridx_main_v48 (ix2 r c) k = ix2 k c := by funext a; match a with | ⟨0, _⟩ => rfl | ⟨1, _⟩ => rfl
  rw [hl, hr]

/-! ### The second layer recomputes the weights and the index columns: the same terms -/

private theorem w56 (a1 : (⟨S2x320000, .i32⟩ : BufTy).Contents (Elt Ideal)) : val_main_v56 (F := Ideal) a1 = val_main_v15 (F := Ideal) a1 := rfl
private theorem s62 (a1 : (⟨S2x320000, .i32⟩ : BufTy).Contents (Elt Ideal)) : val_main_v62 (F := Ideal) a1 = val_main_v36 (F := Ideal) a1 := rfl
private theorem s77 (a1 : (⟨S2x320000, .i32⟩ : BufTy).Contents (Elt Ideal)) : val_main_v77 (F := Ideal) a1 = val_main_v36 (F := Ideal) a1 := rfl
private theorem d69 (a1 : (⟨S2x320000, .i32⟩ : BufTy).Contents (Elt Ideal)) : val_main_v69 (F := Ideal) a1 = val_main_v28 (F := Ideal) a1 := rfl
private theorem z82 : val_main_v82 (F := Ideal) = val_main_v41 (F := Ideal) := rfl
private theorem t83 (a1 : (⟨S2x320000, .i32⟩ : BufTy).Contents (Elt Ideal)) : val_main_v83 (F := Ideal) a1 = val_main_v42 (F := Ideal) a1 := rfl

/-- The second layer's messages. -/
private theorem upd2 (x : (⟨S20000x300, .f32⟩ : BufTy).Contents (Elt Ideal)) (a1 : (⟨S2x320000, .i32⟩ : BufTy).Contents (Elt Ideal)) (w0 : (⟨S300x256, .f32⟩ : BufTy).Contents (Elt Ideal)) (b0 : (⟨S256, .f32⟩ : BufTy).Contents (Elt Ideal)) (w1 : (⟨S256x256, .f32⟩ : BufTy).Contents (Elt Ideal)) (j : S340000x256.Idx) :
    val_main_v81 (F := Ideal) x a1 w0 b0 w1 j = Host.gather gather_S20000x256_S340000x1_S340000x256_1_0_n_n_0_1_1256 (val_main_v48 (F := Ideal) x a1 w0 b0 w1) (val_main_v36 (F := Ideal) a1) j
        * (Host.gather gather_S20000_S340000x1_S340000_n_0_n_n_0_1_1 (val_main_v15 (F := Ideal) a1) (val_main_v36 (F := Ideal) a1) (Cert.GcnLaw.rowOf j)
          * Host.gather gather_S20000_S340000x1_S340000_n_0_n_n_0_1_1 (val_main_v15 (F := Ideal) a1) (val_main_v28 (F := Ideal) a1) (Cert.GcnLaw.rowOf j)) := by
  have e : idx_main_v79 (idx_main_v80 j) = Cert.GcnLaw.rowOf j := by funext a; match a with | ⟨0, _⟩ => rfl
  rw [val_main_v81_apply, val_main_v80_apply, val_main_v79_apply, val_main_v71_apply, e]
  show val_main_v78 (F := Ideal) x a1 w0 b0 w1 j * (val_main_v63 (F := Ideal) a1 (Cert.GcnLaw.rowOf j) * val_main_v70 (F := Ideal) a1 (Cert.GcnLaw.rowOf j)) = _
  unfold val_main_v78 val_main_v63 val_main_v70
  rw [w56, s62, s77, d69]

/-- The second convolution in the kernel's form. -/
theorem conv2 (x : (⟨S20000x300, .f32⟩ : BufTy).Contents (Elt Ideal)) (a1 : (⟨S2x320000, .i32⟩ : BufTy).Contents (Elt Ideal)) (w0 : (⟨S300x256, .f32⟩ : BufTy).Contents (Elt Ideal)) (b0 : (⟨S256, .f32⟩ : BufTy).Contents (Elt Ideal)) (w1 : (⟨S256x256, .f32⟩ : BufTy).Contents (Elt Ideal)) (b1 : (⟨S256, .f32⟩ : BufTy).Contents (Elt Ideal)) (r : Fin 20000) (c : Fin 256) :
    val_main_v87 (F := Ideal) x a1 w0 b0 w1 b1 (ix2 r c)
      = aggr a1 (fun k => val_main_v48 (F := Ideal) x a1 w0 b0 w1 k * val_main_v15 (F := Ideal) a1 (Cert.GcnLaw.rowOf k)) (ix2 r c)
          * val_main_v15 (F := Ideal) a1 (ix1 r) + b1 (ix1 c) := by
  have hb : idx_main_v85 (idx_main_v86 (ix2 r c)) = ix1 c := by funext a; match a with | ⟨0, _⟩ => rfl
  rw [val_main_v87_apply, val_main_v86_apply, val_main_v85_apply, hb]
  refine congrArg (· + b1 (ix1 c)) ?_
  unfold val_main_v84
  rw [z82, t83]
  exact conv_core a1 (val_main_v48 (F := Ideal) x a1 w0 b0 w1) (val_main_v81 (F := Ideal) x a1 w0 b0 w1) (upd2 x a1 w0 b0 w1) r c

theorem relu88 (x : (⟨S20000x300, .f32⟩ : BufTy).Contents (Elt Ideal)) (a1 : (⟨S2x320000, .i32⟩ : BufTy).Contents (Elt Ideal)) (w0 : (⟨S300x256, .f32⟩ : BufTy).Contents (Elt Ideal)) (b0 : (⟨S256, .f32⟩ : BufTy).Contents (Elt Ideal)) (w1 : (⟨S256x256, .f32⟩ : BufTy).Contents (Elt Ideal)) (b1 : (⟨S256, .f32⟩ : BufTy).Contents (Elt Ideal)) (r : Fin 20000) (c : Fin 256) :
    val_main_v88 (F := Ideal) x a1 w0 b0 w1 b1 (ix2 r c) = relu (val_main_v87 (F := Ideal) x a1 w0 b0 w1 b1 (ix2 r c)) := by
  rw [val_main_v88_apply, val_main_call3_v0_apply]
  rfl

theorem prod89 (x : (⟨S20000x300, .f32⟩ : BufTy).Contents (Elt Ideal)) (a1 : (⟨S2x320000, .i32⟩ : BufTy).Contents (Elt Ideal)) (w0 : (⟨S300x256, .f32⟩ : BufTy).Contents (Elt Ideal)) (b0 : (⟨S256, .f32⟩ : BufTy).Contents (Elt Ideal)) (w1 : (⟨S256x256, .f32⟩ : BufTy).Contents (Elt Ideal)) (b1 : (⟨S256, .f32⟩ : BufTy).Contents (Elt Ideal)) (w2 : (⟨S256x256, .f32⟩ : BufTy).Contents (Elt Ideal)) (r : Fin 20000) (c : Fin 256) :
    val_main_v89 (F := Ideal) x a1 w0 b0 w1 b1 w2 (ix2 r c) = ∑ k : Fin 256, val_main_v88 (F := Ideal) x a1 w0 b0 w1 b1 (ix2 r k) * w2 (ix2 k c) := by
  rw [val_main_v89_apply]
  refine Finset.sum_congr rfl fun k _ => ?_
  have hl : lidx_main_v89 (ix2 r c) k = ix2 r k := by funext a; match a with | ⟨0, _⟩ => rfl | ⟨1, _⟩ => rfl
  have hr : ridx_main_v89 (ix2 r c) k = ix2 k c := by funext a; match a with | ⟨0, _⟩ => rfl | ⟨1, _⟩ => rfl
  rw [hl, hr]

/-! ### The third layer likewise -/

private theorem w97 (a1 : (⟨S2x320000, .i32⟩ : BufTy).Contents (Elt Ideal)) : val_main_v97 (F := Ideal) a1 = val_main_v15 (F := Ideal) a1 := rfl
private theorem s103 (a1 : (⟨S2x320000, .i32⟩ : BufTy).Contents (Elt Ideal)) : val_main_v103 (F := Ideal) a1 = val_main_v36 (F := Ideal) a1 := rfl
private theorem s118 (a1 : (⟨S2x320000, .i32⟩ : BufTy).Contents (Elt Ideal)) : val_main_v118 (F := Ideal) a1 = val_main_v36 (F := Ideal) a1 := rfl
private theorem d110 (a1 : (⟨S2x320000, .i32⟩ : BufTy).Contents (Elt Ideal)) : val_main_v110 (F := Ideal) a1 = val_main_v28 (F := Ideal) a1 := rfl
private theorem z123 : val_main_v123 (F := Ideal) = val_main_v41 (F := Ideal) := rfl
private theorem t124 (a1 : (⟨S2x320000, .i32⟩ : BufTy).Contents (Elt Ideal)) : val_main_v124 (F := Ideal) a1 = val_main_v42 (F := Ideal) a1 := rfl

/-- The third layer's messages. -/
private theorem upd3 (x : (⟨S20000x300, .f32⟩ : BufTy).Contents (Elt Ideal)) (a1 : (⟨S2x320000, .i32⟩ : BufTy).Contents (Elt Ideal)) (w0 : (⟨S300x256, .f32⟩ : BufTy).Contents (Elt Ideal)) (b0 : (⟨S256, .f32⟩ : BufTy).Contents (Elt Ideal)) (w1 : (⟨S256x256, .f32⟩ : BufTy).Contents (Elt Ideal)) (b1 : (⟨S256, .f32⟩ : BufTy).Contents (Elt Ideal)) (w2 : (⟨S256x256, .f32⟩ : BufTy).Contents (Elt Ideal)) (j : S340000x256.Idx) :
    val_main_v122 (F := Ideal) x a1 w0 b0 w1 b1 w2 j = Host.gather gather_S20000x256_S340000x1_S340000x256_1_0_n_n_0_1_1256 (val_main_v89 (F := Ideal) x a1 w0 b0 w1 b1 w2) (val_main_v36 (F := Ideal) a1) j
        * (Host.gather gather_S20000_S340000x1_S340000_n_0_n_n_0_1_1 (val_main_v15 (F := Ideal) a1) (val_main_v36 (F := Ideal) a1) (Cert.GcnLaw.rowOf j)
          * Host.gather gather_S20000_S340000x1_S340000_n_0_n_n_0_1_1 (val_main_v15 (F := Ideal) a1) (val_main_v28 (F := Ideal) a1) (Cert.GcnLaw.rowOf j)) := by
  have e : idx_main_v120 (idx_main_v121 j) = Cert.GcnLaw.rowOf j := by funext a; match a with | ⟨0, _⟩ => rfl
  rw [val_main_v122_apply, val_main_v121_apply, val_main_v120_apply, val_main_v112_apply, e]
  show val_main_v119 (F := Ideal) x a1 w0 b0 w1 b1 w2 j * (val_main_v104 (F := Ideal) a1 (Cert.GcnLaw.rowOf j) * val_main_v111 (F := Ideal) a1 (Cert.GcnLaw.rowOf j)) = _
  unfold val_main_v119 val_main_v104 val_main_v111
  rw [w97, s103, s118, d110]

/-- The third convolution (it has no rectifier) in the kernel's form. -/
theorem conv3 (x : (⟨S20000x300, .f32⟩ : BufTy).Contents (Elt Ideal)) (a1 : (⟨S2x320000, .i32⟩ : BufTy).Contents (Elt Ideal)) (w0 : (⟨S300x256, .f32⟩ : BufTy).Contents (Elt Ideal)) (b0 : (⟨S256, .f32⟩ : BufTy).Contents (Elt Ideal)) (w1 : (⟨S256x256, .f32⟩ : BufTy).Contents (Elt Ideal)) (b1 : (⟨S256, .f32⟩ : BufTy).Contents (Elt Ideal)) (w2 : (⟨S256x256, .f32⟩ : BufTy).Contents (Elt Ideal)) (b2 : (⟨S256, .f32⟩ : BufTy).Contents (Elt Ideal)) (r : Fin 20000) (c : Fin 256) :
    val_main_v128 (F := Ideal) x a1 w0 b0 w1 b1 w2 b2 (ix2 r c)
      = aggr a1 (fun k => val_main_v89 (F := Ideal) x a1 w0 b0 w1 b1 w2 k * val_main_v15 (F := Ideal) a1 (Cert.GcnLaw.rowOf k)) (ix2 r c)
          * val_main_v15 (F := Ideal) a1 (ix1 r) + b2 (ix1 c) := by
  have hb : idx_main_v126 (idx_main_v127 (ix2 r c)) = ix1 c := by funext a; match a with | ⟨0, _⟩ => rfl
  rw [val_main_v128_apply, val_main_v127_apply, val_main_v126_apply, hb]
  refine congrArg (· + b2 (ix1 c)) ?_
  unfold val_main_v125
  rw [z123, t124]
  exact conv_core a1 (val_main_v89 (F := Ideal) x a1 w0 b0 w1 b1 w2) (val_main_v122 (F := Ideal) x a1 w0 b0 w1 b1 w2) (upd3 x a1 w0 b0 w1 b1 w2) r c

theorem dense132 (x : (⟨S20000x300, .f32⟩ : BufTy).Contents (Elt Ideal)) (a1 : (⟨S2x320000, .i32⟩ : BufTy).Contents (Elt Ideal)) (w0 : (⟨S300x256, .f32⟩ : BufTy).Contents (Elt Ideal)) (b0 : (⟨S256, .f32⟩ : BufTy).Contents (Elt Ideal)) (w1 : (⟨S256x256, .f32⟩ : BufTy).Contents (Elt Ideal)) (b1 : (⟨S256, .f32⟩ : BufTy).Contents (Elt Ideal)) (w2 : (⟨S256x256, .f32⟩ : BufTy).Contents (Elt Ideal)) (b2 : (⟨S256, .f32⟩ : BufTy).Contents (Elt Ideal)) (m1 : (⟨S256x256, .f32⟩ : BufTy).Contents (Elt Ideal)) (c1 : (⟨S256, .f32⟩ : BufTy).Contents (Elt Ideal)) (r : Fin 20000) (c : Fin 256) :
    val_main_v132 (F := Ideal) x a1 w0 b0 w1 b1 w2 b2 m1 c1 (ix2 r c) = (∑ k : Fin 256, val_main_v128 (F := Ideal) x a1 w0 b0 w1 b1 w2 b2 (ix2 r k) * m1 (ix2 k c)) + c1 (ix1 c) := by
  have hb : idx_main_v130 (idx_main_v131 (ix2 r c)) = ix1 c := by funext a; match a with | ⟨0, _⟩ => rfl
  rw [val_main_v132_apply, val_main_v129_apply, val_main_v131_apply, val_main_v130_apply, hb]
  refine congrArg (· + c1 (ix1 c)) (Finset.sum_congr rfl fun k _ => ?_)
  have hl : lidx_main_v129 (ix2 r c) k = ix2 r k := by funext a; match a with | ⟨0, _⟩ => rfl | ⟨1, _⟩ => rfl
  have hr : ridx_main_v129 (ix2 r c) k = ix2 k c := by funext a; match a with | ⟨0, _⟩ => rfl | ⟨1, _⟩ => rfl
  rw [hl, hr]

theorem relu133 (x : (⟨S20000x300, .f32⟩ : BufTy).Contents (Elt Ideal)) (a1 : (⟨S2x320000, .i32⟩ : BufTy).Contents (Elt Ideal)) (w0 : (⟨S300x256, .f32⟩ : BufTy).Contents (Elt Ideal)) (b0 : (⟨S256, .f32⟩ : BufTy).Contents (Elt Ideal)) (w1 : (⟨S256x256, .f32⟩ : BufTy).Contents (Elt Ideal)) (b1 : (⟨S256, .f32⟩ : BufTy).Contents (Elt Ideal)) (w2 : (⟨S256x256, .f32⟩ : BufTy).Contents (Elt Ideal)) (b2 : (⟨S256, .f32⟩ : BufTy).Contents (Elt Ideal)) (m1 : (⟨S256x256, .f32⟩ : BufTy).Contents (Elt Ideal)) (c1 : (⟨S256, .f32⟩ : BufTy).Contents (Elt Ideal)) (r : Fin 20000) (c : Fin 256) :
    val_main_v133 (F := Ideal) x a1 w0 b0 w1 b1 w2 b2 m1 c1 (ix2 r c) = relu (val_main_v132 (F := Ideal) x a1 w0 b0 w1 b1 w2 b2 m1 c1 (ix2 r c)) := by
  rw [val_main_v133_apply, val_main_call5_v0_apply]
  rfl

theorem dense137 (x : (⟨S20000x300, .f32⟩ : BufTy).Contents (Elt Ideal)) (a1 : (⟨S2x320000, .i32⟩ : BufTy).Contents (Elt Ideal)) (w0 : (⟨S300x256, .f32⟩ : BufTy).Contents (Elt Ideal)) (b0 : (⟨S256, .f32⟩ : BufTy).Contents (Elt Ideal)) (w1 : (⟨S256x256, .f32⟩ : BufTy).Contents (Elt Ideal)) (b1 : (⟨S256, .f32⟩ : BufTy).Contents (Elt Ideal)) (w2 : (⟨S256x256, .f32⟩ : BufTy).Contents (Elt Ideal)) (b2 : (⟨S256, .f32⟩ : BufTy).Contents (Elt Ideal)) (m1 : (⟨S256x256, .f32⟩ : BufTy).Contents (Elt Ideal)) (c1 : (⟨S256, .f32⟩ : BufTy).Contents (Elt Ideal)) (m2 : (⟨S256x256, .f32⟩ : BufTy).Contents (Elt Ideal)) (c2 : (⟨S256, .f32⟩ : BufTy).Contents (Elt Ideal)) (r : Fin 20000) (c : Fin 256) :
    val_main_v137 (F := Ideal) x a1 w0 b0 w1 b1 w2 b2 m1 c1 m2 c2 (ix2 r c) = (∑ k : Fin 256, val_main_v133 (F := Ideal) x a1 w0 b0 w1 b1 w2 b2 m1 c1 (ix2 r k) * m2 (ix2 k c)) + c2 (ix1 c) := by
  have hb : idx_main_v135 (idx_main_v136 (ix2 r c)) = ix1 c := by funext a; match a with | ⟨0, _⟩ => rfl
  rw [val_main_v137_apply, val_main_v134_apply, val_main_v136_apply, val_main_v135_apply, hb]
  refine congrArg (· + c2 (ix1 c)) (Finset.sum_congr rfl fun k _ => ?_)
  have hl : lidx_main_v134 (ix2 r c) k = ix2 r k := by funext a; match a with | ⟨0, _⟩ => rfl | ⟨1, _⟩ => rfl
  have hr : ridx_main_v134 (ix2 r c) k = ix2 k c := by funext a; match a with | ⟨0, _⟩ => rfl | ⟨1, _⟩ => rfl
  rw [hl, hr]

theorem relu138 (x : (⟨S20000x300, .f32⟩ : BufTy).Contents (Elt Ideal)) (a1 : (⟨S2x320000, .i32⟩ : BufTy).Contents (Elt Ideal)) (w0 : (⟨S300x256, .f32⟩ : BufTy).Contents (Elt Ideal)) (b0 : (⟨S256, .f32⟩ : BufTy).Contents (Elt Ideal)) (w1 : (⟨S256x256, .f32⟩ : BufTy).Contents (Elt Ideal)) (b1 : (⟨S256, .f32⟩ : BufTy).Contents (Elt Ideal)) (w2 : (⟨S256x256, .f32⟩ : BufTy).Contents (Elt Ideal)) (b2 : (⟨S256, .f32⟩ : BufTy).Contents (Elt Ideal)) (m1 : (⟨S256x256, .f32⟩ : BufTy).Contents (Elt Ideal)) (c1 : (⟨S256, .f32⟩ : BufTy).Contents (Elt Ideal)) (m2 : (⟨S256x256, .f32⟩ : BufTy).Contents (Elt Ideal)) (c2 : (⟨S256, .f32⟩ : BufTy).Contents (Elt Ideal)) (r : Fin 20000) (c : Fin 256) :
    val_main_v138 (F := Ideal) x a1 w0 b0 w1 b1 w2 b2 m1 c1 m2 c2 (ix2 r c) = relu (val_main_v137 (F := Ideal) x a1 w0 b0 w1 b1 w2 b2 m1 c1 m2 c2 (ix2 r c)) := by
  rw [val_main_v138_apply, val_main_call6_v0_apply]
  rfl

theorem dense142 (x : (⟨S20000x300, .f32⟩ : BufTy).Contents (Elt Ideal)) (a1 : (⟨S2x320000, .i32⟩ : BufTy).Contents (Elt Ideal)) (w0 : (⟨S300x256, .f32⟩ : BufTy).Contents (Elt Ideal)) (b0 : (⟨S256, .f32⟩ : BufTy).Contents (Elt Ideal)) (w1 : (⟨S256x256, .f32⟩ : BufTy).Contents (Elt Ideal)) (b1 : (⟨S256, .f32⟩ : BufTy).Contents (Elt Ideal)) (w2 : (⟨S256x256, .f32⟩ : BufTy).Contents (Elt Ideal)) (b2 : (⟨S256, .f32⟩ : BufTy).Contents (Elt Ideal)) (m1 : (⟨S256x256, .f32⟩ : BufTy).Contents (Elt Ideal)) (c1 : (⟨S256, .f32⟩ : BufTy).Contents (Elt Ideal)) (m2 : (⟨S256x256, .f32⟩ : BufTy).Contents (Elt Ideal)) (c2 : (⟨S256, .f32⟩ : BufTy).Contents (Elt Ideal)) (m3 : (⟨S256x256, .f32⟩ : BufTy).Contents (Elt Ideal)) (c3 : (⟨S256, .f32⟩ : BufTy).Contents (Elt Ideal)) (r : Fin 20000) (c : Fin 256) :
    val_main_v142 (F := Ideal) x a1 w0 b0 w1 b1 w2 b2 m1 c1 m2 c2 m3 c3 (ix2 r c) = (∑ k : Fin 256, val_main_v138 (F := Ideal) x a1 w0 b0 w1 b1 w2 b2 m1 c1 m2 c2 (ix2 r k) * m3 (ix2 k c)) + c3 (ix1 c) := by
  have hb : idx_main_v140 (idx_main_v141 (ix2 r c)) = ix1 c := by funext a; match a with | ⟨0, _⟩ => rfl
  rw [val_main_v142_apply, val_main_v139_apply, val_main_v141_apply, val_main_v140_apply, hb]
  refine congrArg (· + c3 (ix1 c)) (Finset.sum_congr rfl fun k _ => ?_)
  have hl : lidx_main_v139 (ix2 r c) k = ix2 r k := by funext a; match a with | ⟨0, _⟩ => rfl | ⟨1, _⟩ => rfl
  have hr : ridx_main_v139 (ix2 r c) k = ix2 k c := by funext a; match a with | ⟨0, _⟩ => rfl | ⟨1, _⟩ => rfl
  rw [hl, hr]

end Cert.ReferenceIdeal.Stages

end
-- ==== Proof.Bridge.lean ====
/-
  The kernel program's arrays are the reference's stages.

  Region by region: the first region leaves the reference's first projection with each row scaled by its node's weight;
  gathering those rows at the sources and summing them into the destinations, then scaling row r by node r's weight and
  adding the bias — the next region's first step — is the reference's convolution (the aggregation law, stated on the
  reference's side); rectifying and projecting again is the reference's next projection, scaled again; and so on through
  the three convolutions. The last region finishes the third convolution and applies the three dense layers, which is
  the reference's result entry by entry. Each step is first stated over plain arrays, then read at the program's buffers.
-/
import proofs.«176313_j54795192762716_2_alg».proof.Proof.KernelEntry
import proofs.«176313_j54795192762716_2_alg».proof.Proof.KernelRegion0
import proofs.«176313_j54795192762716_2_alg».proof.Proof.KernelRegion1
import proofs.«176313_j54795192762716_2_alg».proof.Proof.KernelRegion2
import proofs.«176313_j54795192762716_2_alg».proof.Proof.KernelRegion3
import proofs.«176313_j54795192762716_2_alg».proof.Proof.RefStages

set_option maxRecDepth 16384

open scoped BigOperators

noncomputable section

namespace Cert.KernelIdeal.Bridge

open Cert.KernelIdeal Cert.KernelIdeal.Gen Idealize.ShloMosaic Idealize.ShloMosaic.TcCoe Idealize.SL.Sem
open Idealize.ShloMosaic.StableHlo Idealize.ShloMosaic.ValueIdx Cert.ReferenceIdeal.ReadP Cert.ReferenceIdeal.Stages

/-! ## Over plain arrays -/

/-- The first region in pure form: the reference's first projection, each row scaled by its node's weight. -/
theorem proj_pure (X : (⟨S20000x300, .f32⟩ : BufTy).Contents (Elt Ideal)) (Wb : (⟨S300x256, .bf16⟩ : BufTy).Contents (Elt Ideal)) (Dv : (⟨S20000x1, .f32⟩ : BufTy).Contents (Elt Ideal))
    (x : (⟨S20000x300, .f32⟩ : BufTy).Contents (Elt Ideal)) (a1 : (⟨S2x320000, .i32⟩ : BufTy).Contents (Elt Ideal)) (w0 : (⟨S300x256, .f32⟩ : BufTy).Contents (Elt Ideal))
    (hX : X = x) (hW : ∀ j : S300x256.Idx, Wb j = w0 j)
    (hD : ∀ R : Fin 20000, Dv (ix2 R (0 : Fin 1)) = val_main_v15 (F := Ideal) a1 (ix1 R)) (k : S20000x256.Idx) :
    Cert.KernelIdeal.Region0.G X Wb Dv k
      = val_main_v7 (F := Ideal) x w0 k * val_main_v15 (F := Ideal) a1 (Cert.GcnLaw.rowOf k) := by
  obtain ⟨R, Q, rfl⟩ : ∃ (R : Fin 20000) (Q : Fin 256), k = ix2 R Q :=
    ⟨⟨(k 0).val, idx2_lt0 k⟩, ⟨(k 1).val, idx2_lt1 k⟩, funext fun a => by match a with | ⟨0, _⟩ => rfl | ⟨1, _⟩ => rfl⟩
  rw [prod7, Cert.GcnLaw.rowOf_ix2, ← hD R]
  show (∑ j : Fin 300, X (ix2 R j) * Wb (ix2 j Q)) * Dv (ix2 R (0 : Fin 1)) = _
  simp only [hX, hW]

/-- Region 2 in pure form: if the aggregated input is the aggregation of a row-scaled matrix `A`, and the reference's
    convolution, rectifier and projection stages `Cv`, `Re`, `Pr` are related as the reference relates them, the region's
    output is `Pr` with each row scaled by its node's weight. -/
theorem mid1_pure (S : (⟨S20000x256, .f32⟩ : BufTy).Contents (Elt Ideal)) (Dv : (⟨S20000x1, .f32⟩ : BufTy).Contents (Elt Ideal)) (B : (⟨S1x256, .f32⟩ : BufTy).Contents (Elt Ideal))
    (Wb : (⟨S256x256, .bf16⟩ : BufTy).Contents (Elt Ideal)) (a1 : (⟨S2x320000, .i32⟩ : BufTy).Contents (Elt Ideal)) (A Cv Re Pr : (⟨S20000x256, .f32⟩ : BufTy).Contents (Elt Ideal))
    (b : (⟨S256, .f32⟩ : BufTy).Contents (Elt Ideal)) (w : (⟨S256x256, .f32⟩ : BufTy).Contents (Elt Ideal))
    (hS : S = aggr a1 (fun k => A k * val_main_v15 (F := Ideal) a1 (Cert.GcnLaw.rowOf k)))
    (hD : ∀ R : Fin 20000, Dv (ix2 R (0 : Fin 1)) = val_main_v15 (F := Ideal) a1 (ix1 R))
    (hB : ∀ j : Fin 256, B (ix2 (0 : Fin 1) j) = b (ix1 j)) (hW : ∀ j : S256x256.Idx, Wb j = w j)
    (hCv : ∀ (r : Fin 20000) (c : Fin 256), Cv (ix2 r c)
      = aggr a1 (fun k => A k * val_main_v15 (F := Ideal) a1 (Cert.GcnLaw.rowOf k)) (ix2 r c) * val_main_v15 (F := Ideal) a1 (ix1 r) + b (ix1 c))
    (hRe : ∀ (r : Fin 20000) (c : Fin 256), Re (ix2 r c) = relu (Cv (ix2 r c)))
    (hPr : ∀ (r : Fin 20000) (c : Fin 256), Pr (ix2 r c) = ∑ j : Fin 256, Re (ix2 r j) * w (ix2 j c))
    (k : S20000x256.Idx) :
    Cert.KernelIdeal.Region1.G S Dv B Wb k = Pr k * val_main_v15 (F := Ideal) a1 (Cert.GcnLaw.rowOf k) := by
  obtain ⟨R, Q, rfl⟩ : ∃ (R : Fin 20000) (Q : Fin 256), k = ix2 R Q :=
    ⟨⟨(k 0).val, idx2_lt0 k⟩, ⟨(k 1).val, idx2_lt1 k⟩, funext fun a => by match a with | ⟨0, _⟩ => rfl | ⟨1, _⟩ => rfl⟩
  rw [hPr, Cert.GcnLaw.rowOf_ix2]
  simp only [hRe, hCv]
  show (∑ j : Fin 256, Cert.KernelIdeal.Tile.relu (S (ix2 R j) * Dv (ix2 R (0 : Fin 1)) + B (ix2 (0 : Fin 1) j)) * Wb (ix2 j Q))
      * Dv (ix2 R (0 : Fin 1)) = _
  simp only [hS, hD, hB, hW]

/-- Region 3 in pure form: if the aggregated input is the aggregation of a row-scaled matrix `A`, and the reference's
    convolution, rectifier and projection stages `Cv`, `Re`, `Pr` are related as the reference relates them, the region's
    output is `Pr` with each row scaled by its node's weight. -/
theorem mid2_pure (S : (⟨S20000x256, .f32⟩ : BufTy).Contents (Elt Ideal)) (Dv : (⟨S20000x1, .f32⟩ : BufTy).Contents (Elt Ideal)) (B : (⟨S1x256, .f32⟩ : BufTy).Contents (Elt Ideal))
    (Wb : (⟨S256x256, .bf16⟩ : BufTy).Contents (Elt Ideal)) (a1 : (⟨S2x320000, .i32⟩ : BufTy).Contents (Elt Ideal)) (A Cv Re Pr : (⟨S20000x256, .f32⟩ : BufTy).Contents (Elt Ideal))
    (b : (⟨S256, .f32⟩ : BufTy).Contents (Elt Ideal)) (w : (⟨S256x256, .f32⟩ : BufTy).Contents (Elt Ideal))
    (hS : S = aggr a1 (fun k => A k * val_main_v15 (F := Ideal) a1 (Cert.GcnLaw.rowOf k)))
    (hD : ∀ R : Fin 20000, Dv (ix2 R (0 : Fin 1)) = val_main_v15 (F := Ideal) a1 (ix1 R))
    (hB : ∀ j : Fin 256, B (ix2 (0 : Fin 1) j) = b (ix1 j)) (hW : ∀ j : S256x256.Idx, Wb j = w j)
    (hCv : ∀ (r : Fin 20000) (c : Fin 256), Cv (ix2 r c)
      = aggr a1 (fun k => A k * val_main_v15 (F := Ideal) a1 (Cert.GcnLaw.rowOf k)) (ix2 r c) * val_main_v15 (F := Ideal) a1 (ix1 r) + b (ix1 c))
    (hRe : ∀ (r : Fin 20000) (c : Fin 256), Re (ix2 r c) = relu (Cv (ix2 r c)))
    (hPr : ∀ (r : Fin 20000) (c : Fin 256), Pr (ix2 r c) = ∑ j : Fin 256, Re (ix2 r j) * w (ix2 j c))
    (k : S20000x256.Idx) :
    Cert.KernelIdeal.Region2.G S Dv B Wb k = Pr k * val_main_v15 (F := Ideal) a1 (Cert.GcnLaw.rowOf k) := by
  obtain ⟨R, Q, rfl⟩ : ∃ (R : Fin 20000) (Q : Fin 256), k = ix2 R Q :=
    ⟨⟨(k 0).val, idx2_lt0 k⟩, ⟨(k 1).val, idx2_lt1 k⟩, funext fun a => by match a with | ⟨0, _⟩ => rfl | ⟨1, _⟩ => rfl⟩
  rw [hPr, Cert.GcnLaw.rowOf_ix2]
  simp only [hRe, hCv]
  show (∑ j : Fin 256, Cert.KernelIdeal.Tile.relu (S (ix2 R j) * Dv (ix2 R (0 : Fin 1)) + B (ix2 (0 : Fin 1) j)) * Wb (ix2 j Q))
      * Dv (ix2 R (0 : Fin 1)) = _
  simp only [hS, hD, hB, hW]

/-- The last region in pure form: the reference's result. -/
theorem head_pure (S : (⟨S20000x256, .f32⟩ : BufTy).Contents (Elt Ideal)) (Dv : (⟨S20000x1, .f32⟩ : BufTy).Contents (Elt Ideal)) (B2 : (⟨S1x256, .f32⟩ : BufTy).Contents (Elt Ideal))
    (W1 : (⟨S256x256, .bf16⟩ : BufTy).Contents (Elt Ideal)) (B1 : (⟨S1x256, .f32⟩ : BufTy).Contents (Elt Ideal)) (W2 : (⟨S256x256, .bf16⟩ : BufTy).Contents (Elt Ideal)) (B2b : (⟨S1x256, .f32⟩ : BufTy).Contents (Elt Ideal))
    (W3b : (⟨S256x256, .bf16⟩ : BufTy).Contents (Elt Ideal)) (B3 : (⟨S1x256, .f32⟩ : BufTy).Contents (Elt Ideal)) (a1 : (⟨S2x320000, .i32⟩ : BufTy).Contents (Elt Ideal))
    (A Cv D1 R1 D2 R2 Out : (⟨S20000x256, .f32⟩ : BufTy).Contents (Elt Ideal))
    (b2 : (⟨S256, .f32⟩ : BufTy).Contents (Elt Ideal)) (m1 : (⟨S256x256, .f32⟩ : BufTy).Contents (Elt Ideal)) (c1 : (⟨S256, .f32⟩ : BufTy).Contents (Elt Ideal)) (m2 : (⟨S256x256, .f32⟩ : BufTy).Contents (Elt Ideal))
    (c2 : (⟨S256, .f32⟩ : BufTy).Contents (Elt Ideal)) (m3 : (⟨S256x256, .f32⟩ : BufTy).Contents (Elt Ideal)) (c3 : (⟨S256, .f32⟩ : BufTy).Contents (Elt Ideal))
    (hS : S = aggr a1 (fun k => A k * val_main_v15 (F := Ideal) a1 (Cert.GcnLaw.rowOf k)))
    (hD : ∀ R : Fin 20000, Dv (ix2 R (0 : Fin 1)) = val_main_v15 (F := Ideal) a1 (ix1 R))
    (h2 : ∀ j : Fin 256, B2 (ix2 (0 : Fin 1) j) = b2 (ix1 j)) (h3 : ∀ j : S256x256.Idx, W1 j = m1 j)
    (h4 : ∀ j : Fin 256, B1 (ix2 (0 : Fin 1) j) = c1 (ix1 j)) (h5 : ∀ j : S256x256.Idx, W2 j = m2 j)
    (h6 : ∀ j : Fin 256, B2b (ix2 (0 : Fin 1) j) = c2 (ix1 j)) (h7 : ∀ j : S256x256.Idx, W3b j = m3 j)
    (h8 : ∀ j : Fin 256, B3 (ix2 (0 : Fin 1) j) = c3 (ix1 j))
    (hCv : ∀ (r : Fin 20000) (c : Fin 256), Cv (ix2 r c)
      = aggr a1 (fun k => A k * val_main_v15 (F := Ideal) a1 (Cert.GcnLaw.rowOf k)) (ix2 r c) * val_main_v15 (F := Ideal) a1 (ix1 r) + b2 (ix1 c))
    (hD1 : ∀ (r : Fin 20000) (c : Fin 256), D1 (ix2 r c) = (∑ j : Fin 256, Cv (ix2 r j) * m1 (ix2 j c)) + c1 (ix1 c))
    (hR1 : ∀ (r : Fin 20000) (c : Fin 256), R1 (ix2 r c) = relu (D1 (ix2 r c)))
    (hD2 : ∀ (r : Fin 20000) (c : Fin 256), D2 (ix2 r c) = (∑ j : Fin 256, R1 (ix2 r j) * m2 (ix2 j c)) + c2 (ix1 c))
    (hR2 : ∀ (r : Fin 20000) (c : Fin 256), R2 (ix2 r c) = relu (D2 (ix2 r c)))
    (hOut : ∀ (r : Fin 20000) (c : Fin 256), Out (ix2 r c) = (∑ j : Fin 256, R2 (ix2 r j) * m3 (ix2 j c)) + c3 (ix1 c))
    (k : S20000x256.Idx) :
    Cert.KernelIdeal.Region3.G S Dv B2 W1 B1 W2 B2b W3b B3 k = Out k := by
  obtain ⟨R, Q, rfl⟩ : ∃ (R : Fin 20000) (Q : Fin 256), k = ix2 R Q :=
    ⟨⟨(k 0).val, idx2_lt0 k⟩, ⟨(k 1).val, idx2_lt1 k⟩, funext fun a => by match a with | ⟨0, _⟩ => rfl | ⟨1, _⟩ => rfl⟩
  rw [hOut]
  simp only [hR2, hD2, hR1, hD1, hCv]
  show (∑ k : Fin 256,
      Cert.KernelIdeal.Tile.relu ((∑ k' : Fin 256,
          Cert.KernelIdeal.Tile.relu ((∑ k'' : Fin 256, (S (ix2 R k'') * Dv (ix2 R (0 : Fin 1)) + B2 (ix2 (0 : Fin 1) k'')) * W1 (ix2 k'' k'))
            + B1 (ix2 (0 : Fin 1) k')) * W2 (ix2 k' k))
        + B2b (ix2 (0 : Fin 1) k)) * W3b (ix2 k Q))
    + B3 (ix2 (0 : Fin 1) Q) = _
  simp only [hS, hD, h2, h3, h4, h5, h6, h7, h8]

/-! ## At the program's buffers -/

variable (m : (ℓ : Loc nD τ sig) → Buf (Elt Ideal) ℓ) (ρ : Dev nD → PrngReg) (c : Dev nD)

set_option maxHeartbeats 8000000 in
/-- After the stretch: the previous region's output, gathered at the sources and summed into the destinations. -/
theorem agg_at5 : (W5 m ρ c (Proc.devRef .tc main_v38) : (⟨S20000x256, .f32⟩ : BufTy).Contents (Elt Ideal))
    = aggr (m ((c : Thread nD τ).loc main_arg1)) (W4 m ρ c (Proc.devRef .tc main_v28)) := by
  show StableHlo.after hostOps1 (W4 m ρ c) _ = _
  after_results_simp
  rw [Cert.KernelIdeal.Boundary.v5_at4 m ρ c, Cert.KernelIdeal.Boundary.v6_at4 m ρ c,
    Cert.KernelIdeal.Entry.src_at3 m ρ c, Cert.KernelIdeal.Entry.dst_at3 m ρ c]
  rfl

set_option maxHeartbeats 8000000 in
/-- After the stretch: the previous region's output, gathered at the sources and summed into the destinations. -/
theorem agg_at7 : (W7 m ρ c (Proc.devRef .tc main_v49) : (⟨S20000x256, .f32⟩ : BufTy).Contents (Elt Ideal))
    = aggr (m ((c : Thread nD τ).loc main_arg1)) (W6 m ρ c (Proc.devRef .tc main_v39)) := by
  show StableHlo.after hostOps2 (W6 m ρ c) _ = _
  after_results_simp
  rw [Cert.KernelIdeal.Boundary.v5_at6 m ρ c, Cert.KernelIdeal.Boundary.v6_at6 m ρ c,
    Cert.KernelIdeal.Entry.src_at3 m ρ c, Cert.KernelIdeal.Entry.dst_at3 m ρ c]
  rfl

set_option maxHeartbeats 8000000 in
/-- After the stretch: the previous region's output, gathered at the sources and summed into the destinations. -/
theorem agg_at9 : (W9 m ρ c (Proc.devRef .tc main_v60) : (⟨S20000x256, .f32⟩ : BufTy).Contents (Elt Ideal))
    = aggr (m ((c : Thread nD τ).loc main_arg1)) (W8 m ρ c (Proc.devRef .tc main_v50)) := by
  show StableHlo.after hostOps3 (W8 m ρ c) _ = _
  after_results_simp
  rw [Cert.KernelIdeal.Boundary.v5_at8 m ρ c, Cert.KernelIdeal.Boundary.v6_at8 m ρ c,
    Cert.KernelIdeal.Entry.src_at3 m ρ c, Cert.KernelIdeal.Entry.dst_at3 m ρ c]
  rfl

set_option maxHeartbeats 8000000 in
/-- The first region's output: the reference's first projection, each row scaled by its node's weight. -/
theorem k0_entry (k : S20000x256.Idx) :
    (W4 m ρ c (Proc.devRef .tc main_v28) : (⟨S20000x256, .f32⟩ : BufTy).Contents (Elt Ideal)) k
      = val_main_v7 (F := Ideal) (m ((c : Thread nD τ).loc main_arg0)) (m ((c : Thread nD τ).loc main_arg2)) k * val_main_v15 (F := Ideal) (m ((c : Thread nD τ).loc main_arg1)) (Cert.GcnLaw.rowOf k) := by
  rw [show (W4 m ρ c (Proc.devRef .tc main_v28) : (⟨S20000x256, .f32⟩ : BufTy).Contents (Elt Ideal)) = _ from
    (W4_arr m ρ c 3).trans (Cert.KernelIdeal.Region0.final (V3 m ρ) c)]
  exact proj_pure _ _ _ (m ((c : Thread nD τ).loc main_arg0)) (m ((c : Thread nD τ).loc main_arg1)) (m ((c : Thread nD τ).loc main_arg2)) (Cert.KernelIdeal.Entry.x_at3 m ρ c)
    (Cert.KernelIdeal.Entry.w16_apply m ρ c) (Cert.KernelIdeal.Entry.dinv_apply m ρ c) k

set_option maxHeartbeats 8000000 in
/-- The second region's output: the reference's second projection, each row scaled by its node's weight. -/
theorem k1_entry (k : S20000x256.Idx) :
    (W6 m ρ c (Proc.devRef .tc main_v39) : (⟨S20000x256, .f32⟩ : BufTy).Contents (Elt Ideal)) k
      = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) k * val_main_v15 (F := Ideal) (m ((c : Thread nD τ).loc main_arg1)) (Cert.GcnLaw.rowOf k) := by
  rw [show (W6 m ρ c (Proc.devRef .tc main_v39) : (⟨S20000x256, .f32⟩ : BufTy).Contents (Elt Ideal)) = _ from
    (W6_arr m ρ c 4).trans (Cert.KernelIdeal.Region1.final (V5 m ρ) c)]
  refine mid1_pure _ _ _ _ (m ((c : Thread nD τ).loc main_arg1)) (val_main_v7 (F := Ideal) (m ((c : Thread nD τ).loc main_arg0)) (m ((c : Thread nD τ).loc main_arg2))) (val_main_v46 (F := Ideal) (m ((c : Thread nD τ).loc main_arg0)) (m ((c : Thread nD τ).loc main_arg1)) (m ((c : Thread nD τ).loc main_arg2)) (m ((c : Thread nD τ).loc main_arg3))) (val_main_v47 (F := Ideal) (m ((c : Thread nD τ).loc main_arg0)) (m ((c : Thread nD τ).loc main_arg1)) (m ((c : Thread nD τ).loc main_arg2)) (m ((c : Thread nD τ).loc main_arg3))) (val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg3)) (m ((c : Thread nD τ).loc main_arg4))
    ((agg_at5 m ρ c).trans (congrArg (aggr (m ((c : Thread nD τ).loc main_arg1))) (funext (k0_entry m ρ c)))) (fun R => ?_) (fun j => ?_) (fun j => ?_)
    (fun r c' => conv1 _ _ _ _ r c') (fun r c' => relu47 _ _ _ _ r c')
    (fun r c' => prod48 _ _ _ _ _ r c') k
  · rw [show (V5 m ρ c (Pipeline.arrRef spec1 1) : (⟨S20000x1, .f32⟩ : BufTy).Contents (Elt Ideal)) = W3 m ρ c (Proc.devRef .tc main_v15) from
      Cert.KernelIdeal.Boundary.v15_at5 m ρ c]
    exact Cert.KernelIdeal.Entry.dinv_apply m ρ c R
  · rw [show (V5 m ρ c (Pipeline.arrRef spec1 2) : (⟨S1x256, .f32⟩ : BufTy).Contents (Elt Ideal)) = W3 m ρ c (Proc.devRef .tc main_v22) from
      Cert.KernelIdeal.Boundary.v22_at5 m ρ c]
    exact Cert.KernelIdeal.Entry.b22_apply m ρ c j
  · rw [show (V5 m ρ c (Pipeline.arrRef spec1 3) : (⟨S256x256, .bf16⟩ : BufTy).Contents (Elt Ideal)) = W3 m ρ c (Proc.devRef .tc main_v17) from
      Cert.KernelIdeal.Boundary.v17_at5 m ρ c]
    exact Cert.KernelIdeal.Entry.w17_apply m ρ c j

set_option maxHeartbeats 8000000 in
/-- The third region's output: the reference's third projection, each row scaled by its node's weight. -/
theorem k2_entry (k : S20000x256.Idx) :
    (W8 m ρ c (Proc.devRef .tc main_v50) : (⟨S20000x256, .f32⟩ : BufTy).Contents (Elt Ideal)) k
      = val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) k * val_main_v15 (F := Ideal) (m ((c : Thread nD τ).loc main_arg1)) (Cert.GcnLaw.rowOf k) := by
  rw [show (W8 m ρ c (Proc.devRef .tc main_v50) : (⟨S20000x256, .f32⟩ : BufTy).Contents (Elt Ideal)) = _ from
    (W8_arr m ρ c 4).trans (Cert.KernelIdeal.Region2.final (V7 m ρ) c)]
  refine mid2_pure _ _ _ _ (m ((c : Thread nD τ).loc main_arg1)) (val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg5)) (m ((c : Thread nD τ).loc main_arg6))
    ((agg_at7 m ρ c).trans (congrArg (aggr (m ((c : Thread nD τ).loc main_arg1))) (funext (k1_entry m ρ c)))) (fun R => ?_) (fun j => ?_) (fun j => ?_)
    (fun r c' => conv2 _ _ _ _ _ _ r c') (fun r c' => relu88 _ _ _ _ _ _ r c')
    (fun r c' => prod89 _ _ _ _ _ _ _ r c') k
  · rw [show (V7 m ρ c (Pipeline.arrRef spec2 1) : (⟨S20000x1, .f32⟩ : BufTy).Contents (Elt Ideal)) = W3 m ρ c (Proc.devRef .tc main_v15) from
      Cert.KernelIdeal.Boundary.v15_at7 m ρ c]
    exact Cert.KernelIdeal.Entry.dinv_apply m ρ c R
  · rw [show (V7 m ρ c (Pipeline.arrRef spec2 2) : (⟨S1x256, .f32⟩ : BufTy).Contents (Elt Ideal)) = W3 m ρ c (Proc.devRef .tc main_v23) from
      Cert.KernelIdeal.Boundary.v23_at7 m ρ c]
    exact Cert.KernelIdeal.Entry.b23_apply m ρ c j
  · rw [show (V7 m ρ c (Pipeline.arrRef spec2 3) : (⟨S256x256, .bf16⟩ : BufTy).Contents (Elt Ideal)) = W3 m ρ c (Proc.devRef .tc main_v18) from
      Cert.KernelIdeal.Boundary.v18_at7 m ρ c]
    exact Cert.KernelIdeal.Entry.w18_apply m ρ c j

set_option maxHeartbeats 8000000 in
/-- The last region's output is the reference's result. -/
theorem out_entry (k : S20000x256.Idx) :
    (W10 m ρ c (Proc.devRef .tc main_v61) : (⟨S20000x256, .f32⟩ : BufTy).Contents (Elt Ideal)) k = val_main_v142 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) k := by
  rw [show (W10 m ρ c (Proc.devRef .tc main_v61) : (⟨S20000x256, .f32⟩ : BufTy).Contents (Elt Ideal)) = _ from
    (W10_arr m ρ c 9).trans (Cert.KernelIdeal.Region3.final (V9 m ρ) c)]
  refine head_pure _ _ _ _ _ _ _ _ _ (m ((c : Thread nD τ).loc main_arg1)) (val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (val_main_v128 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (val_main_v132 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (val_main_v133 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (val_main_v137 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (val_main_v138 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (val_main_v142 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)))
    (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
    ((agg_at9 m ρ c).trans (congrArg (aggr (m ((c : Thread nD τ).loc main_arg1))) (funext (k2_entry m ρ c)))) (fun R => ?_)
    (fun j => ?_) (fun j => ?_) (fun j => ?_) (fun j => ?_) (fun j => ?_) (fun j => ?_) (fun j => ?_)
    (fun r c' => conv3 _ _ _ _ _ _ _ _ r c') (fun r c' => dense132 _ _ _ _ _ _ _ _ _ _ r c') (fun r c' => relu133 _ _ _ _ _ _ _ _ _ _ r c')
    (fun r c' => dense137 _ _ _ _ _ _ _ _ _ _ _ _ r c') (fun r c' => relu138 _ _ _ _ _ _ _ _ _ _ _ _ r c')
    (fun r c' => dense142 _ _ _ _ _ _ _ _ _ _ _ _ _ _ r c') k
  · rw [show (V9 m ρ c (Pipeline.arrRef spec3 1) : (⟨S20000x1, .f32⟩ : BufTy).Contents (Elt Ideal)) = W3 m ρ c (Proc.devRef .tc main_v15) from
      Cert.KernelIdeal.Boundary.v15_at9 m ρ c]
    exact Cert.KernelIdeal.Entry.dinv_apply m ρ c R
  · rw [show (V9 m ρ c (Pipeline.arrRef spec3 2) : (⟨S1x256, .f32⟩ : BufTy).Contents (Elt Ideal)) = W3 m ρ c (Proc.devRef .tc main_v24) from
      Cert.KernelIdeal.Boundary.v24_at9 m ρ c]
    exact Cert.KernelIdeal.Entry.b24_apply m ρ c j
  · rw [show (V9 m ρ c (Pipeline.arrRef spec3 3) : (⟨S256x256, .bf16⟩ : BufTy).Contents (Elt Ideal)) = W3 m ρ c (Proc.devRef .tc main_v19) from
      Cert.KernelIdeal.Boundary.v19_at9 m ρ c]
    exact Cert.KernelIdeal.Entry.w19_apply m ρ c j
  · rw [show (V9 m ρ c (Pipeline.arrRef spec3 4) : (⟨S1x256, .f32⟩ : BufTy).Contents (Elt Ideal)) = W3 m ρ c (Proc.devRef .tc main_v25) from
      Cert.KernelIdeal.Boundary.v25_at9 m ρ c]
    exact Cert.KernelIdeal.Entry.b25_apply m ρ c j
  · rw [show (V9 m ρ c (Pipeline.arrRef spec3 5) : (⟨S256x256, .bf16⟩ : BufTy).Contents (Elt Ideal)) = W3 m ρ c (Proc.devRef .tc main_v20) from
      Cert.KernelIdeal.Boundary.v20_at9 m ρ c]
    exact Cert.KernelIdeal.Entry.w20_apply m ρ c j
  · rw [show (V9 m ρ c (Pipeline.arrRef spec3 6) : (⟨S1x256, .f32⟩ : BufTy).Contents (Elt Ideal)) = W3 m ρ c (Proc.devRef .tc main_v26) from
      Cert.KernelIdeal.Boundary.v26_at9 m ρ c]
    exact Cert.KernelIdeal.Entry.b26_apply m ρ c j
  · rw [show (V9 m ρ c (Pipeline.arrRef spec3 7) : (⟨S256x256, .bf16⟩ : BufTy).Contents (Elt Ideal)) = W3 m ρ c (Proc.devRef .tc main_v21) from
      Cert.KernelIdeal.Boundary.v21_at9 m ρ c]
    exact Cert.KernelIdeal.Entry.w21_apply m ρ c j
  · rw [show (V9 m ρ c (Pipeline.arrRef spec3 8) : (⟨S1x256, .f32⟩ : BufTy).Contents (Elt Ideal)) = W3 m ρ c (Proc.devRef .tc main_v27) from
      Cert.KernelIdeal.Boundary.v27_at9 m ρ c]
    exact Cert.KernelIdeal.Entry.b27_apply m ρ c j

/-- The result buffer at the last boundary is the reference's result term of the kernel's own arguments. -/
theorem result_eq : (W10 m ρ c (Proc.devRef .tc main_v61) : (⟨S20000x256, .f32⟩ : BufTy).Contents (Elt Ideal)) = val_main_v142 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  funext (out_entry m ρ c)

end Cert.KernelIdeal.Bridge

end
-- ==== Proof.lean ====
/-
  The certificate of a three-layer graph convolution followed by a three-layer perceptron, computed by four row-tiled
  kernels with the neighbourhood aggregation (gather the source rows, sum them into the destination rows) left to the
  host between them, against its array-language reference.

  The kernel program computes every node's weight once, scales the projected rows by it BEFORE the aggregation and the
  aggregated rows AFTER it; the reference scales each gathered message by the product of its source's and its
  destination's weights. A node's weight is the reciprocal square root of a positive count, or zero: a nonnegative
  finite number, and multiplication by such a number distributes over a finite sum of extended reals. So the two
  programs compute the same arrays, layer by layer (the comparison is module Bridge over the aggregation law of module
  GcnLaw); everything else — narrowing to a shorter float format, the tiling, the order of the sums — is the identity
  at the exact values. The three frames are the programs' runs; the idealization rewrote nothing.
-/
import proofs.«176313_j54795192762716_2_alg».proof.Defs
import proofs.«176313_j54795192762716_2_alg».proof.Proof.Gen.Kernel
import proofs.«176313_j54795192762716_2_alg».proof.Proof.Gen.Kernel.Skeleton
import proofs.«176313_j54795192762716_2_alg».proof.Proof.Gen.Kernel.Launch
import proofs.«176313_j54795192762716_2_alg».proof.Proof.Gen.Kernel.Points
import proofs.«176313_j54795192762716_2_alg».proof.Proof.Gen.Kernel.Frame
import proofs.«176313_j54795192762716_2_alg».proof.Proof.Gen.KernelIdeal
import proofs.«176313_j54795192762716_2_alg».proof.Proof.Gen.KernelIdeal.Skeleton
import proofs.«176313_j54795192762716_2_alg».proof.Proof.Gen.KernelIdeal.Launch
import proofs.«176313_j54795192762716_2_alg».proof.Proof.Gen.KernelIdeal.Points
import proofs.«176313_j54795192762716_2_alg».proof.Proof.Gen.KernelIdeal.Frame
import proofs.«176313_j54795192762716_2_alg».proof.Proof.Gen.ReferenceIdeal
import proofs.«176313_j54795192762716_2_alg».proof.Proof.Gen.Pre_finite_inputs
import proofs.«176313_j54795192762716_2_alg».proof.Proof.KernelRun
import proofs.«176313_j54795192762716_2_alg».proof.Proof.Bridge
import Idealize.ShloMosaic.Adequacy
import Idealize.ShloMosaic.Init

noncomputable section

namespace Cert.Proof

open Idealize.ShloMosaic Idealize.ShloMosaic.TcCoe Idealize.SL.Sem

/-- The kernel program as printed runs, and leaves its arguments as they were. -/
theorem frame_kernel : Cert.frame_Kernel := fun m ρ _ => Cert.Kernel.Gen.frame m ρ

/-- So does its reading at the exact values. -/
theorem frame_kernelIdeal : Cert.frame_KernelIdeal := fun m ρ _ => Cert.KernelIdeal.Gen.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both programs end with the same result array: the kernel program's
    result buffer holds the reference's result term of the kernel's arguments, which are the reference's. -/
theorem algebraic : Cert.algebraic_KernelIdeal_ReferenceIdeal := by
  intro m ρ m' ρ' _ hagree
  refine ⟨fun c => Cert.KernelIdeal.Gen.W10 m ρ c (Proc.devRef .tc Cert.KernelIdeal.main_v61),
    Cert.KernelIdeal.Result.run (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v142_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
  exact (Cert.KernelIdeal.Bridge.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
